-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v114)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v114) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v156) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S50000x128 : Shape := ⟨2, ![50000, 128]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S2 : Shape := ⟨1, ![2]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg15 : FVec F S2 .f32) (main_v63 : IVec S_ 1) (main_v67 : IVec S_ 1) : IVec S_ 1 :=
  let main_v68 : IVec S_ 1 := andi main_v63 main_v67
  let main_v69 : FVec F S2 .f32 := Host.absf main_arg15
  let main_cst_26 : FVec F S_ .f32 := constant S_ .f32 0x7F800000#32
  let main_v70 : FVec F S2 .f32 := broadcastInDim S2 ![] bcast_S_S2 main_cst_26
  let main_v71 : IVec S2 1 := cmpf .olt main_v69 main_v70
  let main_c_27 : IVec S_ 1 := constantI S_ 1 1#1
  let main_v72 : IVec S_ 1 := (fun x v => Host.reduce IntOp.andi x v reducesTo_S2_S_d0 h_S_) main_v71 main_c_27
  let main_v73 : IVec S_ 1 := andi main_v68 main_v72
  main_v73

def fn_part3 {F : FTy → Type} [FloatOps F] (main_arg12 : FVec F S128 .f32) (main_arg13 : FVec F S128 .f32) (main_arg14 : FVec F S128 .f32) (main_arg15 : FVec F S2 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_v63 main_v67

def fn_part2 {F : FTy → Type} [FloatOps F] (main_arg8 : FVec F S128 .f32) (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S2 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_v48 main_v49 main_v50

def fn_part1 {F : FTy → Type} [FloatOps F] (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S50000x256 .f32) (main_arg1 : FVec F S50000x128 .f32) (main_arg2 : IVec S2x800000 32) (main_arg3 : FVec F S256x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S2 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S50000x256 : Shape := ⟨2, ![50000, 256]⟩
abbrev S50000x128 : Shape := ⟨2, ![50000, 128]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S2 : Shape := ⟨1, ![2]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x256 : Shape := ⟨2, ![5000, 256]⟩
abbrev S5000x128 : Shape := ⟨2, ![5000, 128]⟩
abbrev S850000x128 : Shape := ⟨2, ![850000, 128]⟩
abbrev S1x128 : Shape := ⟨2, ![1, 128]⟩
abbrev S1 : Shape := ⟨1, ![1]⟩
abbrev S1x2 : Shape := ⟨2, ![1, 2]⟩
abbrev S5000 : Shape := ⟨1, ![5000]⟩
abbrev S5000x1 : Shape := ⟨2, ![5000, 1]⟩
abbrev S1x1 : Shape := ⟨2, ![1, 1]⟩

abbrev nBuf : Space → Nat
  | .hbm => 156
  | .vmem => 51
  | .smem => 0
  | _ => 0

abbrev hbmTy0_0 (i : Nat) : BufTy := match i % 128 with
  | 0 => ⟨S50000x256, .f32⟩
  | 1 => ⟨S50000x128, .f32⟩
  | 2 => ⟨S2x800000, .i32⟩
  | 3 => ⟨S256x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128, .f32⟩
  | 12 => ⟨S128, .f32⟩
  | 13 => ⟨S128, .f32⟩
  | 14 => ⟨S128, .f32⟩
  | 15 => ⟨S2, .f32⟩
  | 16 => ⟨S50000, .i32⟩
  | 17 => ⟨S1x800000, .i32⟩
  | 18 => ⟨S800000, .i32⟩
  | 19 => ⟨S850000, .i32⟩
  | 20 => ⟨S1x800000, .i32⟩
  | 21 => ⟨S800000, .i32⟩
  | 22 => ⟨S850000, .i32⟩
  | 23 => ⟨S_, .f32⟩
  | 24 => ⟨S850000, .f32⟩
  | 25 => ⟨S_, .f32⟩
  | 26 => ⟨S50000, .f32⟩
  | 27 => ⟨S850000x1, .i32⟩
  | 28 => ⟨S50000, .f32⟩
  | 29 => ⟨S_, .f32⟩
  | 30 => ⟨S50000, .f32⟩
  | 31 => ⟨S50000, .i1⟩
  | 32 => ⟨S50000, .f32⟩
  | 33 => ⟨S_, .f32⟩
  | 34 => ⟨S_, .f32⟩
  | 35 => ⟨S50000, .f32⟩
  | 36 => ⟨S50000, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000, .f32⟩
  | 46 => ⟨S_, .i32⟩
  | 47 => ⟨S850000, .i32⟩
  | 48 => ⟨S850000, .i1⟩
  | 49 => ⟨S_, .i32⟩
  | 50 => ⟨S850000, .i32⟩
  | 51 => ⟨S850000, .i32⟩
  | 52 => ⟨S850000, .i32⟩
  | 53 => ⟨S850000x1, .i32⟩
  | 54 => ⟨S850000, .f32⟩
  | 55 => ⟨S850000, .f32⟩
  | 56 => ⟨S850000x1, .f32⟩
  | 57 => ⟨S50000x256, .bf16⟩
  | 58 => ⟨S256x128, .bf16⟩
  | 59 => ⟨S50000x128, .f32⟩
  | 60 => ⟨S_, .i32⟩
  | 61 => ⟨S850000, .i32⟩
  | 62 => ⟨S850000, .i1⟩
  | 63 => ⟨S_, .i32⟩
  | 64 => ⟨S850000, .i32⟩
  | 65 => ⟨S850000, .i32⟩
  | 66 => ⟨S850000, .i32⟩
  | 67 => ⟨S850000x1, .i32⟩
  | 68 => ⟨S850000x128, .f32⟩
  | 69 => ⟨S850000x128, .f32⟩
  | 70 => ⟨S850000x128, .f32⟩
  | 71 => ⟨S_, .f32⟩
  | 72 => ⟨S50000x128, .f32⟩
  | 73 => ⟨S850000x1, .i32⟩
  | 74 => ⟨S50000x128, .f32⟩
  | 75 => ⟨S1x128, .f32⟩
  | 76 => ⟨S1x128, .f32⟩
  | 77 => ⟨S50000x128, .f32⟩
  | 78 => ⟨S50000x128, .bf16⟩
  | 79 => ⟨S128x128, .bf16⟩
  | 80 => ⟨S50000x128, .f32⟩
  | 81 => ⟨S_, .i32⟩
  | 82 => ⟨S850000, .i32⟩
  | 83 => ⟨S850000, .i1⟩
  | 84 => ⟨S_, .i32⟩
  | 85 => ⟨S850000, .i32⟩
  | 86 => ⟨S850000, .i32⟩
  | 87 => ⟨S850000, .i32⟩
  | 88 => ⟨S850000x1, .i32⟩
  | 89 => ⟨S850000x128, .f32⟩
  | 90 => ⟨S850000x128, .f32⟩
  | 91 => ⟨S850000x128, .f32⟩
  | 92 => ⟨S_, .f32⟩
  | 93 => ⟨S50000x128, .f32⟩
  | 94 => ⟨S850000x1, .i32⟩
  | 95 => ⟨S50000x128, .f32⟩
  | 96 => ⟨S1x128, .f32⟩
  | 97 => ⟨S1x128, .f32⟩
  | 98 => ⟨S50000x128, .f32⟩
  | 99 => ⟨S50000x128, .bf16⟩
  | 100 => ⟨S128x128, .bf16⟩
  | 101 => ⟨S50000x128, .f32⟩
  | 102 => ⟨S_, .i32⟩
  | 103 => ⟨S850000, .i32⟩
  | 104 => ⟨S850000, .i1⟩
  | 105 => ⟨S_, .i32⟩
  | 106 => ⟨S850000, .i32⟩
  | 107 => ⟨S850000, .i32⟩
  | 108 => ⟨S850000, .i32⟩
  | 109 => ⟨S850000x1, .i32⟩
  | 110 => ⟨S850000x128, .f32⟩
  | 111 => ⟨S850000x128, .f32⟩
  | 112 => ⟨S850000x128, .f32⟩
  | 113 => ⟨S_, .f32⟩
  | 114 => ⟨S50000x128, .f32⟩
  | 115 => ⟨S850000x1, .i32⟩
  | 116 => ⟨S50000x128, .f32⟩
  | 117 => ⟨S1x128, .f32⟩
  | 118 => ⟨S1x128, .f32⟩
  | 119 => ⟨S50000x128, .f32⟩
  | 120 => ⟨S50000x128, .bf16⟩
  | 121 => ⟨S128x128, .bf16⟩
  | 122 => ⟨S50000x128, .f32⟩
  | 123 => ⟨S_, .i32⟩
  | 124 => ⟨S850000, .i32⟩
  | 125 => ⟨S850000, .i1⟩
  | 126 => ⟨S_, .i32⟩
  | 127 => ⟨S850000, .i32⟩
  | _ => ⟨S50000x256, .f32⟩

abbrev hbmTy0_1 (i : Nat) : BufTy := match i % 128 with
  | 0 => ⟨S850000, .i32⟩
  | 1 => ⟨S850000, .i32⟩
  | 2 => ⟨S850000x1, .i32⟩
  | 3 => ⟨S850000x128, .f32⟩
  | 4 => ⟨S850000x128, .f32⟩
  | 5 => ⟨S850000x128, .f32⟩
  | 6 => ⟨S_, .f32⟩
  | 7 => ⟨S50000x128, .f32⟩
  | 8 => ⟨S850000x1, .i32⟩
  | 9 => ⟨S50000x128, .f32⟩
  | 10 => ⟨S1x128, .f32⟩
  | 11 => ⟨S1x128, .f32⟩
  | 12 => ⟨S50000x128, .f32⟩
  | 13 => ⟨S_, .f32⟩
  | 14 => ⟨S_, .f32⟩
  | 15 => ⟨S_, .f32⟩
  | 16 => ⟨S_, .f32⟩
  | 17 => ⟨S1, .f32⟩
  | 18 => ⟨S2, .f32⟩
  | 19 => ⟨S2, .f32⟩
  | 20 => ⟨S2, .f32⟩
  | 21 => ⟨S_, .f32⟩
  | 22 => ⟨S_, .f32⟩
  | 23 => ⟨S1, .f32⟩
  | 24 => ⟨S2, .f32⟩
  | 25 => ⟨S2, .f32⟩
  | 26 => ⟨S1x2, .f32⟩
  | 27 => ⟨S50000x128, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S5000x256, .bf16⟩
  | .local _ .vmem, ⟨1, _⟩ => ⟨S5000x256, .bf16⟩
  | .local _ .vmem, ⟨2, _⟩ => ⟨S256x128, .bf16⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .bf16⟩
  | .local _ .vmem, ⟨12, _⟩ => ⟨S5000x128, .bf16⟩
  | .local _ .vmem, ⟨13, _⟩ => ⟨S128x128, .bf16⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S1x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .bf16⟩
  | .local _ .vmem, ⟨23, _⟩ => ⟨S5000x128, .bf16⟩
  | .local _ .vmem, ⟨24, _⟩ => ⟨S128x128, .bf16⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S1x128, .f32⟩
  | .local _ .vmem, ⟨30, _⟩ => ⟨S1x128, .f32⟩
  | .local _ .vmem, ⟨31, _⟩ => ⟨S5000x128, .f32⟩
  | .local _ .vmem, ⟨32, _⟩ => ⟨S5000x128, .f32⟩
  | .local _ .vmem, ⟨33, _⟩ => ⟨S5000x128, .bf16⟩
  | .local _ .vmem, ⟨34, _⟩ => ⟨S5000x128, .bf16⟩
  | .local _ .vmem, ⟨35, _⟩ => ⟨S128x128, .bf16⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S1x128, .f32⟩
  | .local _ .vmem, ⟨41, _⟩ => ⟨S1x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S1x2, .f32⟩
  | .local _ .vmem, ⟨49, _⟩ => ⟨S5000x128, .f32⟩
  | .local _ .vmem, ⟨50, _⟩ => ⟨S5000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_v14 : Ref sig .tc := ⟨.hbm, 36, rfl⟩
abbrev main_c : Ref sig .tc := ⟨.hbm, 37, rfl⟩
abbrev main_v15 : Ref sig .tc := ⟨.hbm, 38, rfl⟩
abbrev main_v16 : Ref sig .tc := ⟨.hbm, 39, rfl⟩
abbrev main_c_3 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c_4 : Ref sig .tc := ⟨.hbm, 46, rfl⟩
abbrev main_v22 : Ref sig .tc := ⟨.hbm, 47, rfl⟩
abbrev main_v23 : Ref sig .tc := ⟨.hbm, 48, rfl⟩
abbrev main_c_5 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_c_6 : Ref sig .tc := ⟨.hbm, 60, rfl⟩
abbrev main_v34 : Ref sig .tc := ⟨.hbm, 61, rfl⟩
abbrev main_v35 : Ref sig .tc := ⟨.hbm, 62, rfl⟩
abbrev main_c_7 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_8 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_c_9 : Ref sig .tc := ⟨.hbm, 81, rfl⟩
abbrev main_v52 : Ref sig .tc := ⟨.hbm, 82, rfl⟩
abbrev main_v53 : Ref sig .tc := ⟨.hbm, 83, rfl⟩
abbrev main_c_10 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_11 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_c_12 : Ref sig .tc := ⟨.hbm, 102, rfl⟩
abbrev main_v70 : Ref sig .tc := ⟨.hbm, 103, rfl⟩
abbrev main_v71 : Ref sig .tc := ⟨.hbm, 104, rfl⟩
abbrev main_c_13 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_cst_14 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_c_15 : Ref sig .tc := ⟨.hbm, 123, rfl⟩
abbrev main_v88 : Ref sig .tc := ⟨.hbm, 124, rfl⟩
abbrev main_v89 : Ref sig .tc := ⟨.hbm, 125, rfl⟩
abbrev main_c_16 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_cst_17 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_cst_18 : Ref sig .tc := ⟨.hbm, 141, rfl⟩
abbrev main_v103 : Ref sig .tc := ⟨.hbm, 142, rfl⟩
abbrev main_cst_19 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_cst_20 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg3_0 : Ref sig .tc := ⟨.vmem, 31, rfl⟩
abbrev cc5_stg3_1 : Ref sig .tc := ⟨.vmem, 32, rfl⟩
abbrev cc6_stg0_0 : Ref sig .tc := ⟨.vmem, 33, rfl⟩
abbrev cc6_stg0_1 : Ref sig .tc := ⟨.vmem, 34, rfl⟩
abbrev cc6_stg1_0 : Ref sig .tc := ⟨.vmem, 35, rfl⟩
abbrev cc6_stg2_0 : Ref sig .tc := ⟨.vmem, 36, rfl⟩
abbrev cc6_stg2_1 : Ref sig .tc := ⟨.vmem, 37, rfl⟩
abbrev cc7_stg0_0 : Ref sig .tc := ⟨.vmem, 38, rfl⟩
abbrev cc7_stg0_1 : Ref sig .tc := ⟨.vmem, 39, rfl⟩
abbrev cc7_stg1_0 : Ref sig .tc := ⟨.vmem, 40, rfl⟩
abbrev cc7_stg2_0 : Ref sig .tc := ⟨.vmem, 41, rfl⟩
abbrev cc7_stg3_0 : Ref sig .tc := ⟨.vmem, 42, rfl⟩
abbrev cc7_stg3_1 : Ref sig .tc := ⟨.vmem, 43, rfl⟩
abbrev cc8_stg0_0 : Ref sig .tc := ⟨.vmem, 44, rfl⟩
abbrev cc8_stg0_1 : Ref sig .tc := ⟨.vmem, 45, rfl⟩
abbrev cc8_stg1_0 : Ref sig .tc := ⟨.vmem, 46, rfl⟩
abbrev cc8_stg1_1 : Ref sig .tc := ⟨.vmem, 47, rfl⟩
abbrev cc8_stg2_0 : Ref sig .tc := ⟨.vmem, 48, rfl⟩
abbrev cc8_stg3_0 : Ref sig .tc := ⟨.vmem, 49, rfl⟩
abbrev cc8_stg3_1 : Ref sig .tc := ⟨.vmem, 50, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem3_0 : DmaSem sig := 31
abbrev cc5_sem3_1 : DmaSem sig := 32
abbrev cc6_sem0_0 : DmaSem sig := 33
abbrev cc6_sem0_1 : DmaSem sig := 34
abbrev cc6_sem1_0 : DmaSem sig := 35
abbrev cc6_sem2_0 : DmaSem sig := 36
abbrev cc6_sem2_1 : DmaSem sig := 37
abbrev cc7_sem0_0 : DmaSem sig := 38
abbrev cc7_sem0_1 : DmaSem sig := 39
abbrev cc7_sem1_0 : DmaSem sig := 40
abbrev cc7_sem2_0 : DmaSem sig := 41
abbrev cc7_sem3_0 : DmaSem sig := 42
abbrev cc7_sem3_1 : DmaSem sig := 43
abbrev cc8_sem0_0 : DmaSem sig := 44
abbrev cc8_sem0_1 : DmaSem sig := 45
abbrev cc8_sem1_0 : DmaSem sig := 46
abbrev cc8_sem1_1 : DmaSem sig := 47
abbrev cc8_sem2_0 : DmaSem sig := 48
abbrev cc8_sem3_0 : DmaSem sig := 49
abbrev cc8_sem3_1 : DmaSem sig := 50

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S1x2 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S5000x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bitsLt_bf16_f32 : FTy.bits .bf16 < FTy.bits .f32
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S5000x128_S5000x128_0_0 : ∀ a, (![0, 0] : Fin 2 → Nat) a + S5000x128.size a ≤ S5000x128.size a
  h_S5000x128 : 0 < S5000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  reducesTo_S2_S_d0 : S2.ReducesTo [0] S_
  h_S_ : 0 < S_.numel
  bcast_S_S1 : S_.BroadcastsInDim S1 (![] : Fin 0 → Fin S1.rank)
  bcast_S1_S2_0 : S1.BroadcastsInDim S2 (![0] : Fin 1 → Fin S2.rank)
  shapeCasts_S2_S1x2 : S2.ShapeCasts S1x2
  reduces_S5000x128_S5000 : S5000x128.Reduces [1] S5000
  shapeCasts_S5000_S5000x1 : S5000.ShapeCasts S5000x1
  broadcasts_S5000x1_S5000x128 : S5000x1.Broadcasts S5000x128
  inb_S1x2_S1x1_0_0 : ∀ a, (![0, 0] : Fin 2 → Nat) a + S1x1.size a ≤ S1x2.size a
  h_S1x1 : 0 < S1x1.numel
  inpos_S1x1_p0_0 : ∀ a, (![0, 0] : Fin 2 → Nat) a < S1x1.size a
  inb_S1x2_S1x1_0_1 : ∀ a, (![0, 1] : Fin 2 → Nat) a + S1x1.size a ≤ S1x2.size a
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x256_S256x128_S5000x128_1_0_0_1_n_n_wf : DotDims.WF S5000x256 S256x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .bf16 = 32 ∨ (Rect.block (s := S50000x256) S5000x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .bf16 = 32 ∨ (Rect.block (s := S256x128) S256x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .bf16 = 32 ∨ (Rect.block (s := S50000x128) S5000x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .bf16 = 32 ∨ (Rect.block (s := S128x128) S128x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .bf16 = 32 ∨ (Rect.block (s := S50000x128) S5000x128.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .bf16 = 32 ∨ (Rect.block (s := S128x128) S128x128.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S50000x128.size a
  hwx5_3 : ∀ i : grid5.Coords, EltTy.bits .f32 = 32 ∨ (Rect.block (s := S50000x128) S5000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .bf16 = 32 ∨ (Rect.block (s := S50000x128) S5000x128.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .bf16 = 32 ∨ (Rect.block (s := S128x128) S128x128.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S50000x128.size a
  hwx6_2 : ∀ i : grid6.Coords, EltTy.bits .f32 = 32 ∨ (Rect.block (s := S50000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x128.size a ≤ S50000x128.size a
  hwx7_3 : ∀ i : grid7.Coords, EltTy.bits .f32 = 32 ∨ (Rect.block (s := S50000x128) S5000x128.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x128.size a ≤ S50000x128.size a
  hwx8_1 : ∀ i : grid8.Coords, EltTy.bits .f32 = 32 ∨ (Rect.block (s := S50000x128) S5000x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x2.size a ≤ S1x2.size a
  hwx8_2 : ∀ i : grid8.Coords, EltTy.bits .f32 = 32 ∨ (Rect.block (s := S1x2) S1x2.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S5000x128.size a ≤ S50000x128.size a
  hwx8_3 : ∀ i : grid8.Coords, EltTy.bits .f32 = 32 ∨ (Rect.block (s := S50000x128) S5000x128.size (cc8_transform_3 i) (hinb8_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v31) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v49) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v63) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v64) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v65) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v66) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v67) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v68) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v69) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v81) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v82) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v83) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v84) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v85) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v86) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v87) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v99) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v100) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v101) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v102) S5000x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v66) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v102) S5000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v113) S1x2.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v114) S5000x128.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

class Facts : Prop extends Facts₀ where

variable [Facts]
-- ==== ReferenceIdeal.lean ====
abbrev S50000x256 : Shape := ⟨2, ![50000, 256]⟩
abbrev S50000x128 : Shape := ⟨2, ![50000, 128]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S2 : Shape := ⟨1, ![2]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x1 : Shape := ⟨2, ![50000, 1]⟩
abbrev S1 : Shape := ⟨1, ![1]⟩

abbrev nBuf : Space → Nat
  | .hbm => 206
  | .vmem => 0
  | .smem => 0
  | _ => 0

abbrev hbmTy0_0 (i : Nat) : BufTy := match i % 128 with
  | 0 => ⟨S50000x256, .f32⟩
  | 1 => ⟨S50000x128, .f32⟩
  | 2 => ⟨S2x800000, .i32⟩
  | 3 => ⟨S256x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128, .f32⟩
  | 12 => ⟨S128, .f32⟩
  | 13 => ⟨S128, .f32⟩
  | 14 => ⟨S128, .f32⟩
  | 15 => ⟨S2, .f32⟩
  | 16 => ⟨S50000, .i32⟩
  | 17 => ⟨S1x800000, .i32⟩
  | 18 => ⟨S800000, .i32⟩
  | 19 => ⟨S850000, .i32⟩
  | 20 => ⟨S1x800000, .i32⟩
  | 21 => ⟨S800000, .i32⟩
  | 22 => ⟨S850000, .i32⟩
  | 23 => ⟨S_, .f32⟩
  | 24 => ⟨S850000, .f32⟩
  | 25 => ⟨S_, .f32⟩
  | 26 => ⟨S50000, .f32⟩
  | 27 => ⟨S850000x1, .i32⟩
  | 28 => ⟨S50000, .f32⟩
  | 29 => ⟨S_, .f32⟩
  | 30 => ⟨S50000, .f32⟩
  | 31 => ⟨S50000, .i1⟩
  | 32 => ⟨S50000, .f32⟩
  | 33 => ⟨S_, .f32⟩
  | 34 => ⟨S_, .f32⟩
  | 35 => ⟨S50000, .f32⟩
  | 36 => ⟨S50000, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000, .f32⟩
  | 46 => ⟨S_, .i32⟩
  | 47 => ⟨S850000, .i32⟩
  | 48 => ⟨S850000, .i1⟩
  | 49 => ⟨S_, .i32⟩
  | 50 => ⟨S850000, .i32⟩
  | 51 => ⟨S850000, .i32⟩
  | 52 => ⟨S850000, .i32⟩
  | 53 => ⟨S850000x1, .i32⟩
  | 54 => ⟨S850000, .f32⟩
  | 55 => ⟨S850000, .f32⟩
  | 56 => ⟨S50000x128, .f32⟩
  | 57 => ⟨S_, .i32⟩
  | 58 => ⟨S850000, .i32⟩
  | 59 => ⟨S850000, .i1⟩
  | 60 => ⟨S_, .i32⟩
  | 61 => ⟨S850000, .i32⟩
  | 62 => ⟨S850000, .i32⟩
  | 63 => ⟨S850000, .i32⟩
  | 64 => ⟨S850000x1, .i32⟩
  | 65 => ⟨S850000x128, .f32⟩
  | 66 => ⟨S850000x1, .f32⟩
  | 67 => ⟨S850000x128, .f32⟩
  | 68 => ⟨S850000x128, .f32⟩
  | 69 => ⟨S_, .f32⟩
  | 70 => ⟨S50000x128, .f32⟩
  | 71 => ⟨S850000x1, .i32⟩
  | 72 => ⟨S50000x128, .f32⟩
  | 73 => ⟨S1x128, .f32⟩
  | 74 => ⟨S50000x128, .f32⟩
  | 75 => ⟨S50000x128, .f32⟩
  | 76 => ⟨S_, .f32⟩
  | 77 => ⟨S50000x128, .f32⟩
  | 78 => ⟨S50000x128, .i1⟩
  | 79 => ⟨S1x128, .f32⟩
  | 80 => ⟨S50000x128, .f32⟩
  | 81 => ⟨S50000x128, .f32⟩
  | 82 => ⟨S50000x128, .f32⟩
  | 83 => ⟨S50000x128, .f32⟩
  | 84 => ⟨S_, .i32⟩
  | 85 => ⟨S850000, .i32⟩
  | 86 => ⟨S850000, .i1⟩
  | 87 => ⟨S_, .i32⟩
  | 88 => ⟨S850000, .i32⟩
  | 89 => ⟨S850000, .i32⟩
  | 90 => ⟨S850000, .i32⟩
  | 91 => ⟨S850000x1, .i32⟩
  | 92 => ⟨S850000x128, .f32⟩
  | 93 => ⟨S850000x1, .f32⟩
  | 94 => ⟨S850000x128, .f32⟩
  | 95 => ⟨S850000x128, .f32⟩
  | 96 => ⟨S_, .f32⟩
  | 97 => ⟨S50000x128, .f32⟩
  | 98 => ⟨S850000x1, .i32⟩
  | 99 => ⟨S50000x128, .f32⟩
  | 100 => ⟨S1x128, .f32⟩
  | 101 => ⟨S50000x128, .f32⟩
  | 102 => ⟨S50000x128, .f32⟩
  | 103 => ⟨S_, .f32⟩
  | 104 => ⟨S50000x128, .f32⟩
  | 105 => ⟨S50000x128, .i1⟩
  | 106 => ⟨S1x128, .f32⟩
  | 107 => ⟨S50000x128, .f32⟩
  | 108 => ⟨S50000x128, .f32⟩
  | 109 => ⟨S50000x128, .f32⟩
  | 110 => ⟨S50000x128, .f32⟩
  | 111 => ⟨S_, .f32⟩
  | 112 => ⟨S50000, .f32⟩
  | 113 => ⟨S50000x1, .f32⟩
  | 114 => ⟨S50000x1, .f32⟩
  | 115 => ⟨S_, .f32⟩
  | 116 => ⟨S50000x1, .f32⟩
  | 117 => ⟨S50000x1, .f32⟩
  | 118 => ⟨S50000x128, .f32⟩
  | 119 => ⟨S50000x128, .f32⟩
  | 120 => ⟨S50000x128, .f32⟩
  | 121 => ⟨S_, .i32⟩
  | 122 => ⟨S850000, .i32⟩
  | 123 => ⟨S850000, .i1⟩
  | 124 => ⟨S_, .i32⟩
  | 125 => ⟨S850000, .i32⟩
  | 126 => ⟨S850000, .i32⟩
  | 127 => ⟨S850000, .i32⟩
  | _ => ⟨S50000x256, .f32⟩

abbrev hbmTy0_1 (i : Nat) : BufTy := match i % 128 with
  | 0 => ⟨S850000x1, .i32⟩
  | 1 => ⟨S850000x128, .f32⟩
  | 2 => ⟨S850000x1, .f32⟩
  | 3 => ⟨S850000x128, .f32⟩
  | 4 => ⟨S850000x128, .f32⟩
  | 5 => ⟨S_, .f32⟩
  | 6 => ⟨S50000x128, .f32⟩
  | 7 => ⟨S850000x1, .i32⟩
  | 8 => ⟨S50000x128, .f32⟩
  | 9 => ⟨S1x128, .f32⟩
  | 10 => ⟨S50000x128, .f32⟩
  | 11 => ⟨S50000x128, .f32⟩
  | 12 => ⟨S_, .f32⟩
  | 13 => ⟨S50000x128, .f32⟩
  | 14 => ⟨S50000x128, .i1⟩
  | 15 => ⟨S1x128, .f32⟩
  | 16 => ⟨S50000x128, .f32⟩
  | 17 => ⟨S50000x128, .f32⟩
  | 18 => ⟨S50000x128, .f32⟩
  | 19 => ⟨S50000x128, .f32⟩
  | 20 => ⟨S_, .i32⟩
  | 21 => ⟨S850000, .i32⟩
  | 22 => ⟨S850000, .i1⟩
  | 23 => ⟨S_, .i32⟩
  | 24 => ⟨S850000, .i32⟩
  | 25 => ⟨S850000, .i32⟩
  | 26 => ⟨S850000, .i32⟩
  | 27 => ⟨S850000x1, .i32⟩
  | 28 => ⟨S850000x128, .f32⟩
  | 29 => ⟨S850000x1, .f32⟩
  | 30 => ⟨S850000x128, .f32⟩
  | 31 => ⟨S850000x128, .f32⟩
  | 32 => ⟨S_, .f32⟩
  | 33 => ⟨S50000x128, .f32⟩
  | 34 => ⟨S850000x1, .i32⟩
  | 35 => ⟨S50000x128, .f32⟩
  | 36 => ⟨S1x128, .f32⟩
  | 37 => ⟨S50000x128, .f32⟩
  | 38 => ⟨S50000x128, .f32⟩
  | 39 => ⟨S_, .f32⟩
  | 40 => ⟨S50000x128, .f32⟩
  | 41 => ⟨S50000x128, .i1⟩
  | 42 => ⟨S1x128, .f32⟩
  | 43 => ⟨S50000x128, .f32⟩
  | 44 => ⟨S50000x128, .f32⟩
  | 45 => ⟨S50000x128, .f32⟩
  | 46 => ⟨S50000x128, .f32⟩
  | 47 => ⟨S_, .f32⟩
  | 48 => ⟨S50000, .f32⟩
  | 49 => ⟨S50000x1, .f32⟩
  | 50 => ⟨S50000x1, .f32⟩
  | 51 => ⟨S_, .f32⟩
  | 52 => ⟨S50000x1, .f32⟩
  | 53 => ⟨S50000x1, .f32⟩
  | 54 => ⟨S50000x128, .f32⟩
  | 55 => ⟨S50000x128, .f32⟩
  | 56 => ⟨S_, .f32⟩
  | 57 => ⟨S_, .f32⟩
  | 58 => ⟨S_, .f32⟩
  | 59 => ⟨S_, .f32⟩
  | 60 => ⟨S1, .f32⟩
  | 61 => ⟨S2, .f32⟩
  | 62 => ⟨S2, .f32⟩
  | 63 => ⟨S2, .f32⟩
  | 64 => ⟨S_, .f32⟩
  | 65 => ⟨S_, .f32⟩
  | 66 => ⟨S1, .f32⟩
  | 67 => ⟨S2, .f32⟩
  | 68 => ⟨S2, .f32⟩
  | 69 => ⟨S1, .f32⟩
  | 70 => ⟨S_, .f32⟩
  | 71 => ⟨S50000x128, .f32⟩
  | 72 => ⟨S50000x128, .f32⟩
  | 73 => ⟨S1, .f32⟩
  | 74 => ⟨S_, .f32⟩
  | 75 => ⟨S50000x128, .f32⟩
  | 76 => ⟨S50000x128, .f32⟩
  | 77 => ⟨S50000x128, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_v14 : Ref sig .tc := ⟨.hbm, 36, rfl⟩
abbrev main_c : Ref sig .tc := ⟨.hbm, 37, rfl⟩
abbrev main_v15 : Ref sig .tc := ⟨.hbm, 38, rfl⟩
abbrev main_v16 : Ref sig .tc := ⟨.hbm, 39, rfl⟩
abbrev main_c_3 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c_4 : Ref sig .tc := ⟨.hbm, 46, rfl⟩
abbrev main_v22 : Ref sig .tc := ⟨.hbm, 47, rfl⟩
abbrev main_v23 : Ref sig .tc := ⟨.hbm, 48, rfl⟩
abbrev main_c_5 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_c_6 : Ref sig .tc := ⟨.hbm, 57, rfl⟩
abbrev main_v31 : Ref sig .tc := ⟨.hbm, 58, rfl⟩
abbrev main_v32 : Ref sig .tc := ⟨.hbm, 59, rfl⟩
abbrev main_c_7 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_8 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_9 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_c_10 : Ref sig .tc := ⟨.hbm, 84, rfl⟩
abbrev main_v54 : Ref sig .tc := ⟨.hbm, 85, rfl⟩
abbrev main_v55 : Ref sig .tc := ⟨.hbm, 86, rfl⟩
abbrev main_c_11 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_12 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_13 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_14 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_15 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_c_16 : Ref sig .tc := ⟨.hbm, 121, rfl⟩
abbrev main_v85 : Ref sig .tc := ⟨.hbm, 122, rfl⟩
abbrev main_v86 : Ref sig .tc := ⟨.hbm, 123, rfl⟩
abbrev main_c_17 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_cst_18 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_cst_19 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_c_20 : Ref sig .tc := ⟨.hbm, 148, rfl⟩
abbrev main_v108 : Ref sig .tc := ⟨.hbm, 149, rfl⟩
abbrev main_v109 : Ref sig .tc := ⟨.hbm, 150, rfl⟩
abbrev main_c_21 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_cst_22 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_cst_23 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_cst_24 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_cst_25 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_cst_26 : Ref sig .tc := ⟨.hbm, 184, rfl⟩
abbrev main_v138 : Ref sig .tc := ⟨.hbm, 185, rfl⟩
abbrev main_cst_27 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_cst_28 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  reducesTo_S2_S_d0 : S2.ReducesTo [0] S_
  bcast_S_S1 : S_.BroadcastsInDim S1 (![] : Fin 0 → Fin S1.rank)
  bcast_S1_S2_0 : S1.BroadcastsInDim S2 (![0] : Fin 1 → Fin S2.rank)
  slices_S2_S1_0 : S2.Slices ![0] S1
  shapeCasts_S1_S_ : S1.ShapeCasts S_
  slices_S2_S1_1 : S2.Slices ![1] S1
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x128_S50000x128_1_0_0_1_n_n_wf : DotDims.WF S50000x128 S128x128 S50000x128 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.RefStages.lean ====
/-
  The reference program's stretches, each read against the stages.

  A stretch of host operations, applied to buffers that already hold earlier stages, leaves in each buffer it writes
  the stage of that name: the stage IS the stretch's operations composed, as a function of the argument arrays. Each
  lemma states this for one buffer of one stretch, over any contents `V` of the buffers the stretch starts from: given
  that the buffers the operations read hold the named earlier stages (or an argument array), the buffer written holds
  the named stage. A call of a module-local function — deg^(-1/2) where the degree is positive, and each parametric
  rectifier's select — is read on its own, over ANY contents of its three operands: the select of those.
-/
import proofs.«123922_j71399536328730_2_alg».proof.Proof.RefRead

set_option maxRecDepth 16384

noncomputable section

namespace Cert.ReferenceIdeal.ByHand

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

theorem st0_main_v3 (V : Valuation τ sig (Elt Ideal)) (x2 : (⟨S2x800000, .i32⟩ : BufTy).Contents (Elt Ideal))
    (h_main_arg2 : V (Proc.devRef .tc main_arg2) = x2) :
    StableHlo.after (ops0 (F := Ideal)) V (Proc.devRef .tc main_v3) = val_main_v3 (F := Ideal) x2 := by
  after_results
  rw [h_main_arg2]
  rfl

theorem st0_main_v6 (V : Valuation τ sig (Elt Ideal)) (x2 : (⟨S2x800000, .i32⟩ : BufTy).Contents (Elt Ideal))
    (h_main_arg2 : V (Proc.devRef .tc main_arg2) = x2) :
    StableHlo.after (ops0 (F := Ideal)) V (Proc.devRef .tc main_v6) = val_main_v6 (F := Ideal) x2 := by
  after_results
  rw [h_main_arg2]
  rfl

theorem st0_main_v12 (V : Valuation τ sig (Elt Ideal)) (x2 : (⟨S2x800000, .i32⟩ : BufTy).Contents (Elt Ideal))
    (h_main_arg2 : V (Proc.devRef .tc main_arg2) = x2) :
    StableHlo.after (ops0 (F := Ideal)) V (Proc.devRef .tc main_v12) = val_main_v12 (F := Ideal) x2 := by
  after_results
  rw [h_main_arg2]
  rfl

theorem st0_main_v13 (V : Valuation τ sig (Elt Ideal)) (x2 : (⟨S2x800000, .i32⟩ : BufTy).Contents (Elt Ideal))
    (h_main_arg2 : V (Proc.devRef .tc main_arg2) = x2) :
    StableHlo.after (ops0 (F := Ideal)) V (Proc.devRef .tc main_v13) = val_main_v13 (F := Ideal) x2 := by
  after_results
  rw [h_main_arg2]
  rfl

theorem st0_main_cst_2 (V : Valuation τ sig (Elt Ideal))
    :
    StableHlo.after (ops0 (F := Ideal)) V (Proc.devRef .tc main_cst_2) = val_main_cst_2 (F := Ideal)  := by
  after_results
  rfl

theorem st1_main_v14 (V : Valuation τ sig (Elt Ideal))
    (a : (⟨S50000, .i1⟩ : BufTy).Contents (Elt Ideal)) (b : (⟨S50000, .f32⟩ : BufTy).Contents (Elt Ideal)) (z : (⟨S_, .f32⟩ : BufTy).Contents (Elt Ideal))
    (h_main_v12 : V (Proc.devRef .tc main_v12) = a) (h_main_v13 : V (Proc.devRef .tc main_v13) = b) (h_main_cst_2 : V (Proc.devRef .tc main_cst_2) = z) :
    StableHlo.after (ops1 (F := Ideal)) V (Proc.devRef .tc main_v14) = select a b (broadcastInDim S50000 ![] bcast_S_S50000 (id z)) := by
  after_results_simp
  rw [h_main_v12, h_main_v13, h_main_cst_2]
  rfl

theorem st2_main_v29 (V : Valuation τ sig (Elt Ideal)) (x2 : (⟨S2x800000, .i32⟩ : BufTy).Contents (Elt Ideal))
    (h_main_v14 : V (Proc.devRef .tc main_v14) = val_main_v14 (F := Ideal) x2)
    (h_main_v3 : V (Proc.devRef .tc main_v3) = val_main_v3 (F := Ideal) x2)
    (h_main_v6 : V (Proc.devRef .tc main_v6) = val_main_v6 (F := Ideal) x2) :
    StableHlo.after (ops2 (F := Ideal)) V (Proc.devRef .tc main_v29) = val_main_v29 (F := Ideal) x2 := by
  after_results_simp
  rw [h_main_v14, h_main_v3, h_main_v6]
  rfl

theorem st3_main_v46 (V : Valuation τ sig (Elt Ideal)) (x0 : (⟨S50000x256, .f32⟩ : BufTy).Contents (Elt Ideal)) (x2 : (⟨S2x800000, .i32⟩ : BufTy).Contents (Elt Ideal)) (x3 : (⟨S256x128, .f32⟩ : BufTy).Contents (Elt Ideal)) (x4 : (⟨S128, .f32⟩ : BufTy).Contents (Elt Ideal))
    (h_main_arg0 : V (Proc.devRef .tc main_arg0) = x0)
    (h_main_arg3 : V (Proc.devRef .tc main_arg3) = x3)
    (h_main_v3 : V (Proc.devRef .tc main_v3) = val_main_v3 (F := Ideal) x2)
    (h_main_v29 : V (Proc.devRef .tc main_v29) = val_main_v29 (F := Ideal) x2)
    (h_main_v6 : V (Proc.devRef .tc main_v6) = val_main_v6 (F := Ideal) x2)
    (h_main_arg4 : V (Proc.devRef .tc main_arg4) = x4) :
    StableHlo.after (ops3 (F := Ideal)) V (Proc.devRef .tc main_v46) = val_main_v46 (F := Ideal) x0 x2 x3 x4 := by
  after_results_simp
  rw [h_main_arg0, h_main_arg3, h_main_v3, h_main_v29, h_main_v6, h_main_arg4]
  rfl

theorem st3_main_v48 (V : Valuation τ sig (Elt Ideal)) (x0 : (⟨S50000x256, .f32⟩ : BufTy).Contents (Elt Ideal)) (x2 : (⟨S2x800000, .i32⟩ : BufTy).Contents (Elt Ideal)) (x3 : (⟨S256x128, .f32⟩ : BufTy).Contents (Elt Ideal)) (x4 : (⟨S128, .f32⟩ : BufTy).Contents (Elt Ideal))
    (h_main_arg0 : V (Proc.devRef .tc main_arg0) = x0)
    (h_main_arg3 : V (Proc.devRef .tc main_arg3) = x3)
    (h_main_v3 : V (Proc.devRef .tc main_v3) = val_main_v3 (F := Ideal) x2)
    (h_main_v29 : V (Proc.devRef .tc main_v29) = val_main_v29 (F := Ideal) x2)
    (h_main_v6 : V (Proc.devRef .tc main_v6) = val_main_v6 (F := Ideal) x2)
    (h_main_arg4 : V (Proc.devRef .tc main_arg4) = x4) :
    StableHlo.after (ops3 (F := Ideal)) V (Proc.devRef .tc main_v48) = val_main_v48 (F := Ideal) x0 x2 x3 x4 := by
  after_results_simp
  rw [h_main_arg0, h_main_arg3, h_main_v3, h_main_v29, h_main_v6, h_main_arg4]
  rfl

theorem st3_main_v51 (V : Valuation τ sig (Elt Ideal)) (x0 : (⟨S50000x256, .f32⟩ : BufTy).Contents (Elt Ideal)) (x2 : (⟨S2x800000, .i32⟩ : BufTy).Contents (Elt Ideal)) (x3 : (⟨S256x128, .f32⟩ : BufTy).Contents (Elt Ideal)) (x4 : (⟨S128, .f32⟩ : BufTy).Contents (Elt Ideal)) (x11 : (⟨S128, .f32⟩ : BufTy).Contents (Elt Ideal))
    (h_main_arg0 : V (Proc.devRef .tc main_arg0) = x0)
    (h_main_arg3 : V (Proc.devRef .tc main_arg3) = x3)
    (h_main_v3 : V (Proc.devRef .tc main_v3) = val_main_v3 (F := Ideal) x2)
    (h_main_v29 : V (Proc.devRef .tc main_v29) = val_main_v29 (F := Ideal) x2)
    (h_main_v6 : V (Proc.devRef .tc main_v6) = val_main_v6 (F := Ideal) x2)
    (h_main_arg4 : V (Proc.devRef .tc main_arg4) = x4)
    (h_main_arg11 : V (Proc.devRef .tc main_arg11) = x11) :
    StableHlo.after (ops3 (F := Ideal)) V (Proc.devRef .tc main_v51) = val_main_v51 (F := Ideal) x0 x2 x3 x4 x11 := by
  after_results_simp
  rw [h_main_arg0, h_main_arg3, h_main_v3, h_main_v29, h_main_v6, h_main_arg4, h_main_arg11]
  rfl

theorem st4_main_v52 (V : Valuation τ sig (Elt Ideal))
    (a : (⟨S50000x128, .i1⟩ : BufTy).Contents (Elt Ideal)) (b : (⟨S50000x128, .f32⟩ : BufTy).Contents (Elt Ideal)) (d : (⟨S50000x128, .f32⟩ : BufTy).Contents (Elt Ideal))
    (h_main_v48 : V (Proc.devRef .tc main_v48) = a) (h_main_v46 : V (Proc.devRef .tc main_v46) = b) (h_main_v51 : V (Proc.devRef .tc main_v51) = d) :
    StableHlo.after (ops4 (F := Ideal)) V (Proc.devRef .tc main_v52) = select a b d := by
  after_results_simp
  rw [h_main_v48, h_main_v46, h_main_v51]
  rfl

theorem st5_main_v69 (V : Valuation τ sig (Elt Ideal)) (x0 : (⟨S50000x256, .f32⟩ : BufTy).Contents (Elt Ideal)) (x2 : (⟨S2x800000, .i32⟩ : BufTy).Contents (Elt Ideal)) (x3 : (⟨S256x128, .f32⟩ : BufTy).Contents (Elt Ideal)) (x4 : (⟨S128, .f32⟩ : BufTy).Contents (Elt Ideal)) (x7 : (⟨S128x128, .f32⟩ : BufTy).Contents (Elt Ideal)) (x8 : (⟨S128, .f32⟩ : BufTy).Contents (Elt Ideal)) (x11 : (⟨S128, .f32⟩ : BufTy).Contents (Elt Ideal))
    (h_main_v52 : V (Proc.devRef .tc main_v52) = val_main_v52 (F := Ideal) x0 x2 x3 x4 x11)
    (h_main_arg7 : V (Proc.devRef .tc main_arg7) = x7)
    (h_main_v3 : V (Proc.devRef .tc main_v3) = val_main_v3 (F := Ideal) x2)
    (h_main_v29 : V (Proc.devRef .tc main_v29) = val_main_v29 (F := Ideal) x2)
    (h_main_v6 : V (Proc.devRef .tc main_v6) = val_main_v6 (F := Ideal) x2)
    (h_main_arg8 : V (Proc.devRef .tc main_arg8) = x8) :
    StableHlo.after (ops5 (F := Ideal)) V (Proc.devRef .tc main_v69) = val_main_v69 (F := Ideal) x0 x2 x3 x4 x7 x8 x11 := by
  after_results_simp
  rw [h_main_v52, h_main_arg7, h_main_v3, h_main_v29, h_main_v6, h_main_arg8]
  rfl

theorem st5_main_v71 (V : Valuation τ sig (Elt Ideal)) (x0 : (⟨S50000x256, .f32⟩ : BufTy).Contents (Elt Ideal)) (x2 : (⟨S2x800000, .i32⟩ : BufTy).Contents (Elt Ideal)) (x3 : (⟨S256x128, .f32⟩ : BufTy).Contents (Elt Ideal)) (x4 : (⟨S128, .f32⟩ : BufTy).Contents (Elt Ideal)) (x7 : (⟨S128x128, .f32⟩ : BufTy).Contents (Elt Ideal)) (x8 : (⟨S128, .f32⟩ : BufTy).Contents (Elt Ideal)) (x11 : (⟨S128, .f32⟩ : BufTy).Contents (Elt Ideal))
    (h_main_v52 : V (Proc.devRef .tc main_v52) = val_main_v52 (F := Ideal) x0 x2 x3 x4 x11)
    (h_main_arg7 : V (Proc.devRef .tc main_arg7) = x7)
    (h_main_v3 : V (Proc.devRef .tc main_v3) = val_main_v3 (F := Ideal) x2)
    (h_main_v29 : V (Proc.devRef .tc main_v29) = val_main_v29 (F := Ideal) x2)
    (h_main_v6 : V (Proc.devRef .tc main_v6) = val_main_v6 (F := Ideal) x2)
    (h_main_arg8 : V (Proc.devRef .tc main_arg8) = x8) :
    StableHlo.after (ops5 (F := Ideal)) V (Proc.devRef .tc main_v71) = val_main_v71 (F := Ideal) x0 x2 x3 x4 x7 x8 x11 := by
  after_results_simp
  rw [h_main_v52, h_main_arg7, h_main_v3, h_main_v29, h_main_v6, h_main_arg8]
  rfl

theorem st5_main_v74 (V : Valuation τ sig (Elt Ideal)) (x0 : (⟨S50000x256, .f32⟩ : BufTy).Contents (Elt Ideal)) (x2 : (⟨S2x800000, .i32⟩ : BufTy).Contents (Elt Ideal)) (x3 : (⟨S256x128, .f32⟩ : BufTy).Contents (Elt Ideal)) (x4 : (⟨S128, .f32⟩ : BufTy).Contents (Elt Ideal)) (x7 : (⟨S128x128, .f32⟩ : BufTy).Contents (Elt Ideal)) (x8 : (⟨S128, .f32⟩ : BufTy).Contents (Elt Ideal)) (x11 : (⟨S128, .f32⟩ : BufTy).Contents (Elt Ideal)) (x12 : (⟨S128, .f32⟩ : BufTy).Contents (Elt Ideal))
    (h_main_v52 : V (Proc.devRef .tc main_v52) = val_main_v52 (F := Ideal) x0 x2 x3 x4 x11)
    (h_main_arg7 : V (Proc.devRef .tc main_arg7) = x7)
    (h_main_v3 : V (Proc.devRef .tc main_v3) = val_main_v3 (F := Ideal) x2)
    (h_main_v29 : V (Proc.devRef .tc main_v29) = val_main_v29 (F := Ideal) x2)
    (h_main_v6 : V (Proc.devRef .tc main_v6) = val_main_v6 (F := Ideal) x2)
    (h_main_arg8 : V (Proc.devRef .tc main_arg8) = x8)
    (h_main_arg12 : V (Proc.devRef .tc main_arg12) = x12) :
    StableHlo.after (ops5 (F := Ideal)) V (Proc.devRef .tc main_v74) = val_main_v74 (F := Ideal) x0 x2 x3 x4 x7 x8 x11 x12 := by
  after_results_simp
  rw [h_main_v52, h_main_arg7, h_main_v3, h_main_v29, h_main_v6, h_main_arg8, h_main_arg12]
  rfl

theorem st6_main_v75 (V : Valuation τ sig (Elt Ideal))
    (a : (⟨S50000x128, .i1⟩ : BufTy).Contents (Elt Ideal)) (b : (⟨S50000x128, .f32⟩ : BufTy).Contents (Elt Ideal)) (d : (⟨S50000x128, .f32⟩ : BufTy).Contents (Elt Ideal))
    (h_main_v71 : V (Proc.devRef .tc main_v71) = a) (h_main_v69 : V (Proc.devRef .tc main_v69) = b) (h_main_v74 : V (Proc.devRef .tc main_v74) = d) :
    StableHlo.after (ops6 (F := Ideal)) V (Proc.devRef .tc main_v75) = select a b d := by
  after_results_simp
  rw [h_main_v71, h_main_v69, h_main_v74]
  rfl

theorem st7_main_v83 (V : Valuation τ sig (Elt Ideal)) (x0 : (⟨S50000x256, .f32⟩ : BufTy).Contents (Elt Ideal)) (x2 : (⟨S2x800000, .i32⟩ : BufTy).Contents (Elt Ideal)) (x3 : (⟨S256x128, .f32⟩ : BufTy).Contents (Elt Ideal)) (x4 : (⟨S128, .f32⟩ : BufTy).Contents (Elt Ideal)) (x7 : (⟨S128x128, .f32⟩ : BufTy).Contents (Elt Ideal)) (x8 : (⟨S128, .f32⟩ : BufTy).Contents (Elt Ideal)) (x11 : (⟨S128, .f32⟩ : BufTy).Contents (Elt Ideal)) (x12 : (⟨S128, .f32⟩ : BufTy).Contents (Elt Ideal))
    (h_main_v75 : V (Proc.devRef .tc main_v75) = val_main_v75 (F := Ideal) x0 x2 x3 x4 x7 x8 x11 x12) :
    StableHlo.after (ops7 (F := Ideal)) V (Proc.devRef .tc main_v83) = val_main_v83 (F := Ideal) x0 x2 x3 x4 x7 x8 x11 x12 := by
  after_results_simp
  rw [h_main_v75]
  rfl

theorem st8_main_v100 (V : Valuation τ sig (Elt Ideal)) (x1 : (⟨S50000x128, .f32⟩ : BufTy).Contents (Elt Ideal)) (x2 : (⟨S2x800000, .i32⟩ : BufTy).Contents (Elt Ideal)) (x5 : (⟨S128x128, .f32⟩ : BufTy).Contents (Elt Ideal)) (x6 : (⟨S128, .f32⟩ : BufTy).Contents (Elt Ideal))
    (h_main_arg1 : V (Proc.devRef .tc main_arg1) = x1)
    (h_main_arg5 : V (Proc.devRef .tc main_arg5) = x5)
    (h_main_v3 : V (Proc.devRef .tc main_v3) = val_main_v3 (F := Ideal) x2)
    (h_main_v29 : V (Proc.devRef .tc main_v29) = val_main_v29 (F := Ideal) x2)
    (h_main_v6 : V (Proc.devRef .tc main_v6) = val_main_v6 (F := Ideal) x2)
    (h_main_arg6 : V (Proc.devRef .tc main_arg6) = x6) :
    StableHlo.after (ops8 (F := Ideal)) V (Proc.devRef .tc main_v100) = val_main_v100 (F := Ideal) x1 x2 x5 x6 := by
  after_results_simp
  rw [h_main_arg1, h_main_arg5, h_main_v3, h_main_v29, h_main_v6, h_main_arg6]
  rfl

theorem st8_main_v102 (V : Valuation τ sig (Elt Ideal)) (x1 : (⟨S50000x128, .f32⟩ : BufTy).Contents (Elt Ideal)) (x2 : (⟨S2x800000, .i32⟩ : BufTy).Contents (Elt Ideal)) (x5 : (⟨S128x128, .f32⟩ : BufTy).Contents (Elt Ideal)) (x6 : (⟨S128, .f32⟩ : BufTy).Contents (Elt Ideal))
    (h_main_arg1 : V (Proc.devRef .tc main_arg1) = x1)
    (h_main_arg5 : V (Proc.devRef .tc main_arg5) = x5)
    (h_main_v3 : V (Proc.devRef .tc main_v3) = val_main_v3 (F := Ideal) x2)
    (h_main_v29 : V (Proc.devRef .tc main_v29) = val_main_v29 (F := Ideal) x2)
    (h_main_v6 : V (Proc.devRef .tc main_v6) = val_main_v6 (F := Ideal) x2)
    (h_main_arg6 : V (Proc.devRef .tc main_arg6) = x6) :
    StableHlo.after (ops8 (F := Ideal)) V (Proc.devRef .tc main_v102) = val_main_v102 (F := Ideal) x1 x2 x5 x6 := by
  after_results_simp
  rw [h_main_arg1, h_main_arg5, h_main_v3, h_main_v29, h_main_v6, h_main_arg6]
  rfl

theorem st8_main_v105 (V : Valuation τ sig (Elt Ideal)) (x1 : (⟨S50000x128, .f32⟩ : BufTy).Contents (Elt Ideal)) (x2 : (⟨S2x800000, .i32⟩ : BufTy).Contents (Elt Ideal)) (x5 : (⟨S128x128, .f32⟩ : BufTy).Contents (Elt Ideal)) (x6 : (⟨S128, .f32⟩ : BufTy).Contents (Elt Ideal)) (x13 : (⟨S128, .f32⟩ : BufTy).Contents (Elt Ideal))
    (h_main_arg1 : V (Proc.devRef .tc main_arg1) = x1)
    (h_main_arg5 : V (Proc.devRef .tc main_arg5) = x5)
    (h_main_v3 : V (Proc.devRef .tc main_v3) = val_main_v3 (F := Ideal) x2)
    (h_main_v29 : V (Proc.devRef .tc main_v29) = val_main_v29 (F := Ideal) x2)
    (h_main_v6 : V (Proc.devRef .tc main_v6) = val_main_v6 (F := Ideal) x2)
    (h_main_arg6 : V (Proc.devRef .tc main_arg6) = x6)
    (h_main_arg13 : V (Proc.devRef .tc main_arg13) = x13) :
    StableHlo.after (ops8 (F := Ideal)) V (Proc.devRef .tc main_v105) = val_main_v105 (F := Ideal) x1 x2 x5 x6 x13 := by
  after_results_simp
  rw [h_main_arg1, h_main_arg5, h_main_v3, h_main_v29, h_main_v6, h_main_arg6, h_main_arg13]
  rfl

theorem st9_main_v106 (V : Valuation τ sig (Elt Ideal))
    (a : (⟨S50000x128, .i1⟩ : BufTy).Contents (Elt Ideal)) (b : (⟨S50000x128, .f32⟩ : BufTy).Contents (Elt Ideal)) (d : (⟨S50000x128, .f32⟩ : BufTy).Contents (Elt Ideal))
    (h_main_v102 : V (Proc.devRef .tc main_v102) = a) (h_main_v100 : V (Proc.devRef .tc main_v100) = b) (h_main_v105 : V (Proc.devRef .tc main_v105) = d) :
    StableHlo.after (ops9 (F := Ideal)) V (Proc.devRef .tc main_v106) = select a b d := by
  after_results_simp
  rw [h_main_v102, h_main_v100, h_main_v105]
  rfl

theorem st10_main_v123 (V : Valuation τ sig (Elt Ideal)) (x1 : (⟨S50000x128, .f32⟩ : BufTy).Contents (Elt Ideal)) (x2 : (⟨S2x800000, .i32⟩ : BufTy).Contents (Elt Ideal)) (x5 : (⟨S128x128, .f32⟩ : BufTy).Contents (Elt Ideal)) (x6 : (⟨S128, .f32⟩ : BufTy).Contents (Elt Ideal)) (x9 : (⟨S128x128, .f32⟩ : BufTy).Contents (Elt Ideal)) (x10 : (⟨S128, .f32⟩ : BufTy).Contents (Elt Ideal)) (x13 : (⟨S128, .f32⟩ : BufTy).Contents (Elt Ideal))
    (h_main_v106 : V (Proc.devRef .tc main_v106) = val_main_v106 (F := Ideal) x1 x2 x5 x6 x13)
    (h_main_arg9 : V (Proc.devRef .tc main_arg9) = x9)
    (h_main_v3 : V (Proc.devRef .tc main_v3) = val_main_v3 (F := Ideal) x2)
    (h_main_v29 : V (Proc.devRef .tc main_v29) = val_main_v29 (F := Ideal) x2)
    (h_main_v6 : V (Proc.devRef .tc main_v6) = val_main_v6 (F := Ideal) x2)
    (h_main_arg10 : V (Proc.devRef .tc main_arg10) = x10) :
    StableHlo.after (ops10 (F := Ideal)) V (Proc.devRef .tc main_v123) = val_main_v123 (F := Ideal) x1 x2 x5 x6 x9 x10 x13 := by
  after_results_simp
  rw [h_main_v106, h_main_arg9, h_main_v3, h_main_v29, h_main_v6, h_main_arg10]
  rfl

theorem st10_main_v125 (V : Valuation τ sig (Elt Ideal)) (x1 : (⟨S50000x128, .f32⟩ : BufTy).Contents (Elt Ideal)) (x2 : (⟨S2x800000, .i32⟩ : BufTy).Contents (Elt Ideal)) (x5 : (⟨S128x128, .f32⟩ : BufTy).Contents (Elt Ideal)) (x6 : (⟨S128, .f32⟩ : BufTy).Contents (Elt Ideal)) (x9 : (⟨S128x128, .f32⟩ : BufTy).Contents (Elt Ideal)) (x10 : (⟨S128, .f32⟩ : BufTy).Contents (Elt Ideal)) (x13 : (⟨S128, .f32⟩ : BufTy).Contents (Elt Ideal))
    (h_main_v106 : V (Proc.devRef .tc main_v106) = val_main_v106 (F := Ideal) x1 x2 x5 x6 x13)
    (h_main_arg9 : V (Proc.devRef .tc main_arg9) = x9)
    (h_main_v3 : V (Proc.devRef .tc main_v3) = val_main_v3 (F := Ideal) x2)
    (h_main_v29 : V (Proc.devRef .tc main_v29) = val_main_v29 (F := Ideal) x2)
    (h_main_v6 : V (Proc.devRef .tc main_v6) = val_main_v6 (F := Ideal) x2)
    (h_main_arg10 : V (Proc.devRef .tc main_arg10) = x10) :
    StableHlo.after (ops10 (F := Ideal)) V (Proc.devRef .tc main_v125) = val_main_v125 (F := Ideal) x1 x2 x5 x6 x9 x10 x13 := by
  after_results_simp
  rw [h_main_v106, h_main_arg9, h_main_v3, h_main_v29, h_main_v6, h_main_arg10]
  rfl

theorem st10_main_v128 (V : Valuation τ sig (Elt Ideal)) (x1 : (⟨S50000x128, .f32⟩ : BufTy).Contents (Elt Ideal)) (x2 : (⟨S2x800000, .i32⟩ : BufTy).Contents (Elt Ideal)) (x5 : (⟨S128x128, .f32⟩ : BufTy).Contents (Elt Ideal)) (x6 : (⟨S128, .f32⟩ : BufTy).Contents (Elt Ideal)) (x9 : (⟨S128x128, .f32⟩ : BufTy).Contents (Elt Ideal)) (x10 : (⟨S128, .f32⟩ : BufTy).Contents (Elt Ideal)) (x13 : (⟨S128, .f32⟩ : BufTy).Contents (Elt Ideal)) (x14 : (⟨S128, .f32⟩ : BufTy).Contents (Elt Ideal))
    (h_main_v106 : V (Proc.devRef .tc main_v106) = val_main_v106 (F := Ideal) x1 x2 x5 x6 x13)
    (h_main_arg9 : V (Proc.devRef .tc main_arg9) = x9)
    (h_main_v3 : V (Proc.devRef .tc main_v3) = val_main_v3 (F := Ideal) x2)
    (h_main_v29 : V (Proc.devRef .tc main_v29) = val_main_v29 (F := Ideal) x2)
    (h_main_v6 : V (Proc.devRef .tc main_v6) = val_main_v6 (F := Ideal) x2)
    (h_main_arg10 : V (Proc.devRef .tc main_arg10) = x10)
    (h_main_arg14 : V (Proc.devRef .tc main_arg14) = x14) :
    StableHlo.after (ops10 (F := Ideal)) V (Proc.devRef .tc main_v128) = val_main_v128 (F := Ideal) x1 x2 x5 x6 x9 x10 x13 x14 := by
  after_results_simp
  rw [h_main_v106, h_main_arg9, h_main_v3, h_main_v29, h_main_v6, h_main_arg10, h_main_arg14]
  rfl

theorem st11_main_v129 (V : Valuation τ sig (Elt Ideal))
    (a : (⟨S50000x128, .i1⟩ : BufTy).Contents (Elt Ideal)) (b : (⟨S50000x128, .f32⟩ : BufTy).Contents (Elt Ideal)) (d : (⟨S50000x128, .f32⟩ : BufTy).Contents (Elt Ideal))
    (h_main_v125 : V (Proc.devRef .tc main_v125) = a) (h_main_v123 : V (Proc.devRef .tc main_v123) = b) (h_main_v128 : V (Proc.devRef .tc main_v128) = d) :
    StableHlo.after (ops11 (F := Ideal)) V (Proc.devRef .tc main_v129) = select a b d := by
  after_results_simp
  rw [h_main_v125, h_main_v123, h_main_v128]
  rfl

theorem st12_main_v137 (V : Valuation τ sig (Elt Ideal)) (x1 : (⟨S50000x128, .f32⟩ : BufTy).Contents (Elt Ideal)) (x2 : (⟨S2x800000, .i32⟩ : BufTy).Contents (Elt Ideal)) (x5 : (⟨S128x128, .f32⟩ : BufTy).Contents (Elt Ideal)) (x6 : (⟨S128, .f32⟩ : BufTy).Contents (Elt Ideal)) (x9 : (⟨S128x128, .f32⟩ : BufTy).Contents (Elt Ideal)) (x10 : (⟨S128, .f32⟩ : BufTy).Contents (Elt Ideal)) (x13 : (⟨S128, .f32⟩ : BufTy).Contents (Elt Ideal)) (x14 : (⟨S128, .f32⟩ : BufTy).Contents (Elt Ideal))
    (h_main_v129 : V (Proc.devRef .tc main_v129) = val_main_v129 (F := Ideal) x1 x2 x5 x6 x9 x10 x13 x14) :
    StableHlo.after (ops12 (F := Ideal)) V (Proc.devRef .tc main_v137) = val_main_v137 (F := Ideal) x1 x2 x5 x6 x9 x10 x13 x14 := by
  after_results_simp
  rw [h_main_v129]
  rfl

theorem st13_main_v156 (V : Valuation τ sig (Elt Ideal)) (x0 : (⟨S50000x256, .f32⟩ : BufTy).Contents (Elt Ideal)) (x1 : (⟨S50000x128, .f32⟩ : BufTy).Contents (Elt Ideal)) (x2 : (⟨S2x800000, .i32⟩ : BufTy).Contents (Elt Ideal)) (x3 : (⟨S256x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal)) (x15 : (⟨S2, .f32⟩ : BufTy).Contents (Elt Ideal))
    (h_main_v83 : V (Proc.devRef .tc main_v83) = val_main_v83 (F := Ideal) x0 x2 x3 x4 x7 x8 x11 x12)
    (h_main_v137 : V (Proc.devRef .tc main_v137) = val_main_v137 (F := Ideal) x1 x2 x5 x6 x9 x10 x13 x14)
    (h_main_arg15 : V (Proc.devRef .tc main_arg15) = x15) :
    StableHlo.after (ops13 (F := Ideal)) V (Proc.devRef .tc main_v156) = val_main_v156 (F := Ideal) x0 x1 x2 x3 x4 x5 x6 x7 x8 x9 x10 x11 x12 x13 x14 x15 := by
  after_results_simp
  rw [h_main_v83, h_main_v137, h_main_arg15]
  rfl

end Cert.ReferenceIdeal.ByHand

end
-- ==== Proof.KeepTactic.lean ====
/-
  A buffer that a stretch of host operations does not write keeps its contents across the stretch.

  Every host operation writes exactly one buffer, its result. So for a literal list of operations and a literal
  buffer, "no operation of the list writes it" is a conjunction of inequalities of buffer names, each decided.
-/
import proofs.«123922_j71399536328730_2_alg».proof.Proof.Gen.KernelIdeal.Frame

namespace Cert.KernelIdeal.Kept

open Idealize.ShloMosaic

/-- Closes `StableHlo.after ops W (devRef b) = W (devRef b)` for a literal stretch `ops` that does not write `b`. -/
macro "keep_host " ops:ident b:ident : tactic =>
  `(tactic| exact StableHlo.after_of_forall_not_mem (b := Proc.devRef .tc $b) _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

end Cert.KernelIdeal.Kept
-- ==== Proof.RefFold.lean ====
/-
  The reference program's run, read stretch by stretch.

  The reference is one straight line of 190 host operations. Cut into fourteen consecutive stretches — at the layers'
  boundaries, and around each call of a module-local function —, the contents of the buffers after each stretch are a
  fold from the launch memory. After each stretch the buffers that later stretches read hold the stages of their names
  as functions of the argument arrays. Nothing writes an argument array, and each stage's buffer is written once, so
  they are carried from the boundary where they are written to the boundaries where they are read.
-/
import proofs.«123922_j71399536328730_2_alg».proof.Proof.RefRead
import proofs.«123922_j71399536328730_2_alg».proof.Proof.RefStages
import proofs.«123922_j71399536328730_2_alg».proof.Proof.KeepTactic
import Idealize.ShloMosaic.Lib.Pipeline.Frame

set_option maxRecDepth 16384

noncomputable section

namespace Cert.ReferenceIdeal.ByHand

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo
open Cert.KernelIdeal.Kept

variable (m : (ℓ : Loc nD τ sig) → Buf (Elt Ideal) ℓ) (c : Dev nD)

/-! ## The buffer contents after each stretch -/

/-- At launch. -/
def U0 : Valuation τ sig (Elt Ideal) := launchContents m c
/-- After stretch 0. -/
def U1 : Valuation τ sig (Elt Ideal) := StableHlo.after (ops0 (F := Ideal)) (U0 m c)
theorem U1_eq : U1 m c = StableHlo.after (ops0 (F := Ideal)) (U0 m c) := rfl
/-- After stretch 1. -/
def U2 : Valuation τ sig (Elt Ideal) := StableHlo.after (ops1 (F := Ideal)) (U1 m c)
theorem U2_eq : U2 m c = StableHlo.after (ops1 (F := Ideal)) (U1 m c) := rfl
/-- After stretch 2. -/
def U3 : Valuation τ sig (Elt Ideal) := StableHlo.after (ops2 (F := Ideal)) (U2 m c)
theorem U3_eq : U3 m c = StableHlo.after (ops2 (F := Ideal)) (U2 m c) := rfl
/-- After stretch 3. -/
def U4 : Valuation τ sig (Elt Ideal) := StableHlo.after (ops3 (F := Ideal)) (U3 m c)
theorem U4_eq : U4 m c = StableHlo.after (ops3 (F := Ideal)) (U3 m c) := rfl
/-- After stretch 4. -/
def U5 : Valuation τ sig (Elt Ideal) := StableHlo.after (ops4 (F := Ideal)) (U4 m c)
theorem U5_eq : U5 m c = StableHlo.after (ops4 (F := Ideal)) (U4 m c) := rfl
/-- After stretch 5. -/
def U6 : Valuation τ sig (Elt Ideal) := StableHlo.after (ops5 (F := Ideal)) (U5 m c)
theorem U6_eq : U6 m c = StableHlo.after (ops5 (F := Ideal)) (U5 m c) := rfl
/-- After stretch 6. -/
def U7 : Valuation τ sig (Elt Ideal) := StableHlo.after (ops6 (F := Ideal)) (U6 m c)
theorem U7_eq : U7 m c = StableHlo.after (ops6 (F := Ideal)) (U6 m c) := rfl
/-- After stretch 7. -/
def U8 : Valuation τ sig (Elt Ideal) := StableHlo.after (ops7 (F := Ideal)) (U7 m c)
theorem U8_eq : U8 m c = StableHlo.after (ops7 (F := Ideal)) (U7 m c) := rfl
/-- After stretch 8. -/
def U9 : Valuation τ sig (Elt Ideal) := StableHlo.after (ops8 (F := Ideal)) (U8 m c)
theorem U9_eq : U9 m c = StableHlo.after (ops8 (F := Ideal)) (U8 m c) := rfl
/-- After stretch 9. -/
def U10 : Valuation τ sig (Elt Ideal) := StableHlo.after (ops9 (F := Ideal)) (U9 m c)
theorem U10_eq : U10 m c = StableHlo.after (ops9 (F := Ideal)) (U9 m c) := rfl
/-- After stretch 10. -/
def U11 : Valuation τ sig (Elt Ideal) := StableHlo.after (ops10 (F := Ideal)) (U10 m c)
theorem U11_eq : U11 m c = StableHlo.after (ops10 (F := Ideal)) (U10 m c) := rfl
/-- After stretch 11. -/
def U12 : Valuation τ sig (Elt Ideal) := StableHlo.after (ops11 (F := Ideal)) (U11 m c)
theorem U12_eq : U12 m c = StableHlo.after (ops11 (F := Ideal)) (U11 m c) := rfl
/-- After stretch 12. -/
def U13 : Valuation τ sig (Elt Ideal) := StableHlo.after (ops12 (F := Ideal)) (U12 m c)
theorem U13_eq : U13 m c = StableHlo.after (ops12 (F := Ideal)) (U12 m c) := rfl
/-- After stretch 13. -/
def U14 : Valuation τ sig (Elt Ideal) := StableHlo.after (ops13 (F := Ideal)) (U13 m c)
theorem U14_eq : U14 m c = StableHlo.after (ops13 (F := Ideal)) (U13 m c) := rfl

/-- The whole line's fold is the last boundary. -/
theorem after_ops : StableHlo.after (ops (F := Ideal)) (launchContents m c) = U14 m c := by
  rw [ops_eq, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append]
  rfl

/-! ## What a stretch does not write is carried across it -/

theorem keep_main_v3_2_1 : U2 m c (Proc.devRef .tc main_v3) = U1 m c (Proc.devRef .tc main_v3) :=
  calc U2 m c (Proc.devRef .tc main_v3)
    _ = U1 m c (Proc.devRef .tc main_v3) := by rw [U2_eq]; keep_host ops1 main_v3

theorem keep_main_v6_2_1 : U2 m c (Proc.devRef .tc main_v6) = U1 m c (Proc.devRef .tc main_v6) :=
  calc U2 m c (Proc.devRef .tc main_v6)
    _ = U1 m c (Proc.devRef .tc main_v6) := by rw [U2_eq]; keep_host ops1 main_v6

theorem keep_main_arg0_3_0 : U3 m c (Proc.devRef .tc main_arg0) = U0 m c (Proc.devRef .tc main_arg0) :=
  calc U3 m c (Proc.devRef .tc main_arg0)
    _ = U2 m c (Proc.devRef .tc main_arg0) := by rw [U3_eq]; keep_host ops2 main_arg0
    _ = U1 m c (Proc.devRef .tc main_arg0) := by rw [U2_eq]; keep_host ops1 main_arg0
    _ = U0 m c (Proc.devRef .tc main_arg0) := by rw [U1_eq]; keep_host ops0 main_arg0

theorem keep_main_arg3_3_0 : U3 m c (Proc.devRef .tc main_arg3) = U0 m c (Proc.devRef .tc main_arg3) :=
  calc U3 m c (Proc.devRef .tc main_arg3)
    _ = U2 m c (Proc.devRef .tc main_arg3) := by rw [U3_eq]; keep_host ops2 main_arg3
    _ = U1 m c (Proc.devRef .tc main_arg3) := by rw [U2_eq]; keep_host ops1 main_arg3
    _ = U0 m c (Proc.devRef .tc main_arg3) := by rw [U1_eq]; keep_host ops0 main_arg3

theorem keep_main_v3_3_1 : U3 m c (Proc.devRef .tc main_v3) = U1 m c (Proc.devRef .tc main_v3) :=
  calc U3 m c (Proc.devRef .tc main_v3)
    _ = U2 m c (Proc.devRef .tc main_v3) := by rw [U3_eq]; keep_host ops2 main_v3
    _ = U1 m c (Proc.devRef .tc main_v3) := by rw [U2_eq]; keep_host ops1 main_v3

theorem keep_main_v6_3_1 : U3 m c (Proc.devRef .tc main_v6) = U1 m c (Proc.devRef .tc main_v6) :=
  calc U3 m c (Proc.devRef .tc main_v6)
    _ = U2 m c (Proc.devRef .tc main_v6) := by rw [U3_eq]; keep_host ops2 main_v6
    _ = U1 m c (Proc.devRef .tc main_v6) := by rw [U2_eq]; keep_host ops1 main_v6

theorem keep_main_arg4_3_0 : U3 m c (Proc.devRef .tc main_arg4) = U0 m c (Proc.devRef .tc main_arg4) :=
  calc U3 m c (Proc.devRef .tc main_arg4)
    _ = U2 m c (Proc.devRef .tc main_arg4) := by rw [U3_eq]; keep_host ops2 main_arg4
    _ = U1 m c (Proc.devRef .tc main_arg4) := by rw [U2_eq]; keep_host ops1 main_arg4
    _ = U0 m c (Proc.devRef .tc main_arg4) := by rw [U1_eq]; keep_host ops0 main_arg4

theorem keep_main_arg11_3_0 : U3 m c (Proc.devRef .tc main_arg11) = U0 m c (Proc.devRef .tc main_arg11) :=
  calc U3 m c (Proc.devRef .tc main_arg11)
    _ = U2 m c (Proc.devRef .tc main_arg11) := by rw [U3_eq]; keep_host ops2 main_arg11
    _ = U1 m c (Proc.devRef .tc main_arg11) := by rw [U2_eq]; keep_host ops1 main_arg11
    _ = U0 m c (Proc.devRef .tc main_arg11) := by rw [U1_eq]; keep_host ops0 main_arg11

theorem keep_main_arg7_5_0 : U5 m c (Proc.devRef .tc main_arg7) = U0 m c (Proc.devRef .tc main_arg7) :=
  calc U5 m c (Proc.devRef .tc main_arg7)
    _ = U4 m c (Proc.devRef .tc main_arg7) := by rw [U5_eq]; keep_host ops4 main_arg7
    _ = U3 m c (Proc.devRef .tc main_arg7) := by rw [U4_eq]; keep_host ops3 main_arg7
    _ = U2 m c (Proc.devRef .tc main_arg7) := by rw [U3_eq]; keep_host ops2 main_arg7
    _ = U1 m c (Proc.devRef .tc main_arg7) := by rw [U2_eq]; keep_host ops1 main_arg7
    _ = U0 m c (Proc.devRef .tc main_arg7) := by rw [U1_eq]; keep_host ops0 main_arg7

theorem keep_main_v3_5_1 : U5 m c (Proc.devRef .tc main_v3) = U1 m c (Proc.devRef .tc main_v3) :=
  calc U5 m c (Proc.devRef .tc main_v3)
    _ = U4 m c (Proc.devRef .tc main_v3) := by rw [U5_eq]; keep_host ops4 main_v3
    _ = U3 m c (Proc.devRef .tc main_v3) := by rw [U4_eq]; keep_host ops3 main_v3
    _ = U2 m c (Proc.devRef .tc main_v3) := by rw [U3_eq]; keep_host ops2 main_v3
    _ = U1 m c (Proc.devRef .tc main_v3) := by rw [U2_eq]; keep_host ops1 main_v3

theorem keep_main_v29_5_3 : U5 m c (Proc.devRef .tc main_v29) = U3 m c (Proc.devRef .tc main_v29) :=
  calc U5 m c (Proc.devRef .tc main_v29)
    _ = U4 m c (Proc.devRef .tc main_v29) := by rw [U5_eq]; keep_host ops4 main_v29
    _ = U3 m c (Proc.devRef .tc main_v29) := by rw [U4_eq]; keep_host ops3 main_v29

theorem keep_main_v6_5_1 : U5 m c (Proc.devRef .tc main_v6) = U1 m c (Proc.devRef .tc main_v6) :=
  calc U5 m c (Proc.devRef .tc main_v6)
    _ = U4 m c (Proc.devRef .tc main_v6) := by rw [U5_eq]; keep_host ops4 main_v6
    _ = U3 m c (Proc.devRef .tc main_v6) := by rw [U4_eq]; keep_host ops3 main_v6
    _ = U2 m c (Proc.devRef .tc main_v6) := by rw [U3_eq]; keep_host ops2 main_v6
    _ = U1 m c (Proc.devRef .tc main_v6) := by rw [U2_eq]; keep_host ops1 main_v6

theorem keep_main_arg8_5_0 : U5 m c (Proc.devRef .tc main_arg8) = U0 m c (Proc.devRef .tc main_arg8) :=
  calc U5 m c (Proc.devRef .tc main_arg8)
    _ = U4 m c (Proc.devRef .tc main_arg8) := by rw [U5_eq]; keep_host ops4 main_arg8
    _ = U3 m c (Proc.devRef .tc main_arg8) := by rw [U4_eq]; keep_host ops3 main_arg8
    _ = U2 m c (Proc.devRef .tc main_arg8) := by rw [U3_eq]; keep_host ops2 main_arg8
    _ = U1 m c (Proc.devRef .tc main_arg8) := by rw [U2_eq]; keep_host ops1 main_arg8
    _ = U0 m c (Proc.devRef .tc main_arg8) := by rw [U1_eq]; keep_host ops0 main_arg8

theorem keep_main_arg12_5_0 : U5 m c (Proc.devRef .tc main_arg12) = U0 m c (Proc.devRef .tc main_arg12) :=
  calc U5 m c (Proc.devRef .tc main_arg12)
    _ = U4 m c (Proc.devRef .tc main_arg12) := by rw [U5_eq]; keep_host ops4 main_arg12
    _ = U3 m c (Proc.devRef .tc main_arg12) := by rw [U4_eq]; keep_host ops3 main_arg12
    _ = U2 m c (Proc.devRef .tc main_arg12) := by rw [U3_eq]; keep_host ops2 main_arg12
    _ = U1 m c (Proc.devRef .tc main_arg12) := by rw [U2_eq]; keep_host ops1 main_arg12
    _ = U0 m c (Proc.devRef .tc main_arg12) := by rw [U1_eq]; keep_host ops0 main_arg12

theorem keep_main_arg1_8_0 : U8 m c (Proc.devRef .tc main_arg1) = U0 m c (Proc.devRef .tc main_arg1) :=
  calc U8 m c (Proc.devRef .tc main_arg1)
    _ = U7 m c (Proc.devRef .tc main_arg1) := by rw [U8_eq]; keep_host ops7 main_arg1
    _ = U6 m c (Proc.devRef .tc main_arg1) := by rw [U7_eq]; keep_host ops6 main_arg1
    _ = U5 m c (Proc.devRef .tc main_arg1) := by rw [U6_eq]; keep_host ops5 main_arg1
    _ = U4 m c (Proc.devRef .tc main_arg1) := by rw [U5_eq]; keep_host ops4 main_arg1
    _ = U3 m c (Proc.devRef .tc main_arg1) := by rw [U4_eq]; keep_host ops3 main_arg1
    _ = U2 m c (Proc.devRef .tc main_arg1) := by rw [U3_eq]; keep_host ops2 main_arg1
    _ = U1 m c (Proc.devRef .tc main_arg1) := by rw [U2_eq]; keep_host ops1 main_arg1
    _ = U0 m c (Proc.devRef .tc main_arg1) := by rw [U1_eq]; keep_host ops0 main_arg1

theorem keep_main_arg5_8_0 : U8 m c (Proc.devRef .tc main_arg5) = U0 m c (Proc.devRef .tc main_arg5) :=
  calc U8 m c (Proc.devRef .tc main_arg5)
    _ = U7 m c (Proc.devRef .tc main_arg5) := by rw [U8_eq]; keep_host ops7 main_arg5
    _ = U6 m c (Proc.devRef .tc main_arg5) := by rw [U7_eq]; keep_host ops6 main_arg5
    _ = U5 m c (Proc.devRef .tc main_arg5) := by rw [U6_eq]; keep_host ops5 main_arg5
    _ = U4 m c (Proc.devRef .tc main_arg5) := by rw [U5_eq]; keep_host ops4 main_arg5
    _ = U3 m c (Proc.devRef .tc main_arg5) := by rw [U4_eq]; keep_host ops3 main_arg5
    _ = U2 m c (Proc.devRef .tc main_arg5) := by rw [U3_eq]; keep_host ops2 main_arg5
    _ = U1 m c (Proc.devRef .tc main_arg5) := by rw [U2_eq]; keep_host ops1 main_arg5
    _ = U0 m c (Proc.devRef .tc main_arg5) := by rw [U1_eq]; keep_host ops0 main_arg5

theorem keep_main_v3_8_1 : U8 m c (Proc.devRef .tc main_v3) = U1 m c (Proc.devRef .tc main_v3) :=
  calc U8 m c (Proc.devRef .tc main_v3)
    _ = U7 m c (Proc.devRef .tc main_v3) := by rw [U8_eq]; keep_host ops7 main_v3
    _ = U6 m c (Proc.devRef .tc main_v3) := by rw [U7_eq]; keep_host ops6 main_v3
    _ = U5 m c (Proc.devRef .tc main_v3) := by rw [U6_eq]; keep_host ops5 main_v3
    _ = U4 m c (Proc.devRef .tc main_v3) := by rw [U5_eq]; keep_host ops4 main_v3
    _ = U3 m c (Proc.devRef .tc main_v3) := by rw [U4_eq]; keep_host ops3 main_v3
    _ = U2 m c (Proc.devRef .tc main_v3) := by rw [U3_eq]; keep_host ops2 main_v3
    _ = U1 m c (Proc.devRef .tc main_v3) := by rw [U2_eq]; keep_host ops1 main_v3

theorem keep_main_v29_8_3 : U8 m c (Proc.devRef .tc main_v29) = U3 m c (Proc.devRef .tc main_v29) :=
  calc U8 m c (Proc.devRef .tc main_v29)
    _ = U7 m c (Proc.devRef .tc main_v29) := by rw [U8_eq]; keep_host ops7 main_v29
    _ = U6 m c (Proc.devRef .tc main_v29) := by rw [U7_eq]; keep_host ops6 main_v29
    _ = U5 m c (Proc.devRef .tc main_v29) := by rw [U6_eq]; keep_host ops5 main_v29
    _ = U4 m c (Proc.devRef .tc main_v29) := by rw [U5_eq]; keep_host ops4 main_v29
    _ = U3 m c (Proc.devRef .tc main_v29) := by rw [U4_eq]; keep_host ops3 main_v29

theorem keep_main_v6_8_1 : U8 m c (Proc.devRef .tc main_v6) = U1 m c (Proc.devRef .tc main_v6) :=
  calc U8 m c (Proc.devRef .tc main_v6)
    _ = U7 m c (Proc.devRef .tc main_v6) := by rw [U8_eq]; keep_host ops7 main_v6
    _ = U6 m c (Proc.devRef .tc main_v6) := by rw [U7_eq]; keep_host ops6 main_v6
    _ = U5 m c (Proc.devRef .tc main_v6) := by rw [U6_eq]; keep_host ops5 main_v6
    _ = U4 m c (Proc.devRef .tc main_v6) := by rw [U5_eq]; keep_host ops4 main_v6
    _ = U3 m c (Proc.devRef .tc main_v6) := by rw [U4_eq]; keep_host ops3 main_v6
    _ = U2 m c (Proc.devRef .tc main_v6) := by rw [U3_eq]; keep_host ops2 main_v6
    _ = U1 m c (Proc.devRef .tc main_v6) := by rw [U2_eq]; keep_host ops1 main_v6

theorem keep_main_arg6_8_0 : U8 m c (Proc.devRef .tc main_arg6) = U0 m c (Proc.devRef .tc main_arg6) :=
  calc U8 m c (Proc.devRef .tc main_arg6)
    _ = U7 m c (Proc.devRef .tc main_arg6) := by rw [U8_eq]; keep_host ops7 main_arg6
    _ = U6 m c (Proc.devRef .tc main_arg6) := by rw [U7_eq]; keep_host ops6 main_arg6
    _ = U5 m c (Proc.devRef .tc main_arg6) := by rw [U6_eq]; keep_host ops5 main_arg6
    _ = U4 m c (Proc.devRef .tc main_arg6) := by rw [U5_eq]; keep_host ops4 main_arg6
    _ = U3 m c (Proc.devRef .tc main_arg6) := by rw [U4_eq]; keep_host ops3 main_arg6
    _ = U2 m c (Proc.devRef .tc main_arg6) := by rw [U3_eq]; keep_host ops2 main_arg6
    _ = U1 m c (Proc.devRef .tc main_arg6) := by rw [U2_eq]; keep_host ops1 main_arg6
    _ = U0 m c (Proc.devRef .tc main_arg6) := by rw [U1_eq]; keep_host ops0 main_arg6

theorem keep_main_arg13_8_0 : U8 m c (Proc.devRef .tc main_arg13) = U0 m c (Proc.devRef .tc main_arg13) :=
  calc U8 m c (Proc.devRef .tc main_arg13)
    _ = U7 m c (Proc.devRef .tc main_arg13) := by rw [U8_eq]; keep_host ops7 main_arg13
    _ = U6 m c (Proc.devRef .tc main_arg13) := by rw [U7_eq]; keep_host ops6 main_arg13
    _ = U5 m c (Proc.devRef .tc main_arg13) := by rw [U6_eq]; keep_host ops5 main_arg13
    _ = U4 m c (Proc.devRef .tc main_arg13) := by rw [U5_eq]; keep_host ops4 main_arg13
    _ = U3 m c (Proc.devRef .tc main_arg13) := by rw [U4_eq]; keep_host ops3 main_arg13
    _ = U2 m c (Proc.devRef .tc main_arg13) := by rw [U3_eq]; keep_host ops2 main_arg13
    _ = U1 m c (Proc.devRef .tc main_arg13) := by rw [U2_eq]; keep_host ops1 main_arg13
    _ = U0 m c (Proc.devRef .tc main_arg13) := by rw [U1_eq]; keep_host ops0 main_arg13

theorem keep_main_arg9_10_0 : U10 m c (Proc.devRef .tc main_arg9) = U0 m c (Proc.devRef .tc main_arg9) :=
  calc U10 m c (Proc.devRef .tc main_arg9)
    _ = U9 m c (Proc.devRef .tc main_arg9) := by rw [U10_eq]; keep_host ops9 main_arg9
    _ = U8 m c (Proc.devRef .tc main_arg9) := by rw [U9_eq]; keep_host ops8 main_arg9
    _ = U7 m c (Proc.devRef .tc main_arg9) := by rw [U8_eq]; keep_host ops7 main_arg9
    _ = U6 m c (Proc.devRef .tc main_arg9) := by rw [U7_eq]; keep_host ops6 main_arg9
    _ = U5 m c (Proc.devRef .tc main_arg9) := by rw [U6_eq]; keep_host ops5 main_arg9
    _ = U4 m c (Proc.devRef .tc main_arg9) := by rw [U5_eq]; keep_host ops4 main_arg9
    _ = U3 m c (Proc.devRef .tc main_arg9) := by rw [U4_eq]; keep_host ops3 main_arg9
    _ = U2 m c (Proc.devRef .tc main_arg9) := by rw [U3_eq]; keep_host ops2 main_arg9
    _ = U1 m c (Proc.devRef .tc main_arg9) := by rw [U2_eq]; keep_host ops1 main_arg9
    _ = U0 m c (Proc.devRef .tc main_arg9) := by rw [U1_eq]; keep_host ops0 main_arg9

theorem keep_main_v3_10_1 : U10 m c (Proc.devRef .tc main_v3) = U1 m c (Proc.devRef .tc main_v3) :=
  calc U10 m c (Proc.devRef .tc main_v3)
    _ = U9 m c (Proc.devRef .tc main_v3) := by rw [U10_eq]; keep_host ops9 main_v3
    _ = U8 m c (Proc.devRef .tc main_v3) := by rw [U9_eq]; keep_host ops8 main_v3
    _ = U7 m c (Proc.devRef .tc main_v3) := by rw [U8_eq]; keep_host ops7 main_v3
    _ = U6 m c (Proc.devRef .tc main_v3) := by rw [U7_eq]; keep_host ops6 main_v3
    _ = U5 m c (Proc.devRef .tc main_v3) := by rw [U6_eq]; keep_host ops5 main_v3
    _ = U4 m c (Proc.devRef .tc main_v3) := by rw [U5_eq]; keep_host ops4 main_v3
    _ = U3 m c (Proc.devRef .tc main_v3) := by rw [U4_eq]; keep_host ops3 main_v3
    _ = U2 m c (Proc.devRef .tc main_v3) := by rw [U3_eq]; keep_host ops2 main_v3
    _ = U1 m c (Proc.devRef .tc main_v3) := by rw [U2_eq]; keep_host ops1 main_v3

theorem keep_main_v29_10_3 : U10 m c (Proc.devRef .tc main_v29) = U3 m c (Proc.devRef .tc main_v29) :=
  calc U10 m c (Proc.devRef .tc main_v29)
    _ = U9 m c (Proc.devRef .tc main_v29) := by rw [U10_eq]; keep_host ops9 main_v29
    _ = U8 m c (Proc.devRef .tc main_v29) := by rw [U9_eq]; keep_host ops8 main_v29
    _ = U7 m c (Proc.devRef .tc main_v29) := by rw [U8_eq]; keep_host ops7 main_v29
    _ = U6 m c (Proc.devRef .tc main_v29) := by rw [U7_eq]; keep_host ops6 main_v29
    _ = U5 m c (Proc.devRef .tc main_v29) := by rw [U6_eq]; keep_host ops5 main_v29
    _ = U4 m c (Proc.devRef .tc main_v29) := by rw [U5_eq]; keep_host ops4 main_v29
    _ = U3 m c (Proc.devRef .tc main_v29) := by rw [U4_eq]; keep_host ops3 main_v29

theorem keep_main_v6_10_1 : U10 m c (Proc.devRef .tc main_v6) = U1 m c (Proc.devRef .tc main_v6) :=
  calc U10 m c (Proc.devRef .tc main_v6)
    _ = U9 m c (Proc.devRef .tc main_v6) := by rw [U10_eq]; keep_host ops9 main_v6
    _ = U8 m c (Proc.devRef .tc main_v6) := by rw [U9_eq]; keep_host ops8 main_v6
    _ = U7 m c (Proc.devRef .tc main_v6) := by rw [U8_eq]; keep_host ops7 main_v6
    _ = U6 m c (Proc.devRef .tc main_v6) := by rw [U7_eq]; keep_host ops6 main_v6
    _ = U5 m c (Proc.devRef .tc main_v6) := by rw [U6_eq]; keep_host ops5 main_v6
    _ = U4 m c (Proc.devRef .tc main_v6) := by rw [U5_eq]; keep_host ops4 main_v6
    _ = U3 m c (Proc.devRef .tc main_v6) := by rw [U4_eq]; keep_host ops3 main_v6
    _ = U2 m c (Proc.devRef .tc main_v6) := by rw [U3_eq]; keep_host ops2 main_v6
    _ = U1 m c (Proc.devRef .tc main_v6) := by rw [U2_eq]; keep_host ops1 main_v6

theorem keep_main_arg10_10_0 : U10 m c (Proc.devRef .tc main_arg10) = U0 m c (Proc.devRef .tc main_arg10) :=
  calc U10 m c (Proc.devRef .tc main_arg10)
    _ = U9 m c (Proc.devRef .tc main_arg10) := by rw [U10_eq]; keep_host ops9 main_arg10
    _ = U8 m c (Proc.devRef .tc main_arg10) := by rw [U9_eq]; keep_host ops8 main_arg10
    _ = U7 m c (Proc.devRef .tc main_arg10) := by rw [U8_eq]; keep_host ops7 main_arg10
    _ = U6 m c (Proc.devRef .tc main_arg10) := by rw [U7_eq]; keep_host ops6 main_arg10
    _ = U5 m c (Proc.devRef .tc main_arg10) := by rw [U6_eq]; keep_host ops5 main_arg10
    _ = U4 m c (Proc.devRef .tc main_arg10) := by rw [U5_eq]; keep_host ops4 main_arg10
    _ = U3 m c (Proc.devRef .tc main_arg10) := by rw [U4_eq]; keep_host ops3 main_arg10
    _ = U2 m c (Proc.devRef .tc main_arg10) := by rw [U3_eq]; keep_host ops2 main_arg10
    _ = U1 m c (Proc.devRef .tc main_arg10) := by rw [U2_eq]; keep_host ops1 main_arg10
    _ = U0 m c (Proc.devRef .tc main_arg10) := by rw [U1_eq]; keep_host ops0 main_arg10

theorem keep_main_arg14_10_0 : U10 m c (Proc.devRef .tc main_arg14) = U0 m c (Proc.devRef .tc main_arg14) :=
  calc U10 m c (Proc.devRef .tc main_arg14)
    _ = U9 m c (Proc.devRef .tc main_arg14) := by rw [U10_eq]; keep_host ops9 main_arg14
    _ = U8 m c (Proc.devRef .tc main_arg14) := by rw [U9_eq]; keep_host ops8 main_arg14
    _ = U7 m c (Proc.devRef .tc main_arg14) := by rw [U8_eq]; keep_host ops7 main_arg14
    _ = U6 m c (Proc.devRef .tc main_arg14) := by rw [U7_eq]; keep_host ops6 main_arg14
    _ = U5 m c (Proc.devRef .tc main_arg14) := by rw [U6_eq]; keep_host ops5 main_arg14
    _ = U4 m c (Proc.devRef .tc main_arg14) := by rw [U5_eq]; keep_host ops4 main_arg14
    _ = U3 m c (Proc.devRef .tc main_arg14) := by rw [U4_eq]; keep_host ops3 main_arg14
    _ = U2 m c (Proc.devRef .tc main_arg14) := by rw [U3_eq]; keep_host ops2 main_arg14
    _ = U1 m c (Proc.devRef .tc main_arg14) := by rw [U2_eq]; keep_host ops1 main_arg14
    _ = U0 m c (Proc.devRef .tc main_arg14) := by rw [U1_eq]; keep_host ops0 main_arg14

theorem keep_main_v83_13_8 : U13 m c (Proc.devRef .tc main_v83) = U8 m c (Proc.devRef .tc main_v83) :=
  calc U13 m c (Proc.devRef .tc main_v83)
    _ = U12 m c (Proc.devRef .tc main_v83) := by rw [U13_eq]; keep_host ops12 main_v83
    _ = U11 m c (Proc.devRef .tc main_v83) := by rw [U12_eq]; keep_host ops11 main_v83
    _ = U10 m c (Proc.devRef .tc main_v83) := by rw [U11_eq]; keep_host ops10 main_v83
    _ = U9 m c (Proc.devRef .tc main_v83) := by rw [U10_eq]; keep_host ops9 main_v83
    _ = U8 m c (Proc.devRef .tc main_v83) := by rw [U9_eq]; keep_host ops8 main_v83

theorem keep_main_arg15_13_0 : U13 m c (Proc.devRef .tc main_arg15) = U0 m c (Proc.devRef .tc main_arg15) :=
  calc U13 m c (Proc.devRef .tc main_arg15)
    _ = U12 m c (Proc.devRef .tc main_arg15) := by rw [U13_eq]; keep_host ops12 main_arg15
    _ = U11 m c (Proc.devRef .tc main_arg15) := by rw [U12_eq]; keep_host ops11 main_arg15
    _ = U10 m c (Proc.devRef .tc main_arg15) := by rw [U11_eq]; keep_host ops10 main_arg15
    _ = U9 m c (Proc.devRef .tc main_arg15) := by rw [U10_eq]; keep_host ops9 main_arg15
    _ = U8 m c (Proc.devRef .tc main_arg15) := by rw [U9_eq]; keep_host ops8 main_arg15
    _ = U7 m c (Proc.devRef .tc main_arg15) := by rw [U8_eq]; keep_host ops7 main_arg15
    _ = U6 m c (Proc.devRef .tc main_arg15) := by rw [U7_eq]; keep_host ops6 main_arg15
    _ = U5 m c (Proc.devRef .tc main_arg15) := by rw [U6_eq]; keep_host ops5 main_arg15
    _ = U4 m c (Proc.devRef .tc main_arg15) := by rw [U5_eq]; keep_host ops4 main_arg15
    _ = U3 m c (Proc.devRef .tc main_arg15) := by rw [U4_eq]; keep_host ops3 main_arg15
    _ = U2 m c (Proc.devRef .tc main_arg15) := by rw [U3_eq]; keep_host ops2 main_arg15
    _ = U1 m c (Proc.devRef .tc main_arg15) := by rw [U2_eq]; keep_host ops1 main_arg15
    _ = U0 m c (Proc.devRef .tc main_arg15) := by rw [U1_eq]; keep_host ops0 main_arg15

/-! ## The stages, boundary by boundary -/

theorem f_main_v3 : U1 m c (Proc.devRef .tc main_v3) = val_main_v3 (F := Ideal) (m ((c.tc : Thread nD τ).loc main_arg2)) :=
  st0_main_v3 (U0 m c) (m ((c.tc : Thread nD τ).loc main_arg2))
    (rfl)

theorem f_main_v6 : U1 m c (Proc.devRef .tc main_v6) = val_main_v6 (F := Ideal) (m ((c.tc : Thread nD τ).loc main_arg2)) :=
  st0_main_v6 (U0 m c) (m ((c.tc : Thread nD τ).loc main_arg2))
    (rfl)

theorem f_main_v12 : U1 m c (Proc.devRef .tc main_v12) = val_main_v12 (F := Ideal) (m ((c.tc : Thread nD τ).loc main_arg2)) :=
  st0_main_v12 (U0 m c) (m ((c.tc : Thread nD τ).loc main_arg2))
    (rfl)

theorem f_main_v13 : U1 m c (Proc.devRef .tc main_v13) = val_main_v13 (F := Ideal) (m ((c.tc : Thread nD τ).loc main_arg2)) :=
  st0_main_v13 (U0 m c) (m ((c.tc : Thread nD τ).loc main_arg2))
    (rfl)

theorem f_main_cst_2 : U1 m c (Proc.devRef .tc main_cst_2) = val_main_cst_2 (F := Ideal)  :=
  st0_main_cst_2 (U0 m c)

theorem f_main_v14 : U2 m c (Proc.devRef .tc main_v14) = val_main_v14 (F := Ideal) (m ((c.tc : Thread nD τ).loc main_arg2)) :=
  st1_main_v14 (U1 m c) _ _ _
    (f_main_v12 m c)
    (f_main_v13 m c)
    (f_main_cst_2 m c)

theorem f_main_v29 : U3 m c (Proc.devRef .tc main_v29) = val_main_v29 (F := Ideal) (m ((c.tc : Thread nD τ).loc main_arg2)) :=
  st2_main_v29 (U2 m c) (m ((c.tc : Thread nD τ).loc main_arg2))
    (f_main_v14 m c)
    ((keep_main_v3_2_1 m c).trans (f_main_v3 m c))
    ((keep_main_v6_2_1 m c).trans (f_main_v6 m c))

theorem f_main_v46 : U4 m c (Proc.devRef .tc main_v46) = val_main_v46 (F := Ideal) (m ((c.tc : Thread nD τ).loc main_arg0)) (m ((c.tc : Thread nD τ).loc main_arg2)) (m ((c.tc : Thread nD τ).loc main_arg3)) (m ((c.tc : Thread nD τ).loc main_arg4)) :=
  st3_main_v46 (U3 m c) (m ((c.tc : Thread nD τ).loc main_arg0)) (m ((c.tc : Thread nD τ).loc main_arg2)) (m ((c.tc : Thread nD τ).loc main_arg3)) (m ((c.tc : Thread nD τ).loc main_arg4))
    ((keep_main_arg0_3_0 m c).trans rfl)
    ((keep_main_arg3_3_0 m c).trans rfl)
    ((keep_main_v3_3_1 m c).trans (f_main_v3 m c))
    (f_main_v29 m c)
    ((keep_main_v6_3_1 m c).trans (f_main_v6 m c))
    ((keep_main_arg4_3_0 m c).trans rfl)

theorem f_main_v48 : U4 m c (Proc.devRef .tc main_v48) = val_main_v48 (F := Ideal) (m ((c.tc : Thread nD τ).loc main_arg0)) (m ((c.tc : Thread nD τ).loc main_arg2)) (m ((c.tc : Thread nD τ).loc main_arg3)) (m ((c.tc : Thread nD τ).loc main_arg4)) :=
  st3_main_v48 (U3 m c) (m ((c.tc : Thread nD τ).loc main_arg0)) (m ((c.tc : Thread nD τ).loc main_arg2)) (m ((c.tc : Thread nD τ).loc main_arg3)) (m ((c.tc : Thread nD τ).loc main_arg4))
    ((keep_main_arg0_3_0 m c).trans rfl)
    ((keep_main_arg3_3_0 m c).trans rfl)
    ((keep_main_v3_3_1 m c).trans (f_main_v3 m c))
    (f_main_v29 m c)
    ((keep_main_v6_3_1 m c).trans (f_main_v6 m c))
    ((keep_main_arg4_3_0 m c).trans rfl)

theorem f_main_v51 : U4 m c (Proc.devRef .tc main_v51) = val_main_v51 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg11)) :=
  st3_main_v51 (U3 m c) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg11))
    ((keep_main_arg0_3_0 m c).trans rfl)
    ((keep_main_arg3_3_0 m c).trans rfl)
    ((keep_main_v3_3_1 m c).trans (f_main_v3 m c))
    (f_main_v29 m c)
    ((keep_main_v6_3_1 m c).trans (f_main_v6 m c))
    ((keep_main_arg4_3_0 m c).trans rfl)
    ((keep_main_arg11_3_0 m c).trans rfl)

theorem f_main_v52 : U5 m c (Proc.devRef .tc main_v52) = val_main_v52 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg11)) :=
  st4_main_v52 (U4 m c) _ _ _
    (f_main_v48 m c)
    (f_main_v46 m c)
    (f_main_v51 m c)

theorem f_main_v69 : U6 m c (Proc.devRef .tc main_v69) = val_main_v69 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg11)) :=
  st5_main_v69 (U5 m c) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg11))
    (f_main_v52 m c)
    ((keep_main_arg7_5_0 m c).trans rfl)
    ((keep_main_v3_5_1 m c).trans (f_main_v3 m c))
    ((keep_main_v29_5_3 m c).trans (f_main_v29 m c))
    ((keep_main_v6_5_1 m c).trans (f_main_v6 m c))
    ((keep_main_arg8_5_0 m c).trans rfl)

theorem f_main_v71 : U6 m c (Proc.devRef .tc main_v71) = val_main_v71 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg11)) :=
  st5_main_v71 (U5 m c) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg11))
    (f_main_v52 m c)
    ((keep_main_arg7_5_0 m c).trans rfl)
    ((keep_main_v3_5_1 m c).trans (f_main_v3 m c))
    ((keep_main_v29_5_3 m c).trans (f_main_v29 m c))
    ((keep_main_v6_5_1 m c).trans (f_main_v6 m c))
    ((keep_main_arg8_5_0 m c).trans rfl)

theorem f_main_v74 : U6 m c (Proc.devRef .tc main_v74) = val_main_v74 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg11)) (m ((c.tc : Thread nD τ).loc main_arg12)) :=
  st5_main_v74 (U5 m c) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg11)) (m ((c.tc : Thread nD τ).loc main_arg12))
    (f_main_v52 m c)
    ((keep_main_arg7_5_0 m c).trans rfl)
    ((keep_main_v3_5_1 m c).trans (f_main_v3 m c))
    ((keep_main_v29_5_3 m c).trans (f_main_v29 m c))
    ((keep_main_v6_5_1 m c).trans (f_main_v6 m c))
    ((keep_main_arg8_5_0 m c).trans rfl)
    ((keep_main_arg12_5_0 m c).trans rfl)

theorem f_main_v75 : U7 m c (Proc.devRef .tc main_v75) = val_main_v75 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg11)) (m ((c.tc : Thread nD τ).loc main_arg12)) :=
  st6_main_v75 (U6 m c) _ _ _
    (f_main_v71 m c)
    (f_main_v69 m c)
    (f_main_v74 m c)

theorem f_main_v83 : U8 m c (Proc.devRef .tc main_v83) = val_main_v83 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg11)) (m ((c.tc : Thread nD τ).loc main_arg12)) :=
  st7_main_v83 (U7 m c) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg11)) (m ((c.tc : Thread nD τ).loc main_arg12))
    (f_main_v75 m c)

theorem f_main_v100 : U9 m c (Proc.devRef .tc main_v100) = val_main_v100 (F := Ideal) (m ((c.tc : Thread nD τ).loc main_arg1)) (m ((c.tc : Thread nD τ).loc main_arg2)) (m ((c.tc : Thread nD τ).loc main_arg5)) (m ((c.tc : Thread nD τ).loc main_arg6)) :=
  st8_main_v100 (U8 m c) (m ((c.tc : Thread nD τ).loc main_arg1)) (m ((c.tc : Thread nD τ).loc main_arg2)) (m ((c.tc : Thread nD τ).loc main_arg5)) (m ((c.tc : Thread nD τ).loc main_arg6))
    ((keep_main_arg1_8_0 m c).trans rfl)
    ((keep_main_arg5_8_0 m c).trans rfl)
    ((keep_main_v3_8_1 m c).trans (f_main_v3 m c))
    ((keep_main_v29_8_3 m c).trans (f_main_v29 m c))
    ((keep_main_v6_8_1 m c).trans (f_main_v6 m c))
    ((keep_main_arg6_8_0 m c).trans rfl)

theorem f_main_v102 : U9 m c (Proc.devRef .tc main_v102) = val_main_v102 (F := Ideal) (m ((c.tc : Thread nD τ).loc main_arg1)) (m ((c.tc : Thread nD τ).loc main_arg2)) (m ((c.tc : Thread nD τ).loc main_arg5)) (m ((c.tc : Thread nD τ).loc main_arg6)) :=
  st8_main_v102 (U8 m c) (m ((c.tc : Thread nD τ).loc main_arg1)) (m ((c.tc : Thread nD τ).loc main_arg2)) (m ((c.tc : Thread nD τ).loc main_arg5)) (m ((c.tc : Thread nD τ).loc main_arg6))
    ((keep_main_arg1_8_0 m c).trans rfl)
    ((keep_main_arg5_8_0 m c).trans rfl)
    ((keep_main_v3_8_1 m c).trans (f_main_v3 m c))
    ((keep_main_v29_8_3 m c).trans (f_main_v29 m c))
    ((keep_main_v6_8_1 m c).trans (f_main_v6 m c))
    ((keep_main_arg6_8_0 m c).trans rfl)

theorem f_main_v105 : U9 m c (Proc.devRef .tc main_v105) = val_main_v105 (F := Ideal) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg13)) :=
  st8_main_v105 (U8 m c) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg13))
    ((keep_main_arg1_8_0 m c).trans rfl)
    ((keep_main_arg5_8_0 m c).trans rfl)
    ((keep_main_v3_8_1 m c).trans (f_main_v3 m c))
    ((keep_main_v29_8_3 m c).trans (f_main_v29 m c))
    ((keep_main_v6_8_1 m c).trans (f_main_v6 m c))
    ((keep_main_arg6_8_0 m c).trans rfl)
    ((keep_main_arg13_8_0 m c).trans rfl)

theorem f_main_v106 : U10 m c (Proc.devRef .tc main_v106) = val_main_v106 (F := Ideal) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg13)) :=
  st9_main_v106 (U9 m c) _ _ _
    (f_main_v102 m c)
    (f_main_v100 m c)
    (f_main_v105 m c)

theorem f_main_v123 : U11 m c (Proc.devRef .tc main_v123) = val_main_v123 (F := Ideal) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg9)) (m ((c.tc : Thread nD τ).loc main_arg10)) (m ((c.tc : Thread nD τ).loc main_arg13)) :=
  st10_main_v123 (U10 m c) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg9)) (m ((c.tc : Thread nD τ).loc main_arg10)) (m ((c.tc : Thread nD τ).loc main_arg13))
    (f_main_v106 m c)
    ((keep_main_arg9_10_0 m c).trans rfl)
    ((keep_main_v3_10_1 m c).trans (f_main_v3 m c))
    ((keep_main_v29_10_3 m c).trans (f_main_v29 m c))
    ((keep_main_v6_10_1 m c).trans (f_main_v6 m c))
    ((keep_main_arg10_10_0 m c).trans rfl)

theorem f_main_v125 : U11 m c (Proc.devRef .tc main_v125) = val_main_v125 (F := Ideal) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg9)) (m ((c.tc : Thread nD τ).loc main_arg10)) (m ((c.tc : Thread nD τ).loc main_arg13)) :=
  st10_main_v125 (U10 m c) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg9)) (m ((c.tc : Thread nD τ).loc main_arg10)) (m ((c.tc : Thread nD τ).loc main_arg13))
    (f_main_v106 m c)
    ((keep_main_arg9_10_0 m c).trans rfl)
    ((keep_main_v3_10_1 m c).trans (f_main_v3 m c))
    ((keep_main_v29_10_3 m c).trans (f_main_v29 m c))
    ((keep_main_v6_10_1 m c).trans (f_main_v6 m c))
    ((keep_main_arg10_10_0 m c).trans rfl)

theorem f_main_v128 : U11 m c (Proc.devRef .tc main_v128) = val_main_v128 (F := Ideal) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg9)) (m ((c.tc : Thread nD τ).loc main_arg10)) (m ((c.tc : Thread nD τ).loc main_arg13)) (m ((c.tc : Thread nD τ).loc main_arg14)) :=
  st10_main_v128 (U10 m c) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg9)) (m ((c.tc : Thread nD τ).loc main_arg10)) (m ((c.tc : Thread nD τ).loc main_arg13)) (m ((c.tc : Thread nD τ).loc main_arg14))
    (f_main_v106 m c)
    ((keep_main_arg9_10_0 m c).trans rfl)
    ((keep_main_v3_10_1 m c).trans (f_main_v3 m c))
    ((keep_main_v29_10_3 m c).trans (f_main_v29 m c))
    ((keep_main_v6_10_1 m c).trans (f_main_v6 m c))
    ((keep_main_arg10_10_0 m c).trans rfl)
    ((keep_main_arg14_10_0 m c).trans rfl)

theorem f_main_v129 : U12 m c (Proc.devRef .tc main_v129) = val_main_v129 (F := Ideal) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg9)) (m ((c.tc : Thread nD τ).loc main_arg10)) (m ((c.tc : Thread nD τ).loc main_arg13)) (m ((c.tc : Thread nD τ).loc main_arg14)) :=
  st11_main_v129 (U11 m c) _ _ _
    (f_main_v125 m c)
    (f_main_v123 m c)
    (f_main_v128 m c)

theorem f_main_v137 : U13 m c (Proc.devRef .tc main_v137) = val_main_v137 (F := Ideal) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg9)) (m ((c.tc : Thread nD τ).loc main_arg10)) (m ((c.tc : Thread nD τ).loc main_arg13)) (m ((c.tc : Thread nD τ).loc main_arg14)) :=
  st12_main_v137 (U12 m c) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg9)) (m ((c.tc : Thread nD τ).loc main_arg10)) (m ((c.tc : Thread nD τ).loc main_arg13)) (m ((c.tc : Thread nD τ).loc main_arg14))
    (f_main_v129 m c)

theorem f_main_v156 : U14 m c (Proc.devRef .tc main_v156) = val_main_v156 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) :=
  st13_main_v156 (U13 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
    ((keep_main_v83_13_8 m c).trans (f_main_v83 m c))
    (f_main_v137 m c)
    ((keep_main_arg15_13_0 m c).trans rfl)

/-- The whole line leaves the reference's result stage in the result buffer. -/
theorem result : StableHlo.after (ops (F := Ideal)) (launchContents m c) (Proc.devRef .tc main_v156)
    = val_main_v156 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  rw [after_ops]; exact f_main_v156 m c

end Cert.ReferenceIdeal.ByHand

end
-- ==== Proof.RefArgs.lean ====
/-
  The reference program writes none of its argument arrays.

  Each of the 190 host operations writes one buffer, its own result, and none of those is an argument; so the fold of
  the whole line, read at an argument, is the launch contents.
-/
import proofs.«123922_j71399536328730_2_alg».proof.Proof.RefRead
import proofs.«123922_j71399536328730_2_alg».proof.Proof.KeepTactic

set_option maxRecDepth 16384

noncomputable section

namespace Cert.ReferenceIdeal.ByHand

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo
open Cert.KernelIdeal.Kept

variable (m : (ℓ : Loc nD τ sig) → Buf (Elt Ideal) ℓ) (c : Dev nD)

theorem kept_arg0 : StableHlo.after (ops (F := Ideal)) (launchContents m c) (Proc.devRef .tc main_arg0)
    = m ((c.tc : Thread nD τ).loc main_arg0) :=
  (show StableHlo.after (ops (F := Ideal)) (launchContents m c) (Proc.devRef .tc main_arg0)
      = launchContents m c (Proc.devRef .tc main_arg0) by keep_host ops main_arg0).trans rfl
theorem kept_arg1 : StableHlo.after (ops (F := Ideal)) (launchContents m c) (Proc.devRef .tc main_arg1)
    = m ((c.tc : Thread nD τ).loc main_arg1) :=
  (show StableHlo.after (ops (F := Ideal)) (launchContents m c) (Proc.devRef .tc main_arg1)
      = launchContents m c (Proc.devRef .tc main_arg1) by keep_host ops main_arg1).trans rfl
theorem kept_arg2 : StableHlo.after (ops (F := Ideal)) (launchContents m c) (Proc.devRef .tc main_arg2)
    = m ((c.tc : Thread nD τ).loc main_arg2) :=
  (show StableHlo.after (ops (F := Ideal)) (launchContents m c) (Proc.devRef .tc main_arg2)
      = launchContents m c (Proc.devRef .tc main_arg2) by keep_host ops main_arg2).trans rfl
theorem kept_arg3 : StableHlo.after (ops (F := Ideal)) (launchContents m c) (Proc.devRef .tc main_arg3)
    = m ((c.tc : Thread nD τ).loc main_arg3) :=
  (show StableHlo.after (ops (F := Ideal)) (launchContents m c) (Proc.devRef .tc main_arg3)
      = launchContents m c (Proc.devRef .tc main_arg3) by keep_host ops main_arg3).trans rfl
theorem kept_arg4 : StableHlo.after (ops (F := Ideal)) (launchContents m c) (Proc.devRef .tc main_arg4)
    = m ((c.tc : Thread nD τ).loc main_arg4) :=
  (show StableHlo.after (ops (F := Ideal)) (launchContents m c) (Proc.devRef .tc main_arg4)
      = launchContents m c (Proc.devRef .tc main_arg4) by keep_host ops main_arg4).trans rfl
theorem kept_arg5 : StableHlo.after (ops (F := Ideal)) (launchContents m c) (Proc.devRef .tc main_arg5)
    = m ((c.tc : Thread nD τ).loc main_arg5) :=
  (show StableHlo.after (ops (F := Ideal)) (launchContents m c) (Proc.devRef .tc main_arg5)
      = launchContents m c (Proc.devRef .tc main_arg5) by keep_host ops main_arg5).trans rfl
theorem kept_arg6 : StableHlo.after (ops (F := Ideal)) (launchContents m c) (Proc.devRef .tc main_arg6)
    = m ((c.tc : Thread nD τ).loc main_arg6) :=
  (show StableHlo.after (ops (F := Ideal)) (launchContents m c) (Proc.devRef .tc main_arg6)
      = launchContents m c (Proc.devRef .tc main_arg6) by keep_host ops main_arg6).trans rfl
theorem kept_arg7 : StableHlo.after (ops (F := Ideal)) (launchContents m c) (Proc.devRef .tc main_arg7)
    = m ((c.tc : Thread nD τ).loc main_arg7) :=
  (show StableHlo.after (ops (F := Ideal)) (launchContents m c) (Proc.devRef .tc main_arg7)
      = launchContents m c (Proc.devRef .tc main_arg7) by keep_host ops main_arg7).trans rfl
theorem kept_arg8 : StableHlo.after (ops (F := Ideal)) (launchContents m c) (Proc.devRef .tc main_arg8)
    = m ((c.tc : Thread nD τ).loc main_arg8) :=
  (show StableHlo.after (ops (F := Ideal)) (launchContents m c) (Proc.devRef .tc main_arg8)
      = launchContents m c (Proc.devRef .tc main_arg8) by keep_host ops main_arg8).trans rfl
theorem kept_arg9 : StableHlo.after (ops (F := Ideal)) (launchContents m c) (Proc.devRef .tc main_arg9)
    = m ((c.tc : Thread nD τ).loc main_arg9) :=
  (show StableHlo.after (ops (F := Ideal)) (launchContents m c) (Proc.devRef .tc main_arg9)
      = launchContents m c (Proc.devRef .tc main_arg9) by keep_host ops main_arg9).trans rfl
theorem kept_arg10 : StableHlo.after (ops (F := Ideal)) (launchContents m c) (Proc.devRef .tc main_arg10)
    = m ((c.tc : Thread nD τ).loc main_arg10) :=
  (show StableHlo.after (ops (F := Ideal)) (launchContents m c) (Proc.devRef .tc main_arg10)
      = launchContents m c (Proc.devRef .tc main_arg10) by keep_host ops main_arg10).trans rfl
theorem kept_arg11 : StableHlo.after (ops (F := Ideal)) (launchContents m c) (Proc.devRef .tc main_arg11)
    = m ((c.tc : Thread nD τ).loc main_arg11) :=
  (show StableHlo.after (ops (F := Ideal)) (launchContents m c) (Proc.devRef .tc main_arg11)
      = launchContents m c (Proc.devRef .tc main_arg11) by keep_host ops main_arg11).trans rfl
theorem kept_arg12 : StableHlo.after (ops (F := Ideal)) (launchContents m c) (Proc.devRef .tc main_arg12)
    = m ((c.tc : Thread nD τ).loc main_arg12) :=
  (show StableHlo.after (ops (F := Ideal)) (launchContents m c) (Proc.devRef .tc main_arg12)
      = launchContents m c (Proc.devRef .tc main_arg12) by keep_host ops main_arg12).trans rfl
theorem kept_arg13 : StableHlo.after (ops (F := Ideal)) (launchContents m c) (Proc.devRef .tc main_arg13)
    = m ((c.tc : Thread nD τ).loc main_arg13) :=
  (show StableHlo.after (ops (F := Ideal)) (launchContents m c) (Proc.devRef .tc main_arg13)
      = launchContents m c (Proc.devRef .tc main_arg13) by keep_host ops main_arg13).trans rfl
theorem kept_arg14 : StableHlo.after (ops (F := Ideal)) (launchContents m c) (Proc.devRef .tc main_arg14)
    = m ((c.tc : Thread nD τ).loc main_arg14) :=
  (show StableHlo.after (ops (F := Ideal)) (launchContents m c) (Proc.devRef .tc main_arg14)
      = launchContents m c (Proc.devRef .tc main_arg14) by keep_host ops main_arg14).trans rfl
theorem kept_arg15 : StableHlo.after (ops (F := Ideal)) (launchContents m c) (Proc.devRef .tc main_arg15)
    = m ((c.tc : Thread nD τ).loc main_arg15) :=
  (show StableHlo.after (ops (F := Ideal)) (launchContents m c) (Proc.devRef .tc main_arg15)
      = launchContents m c (Proc.devRef .tc main_arg15) by keep_host ops main_arg15).trans rfl

end Cert.ReferenceIdeal.ByHand

end
-- ==== Proof.RefRunHand.lean ====
/-
  The reference program's run.

  Every weakly fair execution of the straight line of host operations terminates, nothing faulting, with every buffer
  at the fold of the operations over the launch memory. Read at the result buffer that fold is the reference's result
  stage of the argument arrays (the stretch-by-stretch reading), and read at an argument it is the launch contents.
-/
import proofs.«123922_j71399536328730_2_alg».proof.Proof.RefRead
import proofs.«123922_j71399536328730_2_alg».proof.Proof.RefFold
import proofs.«123922_j71399536328730_2_alg».proof.Proof.RefArgs

set_option maxRecDepth 16384

noncomputable section

namespace Cert.ReferenceIdeal.ByHand

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo
open Cert.KernelIdeal.Kept

/-- From any memory with zero counters: the result buffer ends at the result stage of the arguments, the arguments
    unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v156) = val_main_v156 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c main_v156).trans (result m c),
      (h c main_arg0).trans (kept_arg0 m c),
      (h c main_arg1).trans (kept_arg1 m c),
      (h c main_arg2).trans (kept_arg2 m c),
      (h c main_arg3).trans (kept_arg3 m c),
      (h c main_arg4).trans (kept_arg4 m c),
      (h c main_arg5).trans (kept_arg5 m c),
      (h c main_arg6).trans (kept_arg6 m c),
      (h c main_arg7).trans (kept_arg7 m c),
      (h c main_arg8).trans (kept_arg8 m c),
      (h c main_arg9).trans (kept_arg9 m c),
      (h c main_arg10).trans (kept_arg10 m c),
      (h c main_arg11).trans (kept_arg11 m c),
      (h c main_arg12).trans (kept_arg12 m c),
      (h c main_arg13).trans (kept_arg13 m c),
      (h c main_arg14).trans (kept_arg14 m c),
      (h c main_arg15).trans (kept_arg15 m c)⟩)
    (run_seq scopedRefs_eq scopedSems_eq defs main (fun _ => ops) main_eq (fun _ => ops_sub) m ρ)

end Cert.ReferenceIdeal.ByHand

end
-- ==== Proof.RunResult.lean ====
/-
  The idealized kernel program's run, with its result kept.

  The program is nine kernel launches among stretches of host operations. Read segment by segment, the contents of
  every buffer at each boundary are a fold from the launch memory: a stretch of host operations applies them in
  order, a launch leaves each of its arrays at what its write-backs leave and every other buffer as it was. Every
  weakly fair execution terminates without a fault in a state whose unscoped buffers hold the last boundary's
  contents; read at the result buffer this names the result array, and read at each argument it is the launch
  contents, because nothing writes an argument.
-/
import proofs.«123922_j71399536328730_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and every argument array as launched. -/
theorem run_result : θ_run defs (onTc (τ := τ) (main (F := F))) ⟨m, fun _ => 0, ρ⟩ (fun r => ∀ c : Dev nD,
      r.2.mem ((c.tc : Thread nD τ).loc main_v114) = W20 m ρ c (Proc.devRef .tc main_v114)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c =>
      ⟨h c _ (mem_uc main_v114 (by decide)),
       (h c _ (mem_uc main_arg0 (by decide))).trans (W20_main_arg0 m ρ c),
       (h c _ (mem_uc main_arg1 (by decide))).trans (W20_main_arg1 m ρ c),
       (h c _ (mem_uc main_arg2 (by decide))).trans (W20_main_arg2 m ρ c),
       (h c _ (mem_uc main_arg3 (by decide))).trans (W20_main_arg3 m ρ c),
       (h c _ (mem_uc main_arg4 (by decide))).trans (W20_main_arg4 m ρ c),
       (h c _ (mem_uc main_arg5 (by decide))).trans (W20_main_arg5 m ρ c),
       (h c _ (mem_uc main_arg6 (by decide))).trans (W20_main_arg6 m ρ c),
       (h c _ (mem_uc main_arg7 (by decide))).trans (W20_main_arg7 m ρ c),
       (h c _ (mem_uc main_arg8 (by decide))).trans (W20_main_arg8 m ρ c),
       (h c _ (mem_uc main_arg9 (by decide))).trans (W20_main_arg9 m ρ c),
       (h c _ (mem_uc main_arg10 (by decide))).trans (W20_main_arg10 m ρ c),
       (h c _ (mem_uc main_arg11 (by decide))).trans (W20_main_arg11 m ρ c),
       (h c _ (mem_uc main_arg12 (by decide))).trans (W20_main_arg12 m ρ c),
       (h c _ (mem_uc main_arg13 (by decide))).trans (W20_main_arg13 m ρ c),
       (h c _ (mem_uc main_arg14 (by decide))).trans (W20_main_arg14 m ρ c),
       (h c _ (mem_uc main_arg15 (by decide))).trans (W20_main_arg15 m ρ c)⟩)

end Cert.KernelIdeal.Result

end
-- ==== Proof.LibPlainDot.lean ====
/-
  A plain matrix product read at an index, on the extended reals.

  For dimension numbers that describe an ordinary product of an M x K matrix with a K x N matrix (no batch axes; the
  left operand contracts its axis 1, the right operand its axis 0), entry (p, q) of the product is
      sum over k < K of  a (p, k) * b (k, q).
  This holds for the accumulating product started from the all-zero block and for the host's product alike, and it
  uses nothing of real arithmetic beyond `0 + x = x`, so it holds at the infinities too.
-/
import Idealize.ShloMosaic.Lib.ValueIdx
import Idealize.ShloMosaic.PureOps.Ideal.Laws

namespace Idealize.ShloMosaic.PlainDot

open Idealize.ShloMosaic Idealize.ShloMosaic.ValueIdx

variable {sl sr so : Shape} (d : DotDims sl sr so)

/-- On the left operand's only non-contracting axis, with no batch axes, the left index reads the result index at
    position 0. -/
theorem lhsIdx_val_nonContracting {nl : Fin sl.rank} (hb : d.lhsBatch = []) (hn : d.lhsNonContracting = [nl])
    (h0 : 0 < so.rank) (j : so.Idx) (k : d.contr.Idx) : (d.lhsIdx j k nl).val = (j ⟨0, h0⟩).val := by
  have hmem : nl ∈ d.lhsNonContracting := by rw [hn]; exact List.mem_singleton.mpr rfl
  have hnb : nl ∉ d.lhsBatch := by rw [hb]; exact List.not_mem_nil
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- On the right operand's only non-contracting axis, with no batch axes and one left non-contracting axis, the right
    index reads the result index at position 1. -/
theorem rhsIdx_val_nonContracting {nl : Fin sl.rank} {nr : Fin sr.rank} (hlb : d.lhsBatch = []) (hrb : d.rhsBatch = [])
    (hln : d.lhsNonContracting = [nl]) (hrn : d.rhsNonContracting = [nr])
    (h1 : 1 < so.rank) (j : so.Idx) (k : d.contr.Idx) : (d.rhsIdx j k nr).val = (j ⟨1, h1⟩).val := by
  have hmem : nr ∈ d.rhsNonContracting := by rw [hrn]; exact List.mem_singleton.mpr rfl
  have hnb : nr ∉ d.rhsBatch := by rw [hrb]; exact List.not_mem_nil
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hrn])

section Plain

variable {M K N : Nat} (D : DotDims ⟨2, ![M, K]⟩ ⟨2, ![K, N]⟩ ⟨2, ![M, N]⟩)
  (hlc : D.lhsContracting = [1]) (hrc : D.rhsContracting = [0])
  (hln : D.lhsNonContracting = [0]) (hrn : D.rhsNonContracting = [1])
  (hlb : D.lhsBatch = []) (hrb : D.rhsBatch = [])
  (hr : D.contr.rank = 1) (hs : D.contr.size ⟨0, by omega⟩ = K)

include hlc hln hlb in
/-- The left operand's index at result entry (p, q) and contraction position k is (p, k). -/
theorem lhsIdx_eq (p : Fin M) (q : Fin N) (k : Fin K) :
    D.lhsIdx (ix2 p q) ((contrEquiv1 D K hr hs).symm k) = ix2 p k := by
  funext a
  apply Fin.ext
  match a with
  | ⟨0, _⟩ => exact lhsIdx_val_nonContracting D hlb hln Nat.zero_lt_two (ix2 p q) _
  | ⟨1, _⟩ => exact (D.lhsIdx_val_of_single hlc (ix2 p q) _).trans (contrEquiv1_symm_val D K hr hs k)

include hrc hln hrn hlb hrb in
/-- The right operand's index at result entry (p, q) and contraction position k is (k, q). -/
theorem rhsIdx_eq (p : Fin M) (q : Fin N) (k : Fin K) :
    D.rhsIdx (ix2 p q) ((contrEquiv1 D K hr hs).symm k) = ix2 k q := by
  funext a
  apply Fin.ext
  match a with
  | ⟨0, _⟩ => exact (D.rhsIdx_val_of_single hrc (ix2 p q) _).trans (contrEquiv1_symm_val D K hr hs k)
  | ⟨1, _⟩ => exact rhsIdx_val_nonContracting D hlb hrb hln hrn Nat.one_lt_two (ix2 p q) _

include hlc hrc hln hrn hlb hrb hr hs in
/-- The sum over the contraction index is the sum over k < K of a (p, k) * b (k, q). -/
theorem sum_contr {φ₁ φ₂ : FTy} (a : FVec Ideal ⟨2, ![M, K]⟩ φ₁) (b : FVec Ideal ⟨2, ![K, N]⟩ φ₂) (p : Fin M) (q : Fin N) :
    (∑ k : D.contr.Idx, a (D.lhsIdx (ix2 p q) k) * b (D.rhsIdx (ix2 p q) k) : EReal)
      = ∑ k : Fin K, a (ix2 p k) * b (ix2 k q) := by
  rw [← Equiv.sum_comp (contrEquiv1 D K hr hs).symm]
  refine Finset.sum_congr rfl fun k _ => ?_
  rw [lhsIdx_eq D hlc hln hlb hr hs p q k, rhsIdx_eq D hrc hln hrn hlb hrb hr hs p q k]

include hlc hrc hln hrn hlb hrb hr hs in
/-- The accumulating product started from the all-zero block, at entry (p, q). -/
theorem matmul_zero_apply {φ₁ φ₂ : FTy} (prec : Option ContractPrecision)
    (a : FVec Ideal ⟨2, ![M, K]⟩ φ₁) (b : FVec Ideal ⟨2, ![K, N]⟩ φ₂) (p : Fin M) (q : Fin N) :
    FloatOps.matmul D prec a b (constant ⟨2, ![M, N]⟩ .f32 0x00000000#32) (ix2 p q) = ∑ k : Fin K, a (ix2 p k) * b (ix2 k q) :=
  (Ideal.matmul_constant_zero_apply D prec a b (ix2 p q)).trans (sum_contr D hlc hrc hln hrn hlb hrb hr hs a b p q)

include hlc hrc hln hrn hlb hrb hr hs in
/-- The host's product, at entry (p, q). -/
theorem dotGeneral_apply {φ₁ φ₂ : FTy} (prec : Option ContractPrecision) (sched : HostSchedule)
    (a : FVec Ideal ⟨2, ![M, K]⟩ φ₁) (b : FVec Ideal ⟨2, ![K, N]⟩ φ₂) (p : Fin M) (q : Fin N) :
    FloatOps.dotGeneral D prec sched a b (ix2 p q) = ∑ k : Fin K, a (ix2 p k) * b (ix2 k q) :=
  (Ideal.dotGeneral_apply D prec sched a b (ix2 p q)).trans (sum_contr D hlc hrc hln hrn hlb hrb hr hs a b p q)

end Plain

end Idealize.ShloMosaic.PlainDot
-- ==== Proof.LibRowLayout.lean ====
/-
  Column forms of the layout operations, read at an index written by coordinates.

  A row-wise reduction with the reduced axis kept (a mean or a variance per row) meets three layout steps:
  the vector of row sums [a] is cast to a column [a, 1]; the column is broadcast along the rows to [a, b];
  and the sum itself runs over the second coordinate of the row. Each lemma reads one of these steps at an
  index given by its coordinates.
-/
import Idealize.ShloMosaic.Lib.ValueIdx
import Idealize.ShloMosaic.Lib.ValueLayout
import Idealize.ShloMosaic.Lib.Pipeline.Value
import Idealize.ShloMosaic.PureOps.Ideal.Laws

namespace Cert.LibRowLayout

open Idealize.ShloMosaic Idealize.ShloMosaic.ValueIdx

variable {α : Type}

/-- A vector `[a]` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a sum over the second axis of `[a, b]` visits at row `i` and position `k` is `(i, k)`. -/
theorem lift_row {a b : ℕ} (h : (⟨2, ![a, b]⟩ : Shape).Reduces [1] ⟨1, ![a]⟩) (i : Fin a) (k : Fin b) :
    h.lift (ix1 i) k = ix2 i k :=
  funext fun d => Fin.ext (by match d with | ⟨0, _⟩ => rfl | ⟨1, _⟩ => rfl)

/-- A sum over the second axis of an `[a, b]` array of extended reals, read at row `i`: the sum of the row. -/
theorem multiReduction_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  exact Finset.sum_congr rfl fun k _ => congrArg src (lift_row h i k)

end Cert.LibRowLayout
-- ==== Proof.LibRowBroadcast.lean ====
/-
  A vector laid out as one row and then repeated down the rows, read at an index.

  The host broadcasts a length-n vector b first to a [1, n] array (along axis 1) and then to an [a, n] array
  (along both axes, the unit axis stretched). Entry (p, q) of the result is b (q), whatever the row p.
-/
import Idealize.ShloMosaic.Lib.Pipeline.Value
import Idealize.ShloMosaic.Lib.ValueIdx

namespace Idealize.ShloMosaic.RowBroadcast

open Idealize.ShloMosaic Idealize.ShloMosaic.ValueIdx

/-- A vector made one row and then every row of an [a, n] array, read at (p, q), is its entry q. -/
theorem rowsOf_apply {α : Type} {a n : Nat} (b : (⟨1, ![n]⟩ : Shape).Idx → α) (h1 : (⟨1, ![n]⟩ : Shape).BroadcastsInDim ⟨2, ![1, n]⟩ ![1])
    (h2 : (⟨2, ![1, n]⟩ : Shape).BroadcastsInDim ⟨2, ![a, n]⟩ ![0, 1]) (p : Fin a) (q : Fin n) :
    broadcastInDim ⟨2, ![a, n]⟩ ![0, 1] h2 (broadcastInDim ⟨2, ![1, n]⟩ ![1] h1 b) (ix2 p q) = b (ix1 q) := by
  rw [broadcastInDim_apply ![0, 1] h2 _ (ix2 p q) (ix2 (0 : Fin 1) q) (fun ax => by
    match ax with
    | ⟨0, _⟩ => rfl
    | ⟨1, _⟩ =>
      show q.val = if n = 1 then 0 else q.val
      split
      · have := q.isLt; omega
      · rfl)]
  exact broadcastInDim_apply ![1] h1 b (ix2 (0 : Fin 1) q) (ix1 q) (fun ax => by
    match ax with
    | ⟨0, _⟩ =>
      show q.val = if n = 1 then 0 else q.val
      split
      · have := q.isLt; omega
      · rfl)

end Idealize.ShloMosaic.RowBroadcast
-- ==== Proof.Spec.lean ====
/-
  The three dense maps of a two-branch graph-convolution network, on the extended reals.

  Each branch applies, twice, a graph convolution: the node features x (one row per node) are multiplied by a weight
  matrix, the rows are gathered along the edges, scaled and summed into their target nodes, and then a bias row is
  added and a parametric rectifier applied: v = agg(p, q) + b(q), kept where v ≥ 0 and replaced by a(q) · v elsewhere.
  The two branches' outputs are each divided row by row by the larger of the row's Euclidean norm and a small
  constant, and added with two weights. Stated here, over any sizes, are the three maps that are dense: the matrix
  product, bias-and-rectifier, and normalise-and-mix — each as a function of whole arrays, index by index, together
  with the operation trees that compute them on a block of rows and on whole arrays. Nothing here needs an entry to
  be finite: each lemma only reads the same operations at an index.
-/
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws
import proofs.«123922_j71399536328730_2_alg».proof.Proof.LibPlainDot
import proofs.«123922_j71399536328730_2_alg».proof.Proof.LibRowLayout
import proofs.«123922_j71399536328730_2_alg».proof.Proof.LibRowBroadcast

noncomputable section

namespace Cert.GraphFusion

open Idealize.ShloMosaic Idealize.ShloMosaic.ValueIdx

/-! ## The matrix product -/

/-- x · w: entry (p, q) is the sum over k of x(p, k) · w(k, q), whatever float formats the operands are held in. -/
def product {M K N : Nat} {φ₁ φ₂ : FTy} (x : FVec Ideal ⟨2, ![M, K]⟩ φ₁) (w : FVec Ideal ⟨2, ![K, N]⟩ φ₂) :
    FVec Ideal ⟨2, ![M, N]⟩ .f32 :=
  fun j => (∑ k : Fin K, x (ix2 (j 0) k) * w (ix2 k (j 1)) : EReal)

theorem product_apply {M K N : Nat} {φ₁ φ₂ : FTy} (x : FVec Ideal ⟨2, ![M, K]⟩ φ₁) (w : FVec Ideal ⟨2, ![K, N]⟩ φ₂)
    (p : Fin M) (q : Fin N) : product x w (ix2 p q) = ∑ k : Fin K, x (ix2 p k) * w (ix2 k q) := rfl

section Forms

variable {M K N : Nat} (D : DotDims ⟨2, ![M, K]⟩ ⟨2, ![K, N]⟩ ⟨2, ![M, N]⟩)
  (hlc : D.lhsContracting = [1]) (hrc : D.rhsContracting = [0])
  (hln : D.lhsNonContracting = [0]) (hrn : D.rhsNonContracting = [1])
  (hlb : D.lhsBatch = []) (hrb : D.rhsBatch = [])
  (hr : D.contr.rank = 1) (hs : D.contr.size ⟨0, by omega⟩ = K)

include hlc hrc hln hrn hlb hrb hr hs in
/-- The matrix unit's product accumulated from the all-zero block is x · w. -/
theorem matmul_zero_eq_product {φ₁ φ₂ : FTy} (prec : Option ContractPrecision)
    (x : FVec Ideal ⟨2, ![M, K]⟩ φ₁) (w : FVec Ideal ⟨2, ![K, N]⟩ φ₂) :
    FloatOps.matmul D prec x w (constant ⟨2, ![M, N]⟩ .f32 0x00000000#32) = product x w := by
  funext j
  obtain ⟨p, q, rfl⟩ : ∃ (p : Fin M) (q : Fin N), j = ix2 p q := ⟨j 0, j 1, eq_ix2 j⟩
  exact PlainDot.matmul_zero_apply D hlc hrc hln hrn hlb hrb hr hs prec x w p q

include hlc hrc hln hrn hlb hrb hr hs in
/-- The host's product of the whole arrays is x · w. -/
theorem dotGeneral_eq_product {φ₁ φ₂ : FTy} (prec : Option ContractPrecision) (sched : HostSchedule)
    (x : FVec Ideal ⟨2, ![M, K]⟩ φ₁) (w : FVec Ideal ⟨2, ![K, N]⟩ φ₂) :
    FloatOps.dotGeneral D prec sched x w = product x w := by
  funext j
  obtain ⟨p, q, rfl⟩ : ∃ (p : Fin M) (q : Fin N), j = ix2 p q := ⟨j 0, j 1, eq_ix2 j⟩
  exact PlainDot.dotGeneral_apply D hlc hrc hln hrn hlb hrb hr hs prec sched x w p q

end Forms

/-- Narrowing both operands to a shorter float format changes nothing on the extended reals. -/
theorem product_truncf {M K N : Nat} {ψ : FTy} (x : FVec Ideal ⟨2, ![M, K]⟩ .f32) (w : FVec Ideal ⟨2, ![K, N]⟩ .f32)
    (hb : ψ.bits < FTy.bits .f32) : product (truncf ψ x hb) (truncf ψ w hb) = product x w := rfl

/-- The product of a block of rows is the rows of the product: entry (p, q) of x' · w' is entry (p', q) of x · w when
    row p of x' is row p' of x and w' is w. -/
theorem product_rows {M M' K N : Nat} {φ₁ φ₂ : FTy} (x : FVec Ideal ⟨2, ![M, K]⟩ φ₁) (w : FVec Ideal ⟨2, ![K, N]⟩ φ₂)
    (x' : FVec Ideal ⟨2, ![M', K]⟩ φ₁) (w' : FVec Ideal ⟨2, ![K, N]⟩ φ₂) (p : Fin M') (p' : Fin M) (q : Fin N)
    (hx : ∀ k : Fin K, x' (ix2 p k) = x (ix2 p' k)) (hw : ∀ k : Fin K, w' (ix2 k q) = w (ix2 k q)) :
    product x' w' (ix2 p q) = product x w (ix2 p' q) := by
  rw [product_apply, product_apply]
  exact Finset.sum_congr rfl fun k _ => by rw [hx k, hw k]

/-! ## Bias and parametric rectifier -/

/-- v = agg(p, q) + b(q); the result is v where v ≥ 0 and a(q) · v elsewhere. The bias b and the slope a are rows. -/
def biasPrelu {M N : Nat} (agg : FVec Ideal ⟨2, ![M, N]⟩ .f32) (b a : FVec Ideal ⟨2, ![1, N]⟩ .f32) :
    FVec Ideal ⟨2, ![M, N]⟩ .f32 :=
  fun j => Scalar.select (FloatOps.cmpf .oge (agg j + b (ix2 (0 : Fin 1) (j 1)) : EReal) (Ideal.ofBits .f32 0x00000000#32))
    (agg j + b (ix2 (0 : Fin 1) (j 1)) : EReal) (a (ix2 (0 : Fin 1) (j 1)) * (agg j + b (ix2 (0 : Fin 1) (j 1))) : EReal)

theorem biasPrelu_apply {M N : Nat} (agg : FVec Ideal ⟨2, ![M, N]⟩ .f32) (b a : FVec Ideal ⟨2, ![1, N]⟩ .f32)
    (p : Fin M) (q : Fin N) :
    biasPrelu agg b a (ix2 p q)
      = Scalar.select (FloatOps.cmpf .oge (agg (ix2 p q) + b (ix2 (0 : Fin 1) q) : EReal) (Ideal.ofBits .f32 0x00000000#32))
          (agg (ix2 p q) + b (ix2 (0 : Fin 1) q) : EReal) (a (ix2 (0 : Fin 1) q) * (agg (ix2 p q) + b (ix2 (0 : Fin 1) q)) : EReal) := rfl

/-- A row [1, n] repeated down the rows of an [m, n] block, read at (p, q), is its entry (0, q). -/
theorem rowDown_apply {α : Type} {m n : Nat} (b : (⟨2, ![1, n]⟩ : Shape).Idx → α)
    (h : (⟨2, ![1, n]⟩ : Shape).Broadcasts ⟨2, ![m, n]⟩) (p : Fin m) (q : Fin n) :
    broadcastTo ⟨2, ![m, n]⟩ b h (ix2 p q) = b (ix2 (0 : Fin 1) q) :=
  broadcastTo_apply b h (ix2 p q) (ix2 (0 : Fin 1) q) (fun ax => by
    match ax with
    | ⟨0, _⟩ => rfl
    | ⟨1, _⟩ =>
      show q.val = if n = 1 then 0 else q.val
      split
      · have := q.isLt; omega
      · rfl)

/-- The operation tree a kernel body computes on a block: add the bias row repeated down the rows, compare with the
    zero splat, multiply by the slope row repeated down the rows, select. -/
theorem biasPrelu_tree {M N : Nat} (x : FVec Ideal ⟨2, ![M, N]⟩ .f32) (b a : FVec Ideal ⟨2, ![1, N]⟩ .f32)
    (h : (⟨2, ![1, N]⟩ : Shape).Broadcasts ⟨2, ![M, N]⟩) :
    select (cmpf .oge (addf x (broadcastTo ⟨2, ![M, N]⟩ b h)) (broadcast ⟨2, ![M, N]⟩ (Scalar.ofBits (F := Ideal) .f32 0x00000000#32)))
        (addf x (broadcastTo ⟨2, ![M, N]⟩ b h))
        (mulf (broadcastTo ⟨2, ![M, N]⟩ a h) (addf x (broadcastTo ⟨2, ![M, N]⟩ b h)))
      = biasPrelu x b a := by
  funext j
  obtain ⟨p, q, rfl⟩ : ∃ (p : Fin M) (q : Fin N), j = ix2 p q := ⟨j 0, j 1, eq_ix2 j⟩
  rw [select_apply, cmpf_apply, mulf_apply, addf_apply, broadcast_apply, rowDown_apply b h p q, rowDown_apply a h p q]
  rfl

/-- A vector [n] reshaped to one row [1, n], read at (0, q), is its entry q. -/
theorem asRow_apply {α : Type} {n : Nat} (b : (⟨1, ![n]⟩ : Shape).Idx → α)
    (h : (⟨1, ![n]⟩ : Shape).ShapeCasts ⟨2, ![1, n]⟩) (q : Fin n) :
    shapeCast ⟨2, ![1, n]⟩ b h (ix2 (0 : Fin 1) q) = b (ix1 q) := by
  rw [shapeCast_addUnit_apply ![n] b h (ix2 (0 : Fin 1) q)]
  exact congrArg b (funext fun d => by match d with | ⟨0, _⟩ => rfl)

/-- The operation tree the host computes on whole arrays, bias and slope given as vectors broadcast first to a row and
    then down the rows: the same map, of the vectors reshaped to rows. -/
theorem biasPrelu_host {M N : Nat} (x : FVec Ideal ⟨2, ![M, N]⟩ .f32) (b a : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![])
    (hc : (⟨1, ![N]⟩ : Shape).ShapeCasts ⟨2, ![1, N]⟩) :
    select (cmpf .oge (addf x (broadcastInDim ⟨2, ![M, N]⟩ ![0, 1] h2 (broadcastInDim ⟨2, ![1, N]⟩ ![1] h1 b)))
          (broadcastInDim ⟨2, ![M, N]⟩ ![] h0 (constant (F := Ideal) ⟨0, ![]⟩ .f32 0x00000000#32)))
        (addf x (broadcastInDim ⟨2, ![M, N]⟩ ![0, 1] h2 (broadcastInDim ⟨2, ![1, N]⟩ ![1] h1 b)))
        (mulf (broadcastInDim ⟨2, ![M, N]⟩ ![0, 1] h2 (broadcastInDim ⟨2, ![1, N]⟩ ![1] h1 a))
          (addf x (broadcastInDim ⟨2, ![M, N]⟩ ![0, 1] h2 (broadcastInDim ⟨2, ![1, N]⟩ ![1] h1 b))))
      = biasPrelu x (shapeCast ⟨2, ![1, N]⟩ b hc) (shapeCast ⟨2, ![1, N]⟩ a hc) := by
  funext j
  obtain ⟨p, q, rfl⟩ : ∃ (p : Fin M) (q : Fin N), j = ix2 p q := ⟨j 0, j 1, eq_ix2 j⟩
  rw [select_apply, cmpf_apply, mulf_apply, addf_apply, RowBroadcast.rowsOf_apply b h1 h2 p q,
    RowBroadcast.rowsOf_apply a h1 h2 p q, biasPrelu_apply, asRow_apply b hc q, asRow_apply a hc q,
    broadcastInDim_apply ![] h0 _ (ix2 p q) ix0 (fun ax => ax.elim0)]
  rfl

/-- Bias-and-rectifier of a block of rows is the rows of bias-and-rectifier of the whole array. -/
theorem biasPrelu_rows {M M' N : Nat} (x : FVec Ideal ⟨2, ![M, N]⟩ .f32) (x' : FVec Ideal ⟨2, ![M', N]⟩ .f32)
    (b a : FVec Ideal ⟨2, ![1, N]⟩ .f32) (p : Fin M') (p' : Fin M) (q : Fin N) (hx : x' (ix2 p q) = x (ix2 p' q)) :
    biasPrelu x' b a (ix2 p q) = biasPrelu x b a (ix2 p' q) := by
  rw [biasPrelu_apply, biasPrelu_apply, hx]

end Cert.GraphFusion

end
-- ==== Proof.SpecNorm.lean ====
/-
  Normalise each branch by its rows' Euclidean norms and mix the two with a pair of weights, on the extended reals.

  For an array h with one row per node, the scale of row p is the larger of sqrt(sum over k of h(p, k)²) and a small
  constant; the row is divided by its scale. The result at (p, q) is
      h1(p, q) / scale₁(p) · w(0) + h2(p, q) / scale₂(p) · w(1).
  Stated here are that map, and the two operation trees that compute it: on a block of rows, with the row sum a lane
  reduction kept as a column and the two weights read out of unit blocks; and on whole arrays, with the row sum the
  host's reduction from zero, broadcast to a column, and each weight a scalar broadcast to the whole array. A row's
  scale depends only on that row, so a block of rows of the result is the result of the block.
-/
import proofs.«123922_j71399536328730_2_alg».proof.Proof.Spec

noncomputable section

namespace Cert.GraphFusion

open Idealize.ShloMosaic Idealize.ShloMosaic.ValueIdx

/-- The scale of row p: the larger of the row's Euclidean norm and the small constant. -/
def rowScale {M N : Nat} (h : FVec Ideal ⟨2, ![M, N]⟩ .f32) (p : Fin M) : EReal :=
  max (Ideal.sqrt (∑ k : Fin N, h (ix2 p k) * h (ix2 p k))) (Ideal.ofBits .f32 0x2B8CBCCC#32)

/-- h1 / scale₁ · w0 + h2 / scale₂ · w1, entry by entry. -/
def normMix {M N : Nat} (h1 h2 : FVec Ideal ⟨2, ![M, N]⟩ .f32) (w0 w1 : EReal) : FVec Ideal ⟨2, ![M, N]⟩ .f32 :=
  fun j => (Ideal.div (h1 j) (rowScale h1 (j 0)) * w0 + Ideal.div (h2 j) (rowScale h2 (j 0)) * w1 : EReal)

theorem normMix_apply {M N : Nat} (h1 h2 : FVec Ideal ⟨2, ![M, N]⟩ .f32) (w0 w1 : EReal) (p : Fin M) (q : Fin N) :
    normMix h1 h2 w0 w1 (ix2 p q)
      = Ideal.div (h1 (ix2 p q)) (rowScale h1 p) * w0 + Ideal.div (h2 (ix2 p q)) (rowScale h2 p) * w1 := rfl

/-- A row's scale is the same in a block of rows as in the whole array. -/
theorem rowScale_rows {M M' N : Nat} (h : FVec Ideal ⟨2, ![M, N]⟩ .f32) (h' : FVec Ideal ⟨2, ![M', N]⟩ .f32)
    (p : Fin M') (p' : Fin M) (hx : ∀ k : Fin N, h' (ix2 p k) = h (ix2 p' k)) : rowScale h' p = rowScale h p' := by
  unfold rowScale
  rw [Finset.sum_congr rfl fun k _ => by rw [hx k]]

/-- The normalised mix of a block of rows is the rows of the normalised mix of the whole arrays. -/
theorem normMix_rows {M M' N : Nat} (h1 h2 : FVec Ideal ⟨2, ![M, N]⟩ .f32) (h1' h2' : FVec Ideal ⟨2, ![M', N]⟩ .f32)
    (w0 w1 : EReal) (p : Fin M') (p' : Fin M) (q : Fin N)
    (hx1 : ∀ k : Fin N, h1' (ix2 p k) = h1 (ix2 p' k)) (hx2 : ∀ k : Fin N, h2' (ix2 p k) = h2 (ix2 p' k)) :
    normMix h1' h2' w0 w1 (ix2 p q) = normMix h1 h2 w0 w1 (ix2 p' q) := by
  rw [normMix_apply, normMix_apply, rowScale_rows h1 h1' p p' hx1, rowScale_rows h2 h2' p p' hx2, hx1 q, hx2 q]

/-- On a block: the squares summed along the lanes, the sums kept as a column, its square root, the maximum with the
    splat constant, repeated along the row: at (p, q) this is the scale of row p. -/
theorem scaleTree_apply {M N : Nat} (x : FVec Ideal ⟨2, ![M, N]⟩ .f32)
    (hred : (⟨2, ![M, N]⟩ : Shape).Reduces [1] ⟨1, ![M]⟩) (hφ : FKind.Formats .f32)
    (hacc : (0x00000000#32 : BitVec (FTy.bits .f32)) = FKind.add.neutral .f32 hφ)
    (hcast : (⟨1, ![M]⟩ : Shape).ShapeCasts ⟨2, ![M, 1]⟩) (hb : (⟨2, ![M, 1]⟩ : Shape).Broadcasts ⟨2, ![M, N]⟩)
    (p : Fin M) (q : Fin N) :
    broadcastTo ⟨2, ![M, N]⟩
        (maximumf (sqrt (shapeCast ⟨2, ![M, 1]⟩ (multiReduction .add [1] ⟨1, ![M]⟩ (mulf x x) 0x00000000#32 hred hφ hacc) hcast))
          (broadcast ⟨2, ![M, 1]⟩ (Scalar.ofBits (F := Ideal) .f32 0x2B8CBCCC#32))) hb (ix2 p q)
      = rowScale x p := by
  rw [LibRowLayout.broadcastTo_a1_ab_apply _ hb p q, maximumf_apply, broadcast_apply]
  show max (Ideal.sqrt (shapeCast ⟨2, ![M, 1]⟩ (multiReduction .add [1] ⟨1, ![M]⟩ (mulf x x) 0x00000000#32 hred hφ hacc) hcast
    (ix2 p (0 : Fin 1)))) _ = _
  rw [LibRowLayout.shapeCast_a_a1_apply _ hcast p 0, LibRowLayout.multiReduction_row (mulf x x) _ hred hφ hacc p]
  rfl

/-- The operation tree a kernel body computes on a block, the two weights read out of unit blocks. -/
theorem normMix_tree {M N : Nat} (x1 x2 : FVec Ideal ⟨2, ![M, N]⟩ .f32) (u0 u1 : FVec Ideal ⟨2, ![1, 1]⟩ .f32)
    (hred : (⟨2, ![M, N]⟩ : Shape).Reduces [1] ⟨1, ![M]⟩) (hφ : FKind.Formats .f32)
    (hacc : (0x00000000#32 : BitVec (FTy.bits .f32)) = FKind.add.neutral .f32 hφ)
    (hcast : (⟨1, ![M]⟩ : Shape).ShapeCasts ⟨2, ![M, 1]⟩) (hb : (⟨2, ![M, 1]⟩ : Shape).Broadcasts ⟨2, ![M, N]⟩)
    (hpos : ∀ a, (![0, 0] : Fin 2 → Nat) a < (⟨2, ![1, 1]⟩ : Shape).size a) :
    addf
        (mulf (divf x1 (broadcastTo ⟨2, ![M, N]⟩
            (maximumf (sqrt (shapeCast ⟨2, ![M, 1]⟩ (multiReduction .add [1] ⟨1, ![M]⟩ (mulf x1 x1) 0x00000000#32 hred hφ hacc) hcast))
              (broadcast ⟨2, ![M, 1]⟩ (Scalar.ofBits (F := Ideal) .f32 0x2B8CBCCC#32))) hb))
          (broadcast ⟨2, ![M, N]⟩ (extractAt ![0, 0] u0 hpos)))
        (mulf (divf x2 (broadcastTo ⟨2, ![M, N]⟩
            (maximumf (sqrt (shapeCast ⟨2, ![M, 1]⟩ (multiReduction .add [1] ⟨1, ![M]⟩ (mulf x2 x2) 0x00000000#32 hred hφ hacc) hcast))
              (broadcast ⟨2, ![M, 1]⟩ (Scalar.ofBits (F := Ideal) .f32 0x2B8CBCCC#32))) hb))
          (broadcast ⟨2, ![M, N]⟩ (extractAt ![0, 0] u1 hpos)))
      = normMix x1 x2 (extractAt ![0, 0] u0 hpos) (extractAt ![0, 0] u1 hpos) := by
  funext j
  obtain ⟨p, q, rfl⟩ : ∃ (p : Fin M) (q : Fin N), j = ix2 p q := ⟨j 0, j 1, eq_ix2 j⟩
  rw [addf_apply, mulf_apply, mulf_apply, divf_apply, divf_apply, broadcast_apply, broadcast_apply,
    scaleTree_apply x1 hred hφ hacc hcast hb p q, scaleTree_apply x2 hred hφ hacc hcast hb p q]
  rfl

end Cert.GraphFusion

end
-- ==== Proof.SpecNormHost.lean ====
/-
  The normalised mix as the host writes it, on whole arrays.

  The host sums the squares of each row from zero, lays the sums out as a column, takes the square root, the maximum
  with the small constant broadcast as a scalar, and spreads the column along the rows before dividing; each weight is
  one entry of a length-2 vector, sliced out, cast to a scalar and broadcast to the whole array. Read at an index
  (p, q) every step names one entry, the sum from zero is the sum, and the result is the map of SpecNorm.lean with the
  two weights the vector's two entries.
-/
import proofs.«123922_j71399536328730_2_alg».proof.Proof.SpecNorm
import Idealize.ShloMosaic.Lib.IdealHost

noncomputable section

namespace Cert.GraphFusion

open Idealize.ShloMosaic Idealize.ShloMosaic.ValueIdx

/-- The host's scale array at (p, q) is the scale of row p. -/
theorem scaleHost_apply {M N : Nat} (h : FVec Ideal ⟨2, ![M, N]⟩ .f32)
    (hrt : (⟨2, ![M, N]⟩ : Shape).ReducesTo [1] ⟨1, ![M]⟩) (hred : (⟨2, ![M, N]⟩ : Shape).Reduces [1] ⟨1, ![M]⟩)
    (hu : 0 < (⟨0, ![]⟩ : Shape).numel)
    (hb1 : (⟨1, ![M]⟩ : Shape).BroadcastsInDim ⟨2, ![M, 1]⟩ ![0])
    (hb2 : (⟨2, ![M, 1]⟩ : Shape).BroadcastsInDim ⟨2, ![M, N]⟩ ![0, 1])
    (hb0 : (⟨0, ![]⟩ : Shape).BroadcastsInDim ⟨2, ![M, 1]⟩ ![]) (p : Fin M) (q : Fin N) :
    broadcastInDim ⟨2, ![M, N]⟩ ![0, 1] hb2
        (maximumf (Host.sqrt (broadcastInDim ⟨2, ![M, 1]⟩ ![0] hb1
            (Host.reduceAdd (mulf h h) (constant (F := Ideal) ⟨0, ![]⟩ .f32 0x00000000#32) hrt hu)))
          (broadcastInDim ⟨2, ![M, 1]⟩ ![] hb0 (constant (F := Ideal) ⟨0, ![]⟩ .f32 0x2B8CBCCC#32))) (ix2 p q)
      = rowScale h p := by
  rw [broadcastInDim_apply ![0, 1] hb2 _ (ix2 p q) (ix2 p (0 : Fin 1)) (fun ax => by
    match ax with
    | ⟨0, _⟩ =>
      show p.val = if M = 1 then 0 else p.val
      split
      · have := p.isLt; omega
      · rfl
    | ⟨1, _⟩ => rfl)]
  rw [maximumf_apply, broadcastInDim_scalar_apply hb0, constant_apply]
  show max (Ideal.sqrt (broadcastInDim ⟨2, ![M, 1]⟩ ![0] hb1
    (Host.reduceAdd (mulf h h) (constant (F := Ideal) ⟨0, ![]⟩ .f32 0x00000000#32) hrt hu) (ix2 p (0 : Fin 1)))) _ = _
  rw [broadcastInDim_apply ![0] hb1 _ (ix2 p (0 : Fin 1)) (ix1 p) (fun ax => by
    match ax with
    | ⟨0, _⟩ =>
      show p.val = if M = 1 then 0 else p.val
      split
      · have := p.isLt; omega
      · rfl)]
  rw [hostReduceAdd_apply, Ideal.hostReduceAdd_single hrt hred, constant_apply, Ideal.ofBits_zero_f32, zero_add]
  unfold rowScale
  refine congrArg (fun s => max (Ideal.sqrt s) _) (Finset.sum_congr rfl fun k _ => ?_)
  rw [LibRowLayout.lift_row hred p k]
  rfl

/-- Entry u of a length-2 vector, sliced out as a length-1 vector, cast to a scalar and broadcast to a whole array,
    read anywhere, is that entry. -/
theorem weightHost_apply {T : Shape} (w : FVec Ideal ⟨1, ![2]⟩ .f32) (u : Fin 2)
    (hs : (⟨1, ![2]⟩ : Shape).Slices ![u.val] ⟨1, ![1]⟩) (hc : (⟨1, ![1]⟩ : Shape).ShapeCasts ⟨0, ![]⟩)
    (hb : (⟨0, ![]⟩ : Shape).BroadcastsInDim T ![]) (j : T.Idx) :
    broadcastInDim T ![] hb (shapeCast ⟨0, ![]⟩ (extractStridedSlice ⟨1, ![1]⟩ ![u.val] w hs) hc) j = w (ix1 u) := by
  rw [broadcastInDim_scalar_apply hb]
  rw [shapeCast_apply _ hc ix0 (ix1 (0 : Fin 1)) (by
    rw [Shape.rowMajor_val_one]
    have h0 := ((⟨0, ![]⟩ : Shape).rowMajor ix0).isLt
    have h1 : (⟨0, ![]⟩ : Shape).numel = 1 := rfl
    show 0 = _
    omega)]
  exact extractStridedSlice_apply ![u.val] w hs (ix1 (0 : Fin 1)) (ix1 u) (fun a => by
    match a with
    | ⟨0, _⟩ => show u.val = u.val + 0; omega)

/-- The host's operation tree is the normalised mix with the vector's two entries as weights. -/
theorem normMix_host {M N : Nat} (h1 h2 : FVec Ideal ⟨2, ![M, N]⟩ .f32) (w : FVec Ideal ⟨1, ![2]⟩ .f32)
    (hrt : (⟨2, ![M, N]⟩ : Shape).ReducesTo [1] ⟨1, ![M]⟩) (hred : (⟨2, ![M, N]⟩ : Shape).Reduces [1] ⟨1, ![M]⟩)
    (hu : 0 < (⟨0, ![]⟩ : Shape).numel)
    (hb1 : (⟨1, ![M]⟩ : Shape).BroadcastsInDim ⟨2, ![M, 1]⟩ ![0])
    (hb2 : (⟨2, ![M, 1]⟩ : Shape).BroadcastsInDim ⟨2, ![M, N]⟩ ![0, 1])
    (hb0 : (⟨0, ![]⟩ : Shape).BroadcastsInDim ⟨2, ![M, 1]⟩ ![])
    (hs0 : (⟨1, ![2]⟩ : Shape).Slices ![0] ⟨1, ![1]⟩) (hs1 : (⟨1, ![2]⟩ : Shape).Slices ![1] ⟨1, ![1]⟩)
    (hc : (⟨1, ![1]⟩ : Shape).ShapeCasts ⟨0, ![]⟩) (hbw : (⟨0, ![]⟩ : Shape).BroadcastsInDim ⟨2, ![M, N]⟩ ![]) :
    addf
        (mulf (Host.divf h1 (broadcastInDim ⟨2, ![M, N]⟩ ![0, 1] hb2
            (maximumf (Host.sqrt (broadcastInDim ⟨2, ![M, 1]⟩ ![0] hb1
                (Host.reduceAdd (mulf h1 h1) (constant (F := Ideal) ⟨0, ![]⟩ .f32 0x00000000#32) hrt hu)))
              (broadcastInDim ⟨2, ![M, 1]⟩ ![] hb0 (constant (F := Ideal) ⟨0, ![]⟩ .f32 0x2B8CBCCC#32)))))
          (broadcastInDim ⟨2, ![M, N]⟩ ![] hbw (shapeCast ⟨0, ![]⟩ (extractStridedSlice ⟨1, ![1]⟩ ![0] w hs0) hc)))
        (mulf (Host.divf h2 (broadcastInDim ⟨2, ![M, N]⟩ ![0, 1] hb2
            (maximumf (Host.sqrt (broadcastInDim ⟨2, ![M, 1]⟩ ![0] hb1
                (Host.reduceAdd (mulf h2 h2) (constant (F := Ideal) ⟨0, ![]⟩ .f32 0x00000000#32) hrt hu)))
              (broadcastInDim ⟨2, ![M, 1]⟩ ![] hb0 (constant (F := Ideal) ⟨0, ![]⟩ .f32 0x2B8CBCCC#32)))))
          (broadcastInDim ⟨2, ![M, N]⟩ ![] hbw (shapeCast ⟨0, ![]⟩ (extractStridedSlice ⟨1, ![1]⟩ ![1] w hs1) hc)))
      = normMix h1 h2 (w (ix1 (0 : Fin 2))) (w (ix1 (1 : Fin 2))) := by
  funext j
  obtain ⟨p, q, rfl⟩ : ∃ (p : Fin M) (q : Fin N), j = ix2 p q := ⟨j 0, j 1, eq_ix2 j⟩
  have e0 : broadcastInDim ⟨2, ![M, N]⟩ ![] hbw (shapeCast ⟨0, ![]⟩ (extractStridedSlice ⟨1, ![1]⟩ ![0] w hs0) hc) (ix2 p q)
      = w (ix1 (0 : Fin 2)) := weightHost_apply w (0 : Fin 2) hs0 hc hbw (ix2 p q)
  have e1 : broadcastInDim ⟨2, ![M, N]⟩ ![] hbw (shapeCast ⟨0, ![]⟩ (extractStridedSlice ⟨1, ![1]⟩ ![1] w hs1) hc) (ix2 p q)
      = w (ix1 (1 : Fin 2)) := weightHost_apply w (1 : Fin 2) hs1 hc hbw (ix2 p q)
  rw [addf_apply, mulf_apply, mulf_apply, hostDivf_apply, hostDivf_apply,
    scaleHost_apply h1 hrt hred hu hb1 hb2 hb0 p q, scaleHost_apply h2 hrt hred hu hb1 hb2 hb0 p q, e0, e1]
  rfl

end Cert.GraphFusion

end
-- ==== Proof.KeepArgsB.lean ====
/-
  The argument arrays the second branch and the weights read, at the boundaries where they are read.

  No host operation and no launch writes an argument array, so at every boundary of the program it holds its launch
  contents; each lemma walks the boundaries back to the launch, one segment at a time.
-/
import proofs.«123922_j71399536328730_2_alg».proof.Proof.Gen.KernelIdeal.Frame
import proofs.«123922_j71399536328730_2_alg».proof.Proof.KeepTactic
import Idealize.ShloMosaic.PureOps.Ideal

set_option maxRecDepth 16384

noncomputable section

namespace Cert.KernelIdeal.Kept

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- Nothing before boundary 12 writes `main_arg6`: it is as launched. -/
theorem keep_main_arg6_12 (c : Dev nD) : W12 m ρ c (Proc.devRef .tc main_arg6) = m ((c : Thread nD τ).loc main_arg6) :=
  calc W12 m ρ c (Proc.devRef .tc main_arg6)
    _ = W11 m ρ c (Proc.devRef .tc main_arg6) := W12_of_ne m ρ c main_arg6 (by decide)
    _ = W10 m ρ c (Proc.devRef .tc main_arg6) := by keep_host hostOps4 main_arg6
    _ = W9 m ρ c (Proc.devRef .tc main_arg6) := W10_of_ne m ρ c main_arg6 (by decide)
    _ = W8 m ρ c (Proc.devRef .tc main_arg6) := by keep_host hostOps3 main_arg6
    _ = W7 m ρ c (Proc.devRef .tc main_arg6) := W8_of_ne m ρ c main_arg6 (by decide)
    _ = W6 m ρ c (Proc.devRef .tc main_arg6) := by keep_host hostOps2 main_arg6
    _ = W5 m ρ c (Proc.devRef .tc main_arg6) := W6_of_ne m ρ c main_arg6 (by decide)
    _ = W4 m ρ c (Proc.devRef .tc main_arg6) := by keep_host hostOps1 main_arg6
    _ = W3 m ρ c (Proc.devRef .tc main_arg6) := W4_of_ne m ρ c main_arg6 (by decide)
    _ = W2 m ρ c (Proc.devRef .tc main_arg6) := by keep_host hostOps0_2 main_arg6
    _ = W1 m ρ c (Proc.devRef .tc main_arg6) := by keep_host hostOps0_1 main_arg6
    _ = W0 m ρ c (Proc.devRef .tc main_arg6) := by keep_host hostOps0 main_arg6
    _ = m ((c : Thread nD τ).loc main_arg6) := rfl

/-- Nothing before boundary 12 writes `main_arg13`: it is as launched. -/
theorem keep_main_arg13_12 (c : Dev nD) : W12 m ρ c (Proc.devRef .tc main_arg13) = m ((c : Thread nD τ).loc main_arg13) :=
  calc W12 m ρ c (Proc.devRef .tc main_arg13)
    _ = W11 m ρ c (Proc.devRef .tc main_arg13) := W12_of_ne m ρ c main_arg13 (by decide)
    _ = W10 m ρ c (Proc.devRef .tc main_arg13) := by keep_host hostOps4 main_arg13
    _ = W9 m ρ c (Proc.devRef .tc main_arg13) := W10_of_ne m ρ c main_arg13 (by decide)
    _ = W8 m ρ c (Proc.devRef .tc main_arg13) := by keep_host hostOps3 main_arg13
    _ = W7 m ρ c (Proc.devRef .tc main_arg13) := W8_of_ne m ρ c main_arg13 (by decide)
    _ = W6 m ρ c (Proc.devRef .tc main_arg13) := by keep_host hostOps2 main_arg13
    _ = W5 m ρ c (Proc.devRef .tc main_arg13) := W6_of_ne m ρ c main_arg13 (by decide)
    _ = W4 m ρ c (Proc.devRef .tc main_arg13) := by keep_host hostOps1 main_arg13
    _ = W3 m ρ c (Proc.devRef .tc main_arg13) := W4_of_ne m ρ c main_arg13 (by decide)
    _ = W2 m ρ c (Proc.devRef .tc main_arg13) := by keep_host hostOps0_2 main_arg13
    _ = W1 m ρ c (Proc.devRef .tc main_arg13) := by keep_host hostOps0_1 main_arg13
    _ = W0 m ρ c (Proc.devRef .tc main_arg13) := by keep_host hostOps0 main_arg13
    _ = m ((c : Thread nD τ).loc main_arg13) := rfl

/-- Nothing before boundary 14 writes `main_arg9`: it is as launched. -/
theorem keep_main_arg9_14 (c : Dev nD) : W14 m ρ c (Proc.devRef .tc main_arg9) = m ((c : Thread nD τ).loc main_arg9) :=
  calc W14 m ρ c (Proc.devRef .tc main_arg9)
    _ = W13 m ρ c (Proc.devRef .tc main_arg9) := W14_of_ne m ρ c main_arg9 (by decide)
    _ = W12 m ρ c (Proc.devRef .tc main_arg9) := by keep_host hostOps5 main_arg9
    _ = W11 m ρ c (Proc.devRef .tc main_arg9) := W12_of_ne m ρ c main_arg9 (by decide)
    _ = W10 m ρ c (Proc.devRef .tc main_arg9) := by keep_host hostOps4 main_arg9
    _ = W9 m ρ c (Proc.devRef .tc main_arg9) := W10_of_ne m ρ c main_arg9 (by decide)
    _ = W8 m ρ c (Proc.devRef .tc main_arg9) := by keep_host hostOps3 main_arg9
    _ = W7 m ρ c (Proc.devRef .tc main_arg9) := W8_of_ne m ρ c main_arg9 (by decide)
    _ = W6 m ρ c (Proc.devRef .tc main_arg9) := by keep_host hostOps2 main_arg9
    _ = W5 m ρ c (Proc.devRef .tc main_arg9) := W6_of_ne m ρ c main_arg9 (by decide)
    _ = W4 m ρ c (Proc.devRef .tc main_arg9) := by keep_host hostOps1 main_arg9
    _ = W3 m ρ c (Proc.devRef .tc main_arg9) := W4_of_ne m ρ c main_arg9 (by decide)
    _ = W2 m ρ c (Proc.devRef .tc main_arg9) := by keep_host hostOps0_2 main_arg9
    _ = W1 m ρ c (Proc.devRef .tc main_arg9) := by keep_host hostOps0_1 main_arg9
    _ = W0 m ρ c (Proc.devRef .tc main_arg9) := by keep_host hostOps0 main_arg9
    _ = m ((c : Thread nD τ).loc main_arg9) := rfl

/-- Nothing before boundary 16 writes `main_arg10`: it is as launched. -/
theorem keep_main_arg10_16 (c : Dev nD) : W16 m ρ c (Proc.devRef .tc main_arg10) = m ((c : Thread nD τ).loc main_arg10) :=
  calc W16 m ρ c (Proc.devRef .tc main_arg10)
    _ = W15 m ρ c (Proc.devRef .tc main_arg10) := W16_of_ne m ρ c main_arg10 (by decide)
    _ = W14 m ρ c (Proc.devRef .tc main_arg10) := by keep_host hostOps6 main_arg10
    _ = W13 m ρ c (Proc.devRef .tc main_arg10) := W14_of_ne m ρ c main_arg10 (by decide)
    _ = W12 m ρ c (Proc.devRef .tc main_arg10) := by keep_host hostOps5 main_arg10
    _ = W11 m ρ c (Proc.devRef .tc main_arg10) := W12_of_ne m ρ c main_arg10 (by decide)
    _ = W10 m ρ c (Proc.devRef .tc main_arg10) := by keep_host hostOps4 main_arg10
    _ = W9 m ρ c (Proc.devRef .tc main_arg10) := W10_of_ne m ρ c main_arg10 (by decide)
    _ = W8 m ρ c (Proc.devRef .tc main_arg10) := by keep_host hostOps3 main_arg10
    _ = W7 m ρ c (Proc.devRef .tc main_arg10) := W8_of_ne m ρ c main_arg10 (by decide)
    _ = W6 m ρ c (Proc.devRef .tc main_arg10) := by keep_host hostOps2 main_arg10
    _ = W5 m ρ c (Proc.devRef .tc main_arg10) := W6_of_ne m ρ c main_arg10 (by decide)
    _ = W4 m ρ c (Proc.devRef .tc main_arg10) := by keep_host hostOps1 main_arg10
    _ = W3 m ρ c (Proc.devRef .tc main_arg10) := W4_of_ne m ρ c main_arg10 (by decide)
    _ = W2 m ρ c (Proc.devRef .tc main_arg10) := by keep_host hostOps0_2 main_arg10
    _ = W1 m ρ c (Proc.devRef .tc main_arg10) := by keep_host hostOps0_1 main_arg10
    _ = W0 m ρ c (Proc.devRef .tc main_arg10) := by keep_host hostOps0 main_arg10
    _ = m ((c : Thread nD τ).loc main_arg10) := rfl

/-- Nothing before boundary 16 writes `main_arg14`: it is as launched. -/
theorem keep_main_arg14_16 (c : Dev nD) : W16 m ρ c (Proc.devRef .tc main_arg14) = m ((c : Thread nD τ).loc main_arg14) :=
  calc W16 m ρ c (Proc.devRef .tc main_arg14)
    _ = W15 m ρ c (Proc.devRef .tc main_arg14) := W16_of_ne m ρ c main_arg14 (by decide)
    _ = W14 m ρ c (Proc.devRef .tc main_arg14) := by keep_host hostOps6 main_arg14
    _ = W13 m ρ c (Proc.devRef .tc main_arg14) := W14_of_ne m ρ c main_arg14 (by decide)
    _ = W12 m ρ c (Proc.devRef .tc main_arg14) := by keep_host hostOps5 main_arg14
    _ = W11 m ρ c (Proc.devRef .tc main_arg14) := W12_of_ne m ρ c main_arg14 (by decide)
    _ = W10 m ρ c (Proc.devRef .tc main_arg14) := by keep_host hostOps4 main_arg14
    _ = W9 m ρ c (Proc.devRef .tc main_arg14) := W10_of_ne m ρ c main_arg14 (by decide)
    _ = W8 m ρ c (Proc.devRef .tc main_arg14) := by keep_host hostOps3 main_arg14
    _ = W7 m ρ c (Proc.devRef .tc main_arg14) := W8_of_ne m ρ c main_arg14 (by decide)
    _ = W6 m ρ c (Proc.devRef .tc main_arg14) := by keep_host hostOps2 main_arg14
    _ = W5 m ρ c (Proc.devRef .tc main_arg14) := W6_of_ne m ρ c main_arg14 (by decide)
    _ = W4 m ρ c (Proc.devRef .tc main_arg14) := by keep_host hostOps1 main_arg14
    _ = W3 m ρ c (Proc.devRef .tc main_arg14) := W4_of_ne m ρ c main_arg14 (by decide)
    _ = W2 m ρ c (Proc.devRef .tc main_arg14) := by keep_host hostOps0_2 main_arg14
    _ = W1 m ρ c (Proc.devRef .tc main_arg14) := by keep_host hostOps0_1 main_arg14
    _ = W0 m ρ c (Proc.devRef .tc main_arg14) := by keep_host hostOps0 main_arg14
    _ = m ((c : Thread nD τ).loc main_arg14) := rfl

/-- Nothing before boundary 18 writes `main_arg15`: it is as launched. -/
theorem keep_main_arg15_18 (c : Dev nD) : W18 m ρ c (Proc.devRef .tc main_arg15) = m ((c : Thread nD τ).loc main_arg15) :=
  calc W18 m ρ c (Proc.devRef .tc main_arg15)
    _ = W17 m ρ c (Proc.devRef .tc main_arg15) := W18_of_ne m ρ c main_arg15 (by decide)
    _ = W16 m ρ c (Proc.devRef .tc main_arg15) := by keep_host hostOps7 main_arg15
    _ = W15 m ρ c (Proc.devRef .tc main_arg15) := W16_of_ne m ρ c main_arg15 (by decide)
    _ = W14 m ρ c (Proc.devRef .tc main_arg15) := by keep_host hostOps6 main_arg15
    _ = W13 m ρ c (Proc.devRef .tc main_arg15) := W14_of_ne m ρ c main_arg15 (by decide)
    _ = W12 m ρ c (Proc.devRef .tc main_arg15) := by keep_host hostOps5 main_arg15
    _ = W11 m ρ c (Proc.devRef .tc main_arg15) := W12_of_ne m ρ c main_arg15 (by decide)
    _ = W10 m ρ c (Proc.devRef .tc main_arg15) := by keep_host hostOps4 main_arg15
    _ = W9 m ρ c (Proc.devRef .tc main_arg15) := W10_of_ne m ρ c main_arg15 (by decide)
    _ = W8 m ρ c (Proc.devRef .tc main_arg15) := by keep_host hostOps3 main_arg15
    _ = W7 m ρ c (Proc.devRef .tc main_arg15) := W8_of_ne m ρ c main_arg15 (by decide)
    _ = W6 m ρ c (Proc.devRef .tc main_arg15) := by keep_host hostOps2 main_arg15
    _ = W5 m ρ c (Proc.devRef .tc main_arg15) := W6_of_ne m ρ c main_arg15 (by decide)
    _ = W4 m ρ c (Proc.devRef .tc main_arg15) := by keep_host hostOps1 main_arg15
    _ = W3 m ρ c (Proc.devRef .tc main_arg15) := W4_of_ne m ρ c main_arg15 (by decide)
    _ = W2 m ρ c (Proc.devRef .tc main_arg15) := by keep_host hostOps0_2 main_arg15
    _ = W1 m ρ c (Proc.devRef .tc main_arg15) := by keep_host hostOps0_1 main_arg15
    _ = W0 m ρ c (Proc.devRef .tc main_arg15) := by keep_host hostOps0 main_arg15
    _ = m ((c : Thread nD τ).loc main_arg15) := rfl

end Cert.KernelIdeal.Kept

end
-- ==== Proof.KeepTables.lean ====
/-
  The edge tables and the two branch results across the boundaries between their writer and their readers.

  The source and target node of every edge (with the self-loops appended) and the edge weights are computed once,
  before the first launch, and read again by each of the four aggregations; each branch's result is written once and
  read by the last launch. Nothing in between writes them.
-/
import proofs.«123922_j71399536328730_2_alg».proof.Proof.Gen.KernelIdeal.Frame
import proofs.«123922_j71399536328730_2_alg».proof.Proof.KeepTactic
import Idealize.ShloMosaic.PureOps.Ideal

set_option maxRecDepth 16384

noncomputable section

namespace Cert.KernelIdeal.Kept

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- `main_v3` is written before the first launch and by nothing after. -/
theorem keep_main_v3_4_3 (c : Dev nD) : W4 m ρ c (Proc.devRef .tc main_v3) = W3 m ρ c (Proc.devRef .tc main_v3) :=
  calc W4 m ρ c (Proc.devRef .tc main_v3)
    _ = W3 m ρ c (Proc.devRef .tc main_v3) := W4_of_ne m ρ c main_v3 (by decide)

theorem keep_main_v3_8_4 (c : Dev nD) : W8 m ρ c (Proc.devRef .tc main_v3) = W4 m ρ c (Proc.devRef .tc main_v3) :=
  calc W8 m ρ c (Proc.devRef .tc main_v3)
    _ = W7 m ρ c (Proc.devRef .tc main_v3) := W8_of_ne m ρ c main_v3 (by decide)
    _ = W6 m ρ c (Proc.devRef .tc main_v3) := by keep_host hostOps2 main_v3
    _ = W5 m ρ c (Proc.devRef .tc main_v3) := W6_of_ne m ρ c main_v3 (by decide)
    _ = W4 m ρ c (Proc.devRef .tc main_v3) := by keep_host hostOps1 main_v3

theorem keep_main_v3_12_8 (c : Dev nD) : W12 m ρ c (Proc.devRef .tc main_v3) = W8 m ρ c (Proc.devRef .tc main_v3) :=
  calc W12 m ρ c (Proc.devRef .tc main_v3)
    _ = W11 m ρ c (Proc.devRef .tc main_v3) := W12_of_ne m ρ c main_v3 (by decide)
    _ = W10 m ρ c (Proc.devRef .tc main_v3) := by keep_host hostOps4 main_v3
    _ = W9 m ρ c (Proc.devRef .tc main_v3) := W10_of_ne m ρ c main_v3 (by decide)
    _ = W8 m ρ c (Proc.devRef .tc main_v3) := by keep_host hostOps3 main_v3

theorem keep_main_v3_16_12 (c : Dev nD) : W16 m ρ c (Proc.devRef .tc main_v3) = W12 m ρ c (Proc.devRef .tc main_v3) :=
  calc W16 m ρ c (Proc.devRef .tc main_v3)
    _ = W15 m ρ c (Proc.devRef .tc main_v3) := W16_of_ne m ρ c main_v3 (by decide)
    _ = W14 m ρ c (Proc.devRef .tc main_v3) := by keep_host hostOps6 main_v3
    _ = W13 m ρ c (Proc.devRef .tc main_v3) := W14_of_ne m ρ c main_v3 (by decide)
    _ = W12 m ρ c (Proc.devRef .tc main_v3) := by keep_host hostOps5 main_v3

/-- `main_v6` is written before the first launch and by nothing after. -/
theorem keep_main_v6_4_3 (c : Dev nD) : W4 m ρ c (Proc.devRef .tc main_v6) = W3 m ρ c (Proc.devRef .tc main_v6) :=
  calc W4 m ρ c (Proc.devRef .tc main_v6)
    _ = W3 m ρ c (Proc.devRef .tc main_v6) := W4_of_ne m ρ c main_v6 (by decide)

theorem keep_main_v6_8_4 (c : Dev nD) : W8 m ρ c (Proc.devRef .tc main_v6) = W4 m ρ c (Proc.devRef .tc main_v6) :=
  calc W8 m ρ c (Proc.devRef .tc main_v6)
    _ = W7 m ρ c (Proc.devRef .tc main_v6) := W8_of_ne m ρ c main_v6 (by decide)
    _ = W6 m ρ c (Proc.devRef .tc main_v6) := by keep_host hostOps2 main_v6
    _ = W5 m ρ c (Proc.devRef .tc main_v6) := W6_of_ne m ρ c main_v6 (by decide)
    _ = W4 m ρ c (Proc.devRef .tc main_v6) := by keep_host hostOps1 main_v6

theorem keep_main_v6_12_8 (c : Dev nD) : W12 m ρ c (Proc.devRef .tc main_v6) = W8 m ρ c (Proc.devRef .tc main_v6) :=
  calc W12 m ρ c (Proc.devRef .tc main_v6)
    _ = W11 m ρ c (Proc.devRef .tc main_v6) := W12_of_ne m ρ c main_v6 (by decide)
    _ = W10 m ρ c (Proc.devRef .tc main_v6) := by keep_host hostOps4 main_v6
    _ = W9 m ρ c (Proc.devRef .tc main_v6) := W10_of_ne m ρ c main_v6 (by decide)
    _ = W8 m ρ c (Proc.devRef .tc main_v6) := by keep_host hostOps3 main_v6

theorem keep_main_v6_16_12 (c : Dev nD) : W16 m ρ c (Proc.devRef .tc main_v6) = W12 m ρ c (Proc.devRef .tc main_v6) :=
  calc W16 m ρ c (Proc.devRef .tc main_v6)
    _ = W15 m ρ c (Proc.devRef .tc main_v6) := W16_of_ne m ρ c main_v6 (by decide)
    _ = W14 m ρ c (Proc.devRef .tc main_v6) := by keep_host hostOps6 main_v6
    _ = W13 m ρ c (Proc.devRef .tc main_v6) := W14_of_ne m ρ c main_v6 (by decide)
    _ = W12 m ρ c (Proc.devRef .tc main_v6) := by keep_host hostOps5 main_v6

/-- `main_v30` is written before the first launch and by nothing after. -/
theorem keep_main_v30_4_3 (c : Dev nD) : W4 m ρ c (Proc.devRef .tc main_v30) = W3 m ρ c (Proc.devRef .tc main_v30) :=
  calc W4 m ρ c (Proc.devRef .tc main_v30)
    _ = W3 m ρ c (Proc.devRef .tc main_v30) := W4_of_ne m ρ c main_v30 (by decide)

theorem keep_main_v30_8_4 (c : Dev nD) : W8 m ρ c (Proc.devRef .tc main_v30) = W4 m ρ c (Proc.devRef .tc main_v30) :=
  calc W8 m ρ c (Proc.devRef .tc main_v30)
    _ = W7 m ρ c (Proc.devRef .tc main_v30) := W8_of_ne m ρ c main_v30 (by decide)
    _ = W6 m ρ c (Proc.devRef .tc main_v30) := by keep_host hostOps2 main_v30
    _ = W5 m ρ c (Proc.devRef .tc main_v30) := W6_of_ne m ρ c main_v30 (by decide)
    _ = W4 m ρ c (Proc.devRef .tc main_v30) := by keep_host hostOps1 main_v30

theorem keep_main_v30_12_8 (c : Dev nD) : W12 m ρ c (Proc.devRef .tc main_v30) = W8 m ρ c (Proc.devRef .tc main_v30) :=
  calc W12 m ρ c (Proc.devRef .tc main_v30)
    _ = W11 m ρ c (Proc.devRef .tc main_v30) := W12_of_ne m ρ c main_v30 (by decide)
    _ = W10 m ρ c (Proc.devRef .tc main_v30) := by keep_host hostOps4 main_v30
    _ = W9 m ρ c (Proc.devRef .tc main_v30) := W10_of_ne m ρ c main_v30 (by decide)
    _ = W8 m ρ c (Proc.devRef .tc main_v30) := by keep_host hostOps3 main_v30

theorem keep_main_v30_16_12 (c : Dev nD) : W16 m ρ c (Proc.devRef .tc main_v30) = W12 m ρ c (Proc.devRef .tc main_v30) :=
  calc W16 m ρ c (Proc.devRef .tc main_v30)
    _ = W15 m ρ c (Proc.devRef .tc main_v30) := W16_of_ne m ρ c main_v30 (by decide)
    _ = W14 m ρ c (Proc.devRef .tc main_v30) := by keep_host hostOps6 main_v30
    _ = W13 m ρ c (Proc.devRef .tc main_v30) := W14_of_ne m ρ c main_v30 (by decide)
    _ = W12 m ρ c (Proc.devRef .tc main_v30) := by keep_host hostOps5 main_v30

/-- The first branch's result `main_v66`, written by launch 3, is untouched until launch 8 reads it. -/
theorem keep_main_v66_19_10 (c : Dev nD) : W19 m ρ c (Proc.devRef .tc main_v66) = W10 m ρ c (Proc.devRef .tc main_v66) :=
  calc W19 m ρ c (Proc.devRef .tc main_v66)
    _ = W18 m ρ c (Proc.devRef .tc main_v66) := by keep_host hostOps8 main_v66
    _ = W17 m ρ c (Proc.devRef .tc main_v66) := W18_of_ne m ρ c main_v66 (by decide)
    _ = W16 m ρ c (Proc.devRef .tc main_v66) := by keep_host hostOps7 main_v66
    _ = W15 m ρ c (Proc.devRef .tc main_v66) := W16_of_ne m ρ c main_v66 (by decide)
    _ = W14 m ρ c (Proc.devRef .tc main_v66) := by keep_host hostOps6 main_v66
    _ = W13 m ρ c (Proc.devRef .tc main_v66) := W14_of_ne m ρ c main_v66 (by decide)
    _ = W12 m ρ c (Proc.devRef .tc main_v66) := by keep_host hostOps5 main_v66
    _ = W11 m ρ c (Proc.devRef .tc main_v66) := W12_of_ne m ρ c main_v66 (by decide)
    _ = W10 m ρ c (Proc.devRef .tc main_v66) := by keep_host hostOps4 main_v66

/-- The second branch's result `main_v102`, written by launch 7, is untouched by the last stretch. -/
theorem keep_main_v102_19_18 (c : Dev nD) : W19 m ρ c (Proc.devRef .tc main_v102) = W18 m ρ c (Proc.devRef .tc main_v102) :=
  calc W19 m ρ c (Proc.devRef .tc main_v102)
    _ = W18 m ρ c (Proc.devRef .tc main_v102) := by keep_host hostOps8 main_v102

end Cert.KernelIdeal.Kept

end
-- ==== Proof.NormFuse8.lean ====
/-
  Launch 8: normalise both branches by their rows' norms and mix them, ten row blocks at a time.

  Both inputs [50000, 128] are cut into ten blocks of 5000 rows; grid point t divides each row of the two blocks by
  the larger of its Euclidean norm and a small constant, multiplies the first by weight w(0, 0) and the second by
  w(0, 1) — each read out of the [1, 2] weight array as a unit block — adds, and writes the block to the same rows of
  the output. A row's norm depends on that row only, so block t of the result is the result of block t; the ten
  blocks tile the output, and after the launch the output array is the normalised mix of the whole arrays.
-/
import proofs.«123922_j71399536328730_2_alg».proof.Proof.Gen.KernelIdeal.Frame
import proofs.«123922_j71399536328730_2_alg».proof.Proof.SpecNorm

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Cert.GraphFusion
open Idealize.ShloMosaic.Pipeline (Dat)

variable (V : (c : Dev nD) → (b : Ref sig .tc) → Buf (Elt Ideal) ((c : Thread nD τ).loc b))

theorem nf_zeros : (![0, 0] : Fin 2 → Nat) = fun _ => 0 := funext fun a => by fin_cases a <;> rfl

/-- The body's arithmetic is the normalised mix of its two loaded blocks, with the weights its two unit loads hold. -/
theorem nf_payload (x0 x1 : Vec Ideal S5000x128 .f32) (u0 u1 : Vec Ideal S1x1 .f32) :
    k8_pay1 (F := Ideal) x0 x1 u0 u1
      = normMix x0 x1 (extractAt ![0, 0] u0 inpos_S1x1_p0_0) (extractAt ![0, 0] u1 inpos_S1x1_p0_0) := by
  unfold k8_pay1
  simp only [shapeCast_self]
  exact normMix_tree x0 x1 u0 u1 reduces_S5000x128_S5000 (.inl rfl) rfl shapeCasts_S5000_S5000x1
    broadcasts_S5000x1_S5000x128 inpos_S1x1_p0_0

/-- The unit block loaded at offset (0, 0) of the weight array holds its entry (0, 0). -/
theorem nf_weight0 (x2 : Vec Ideal S1x2 .f32) :
    extractAt ![0, 0] (View.ld (Val := Elt Ideal) (e' := .f32) x2 r8_1) inpos_S1x1_p0_0 = x2 (ix2 (0 : Fin 1) (0 : Fin 2)) :=
  congrArg x2 (funext fun a => Fin.ext (by match a with | ⟨0, _⟩ => rfl | ⟨1, _⟩ => rfl))

/-- The unit block loaded at offset (0, 1) holds its entry (0, 1). -/
theorem nf_weight1 (x2 : Vec Ideal S1x2 .f32) :
    extractAt ![0, 0] (View.ld (Val := Elt Ideal) (e' := .f32) x2 r8_2) inpos_S1x1_p0_0 = x2 (ix2 (0 : Fin 1) (1 : Fin 2)) :=
  congrArg x2 (funext fun a => Fin.ext (by match a with | ⟨0, _⟩ => rfl | ⟨1, _⟩ => rfl))

/-- The index maps over the grid: both inputs and the output move down one block of rows per point, the weights stay. -/
theorem nf_index : ∀ t : Fin cfg8.N, t.val < 10
    ∧ win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0 :=
  (by decide +kernel : ∀ t : Fin grid8.N, _)

/-- What point t writes back is block t of the normalised mix of the arrays as the launch finds them. -/
theorem nf_flushed (c : Dev nD) (t : Fin cfg8.N) :
    (dat8 V c).flushed 3 t
      = ((cfg8.win 3).blk t).view.read (Elt Ideal)
          (normMix (V c main_v66) (V c main_v102) (V c main_v113 (ix2 (0 : Fin 1) (0 : Fin 2)))
            (V c main_v113 (ix2 (0 : Fin 1) (1 : Fin 2)))) := by
  show (cfg8.win 3).cut (grid8.coords t) ((dat8 V c).after 3 t) = _
  rw [after8_3]
  unfold out8_3
  rw [View.canon_unit_zero nf_zeros]
  simp only [View.ld_unit_zero (S := S5000x128) nf_zeros]
  obtain ⟨ht, e0, e1, e2, e3, e4, e5, e6, e7⟩ := nf_index t
  funext j
  obtain ⟨p, q, rfl⟩ : ∃ (p : Fin 5000) (q : Fin 128), j = ix2 p q := ⟨j 0, j 1, eq_ix2 j⟩
  have hp : p.val < 5000 := p.isLt
  show k8_pay1 (iblk8 V c 0 t) (iblk8 V c 1 t) (View.ld (iblk8 V c 2 t) r8_1) (View.ld (iblk8 V c 2 t) r8_2) (ix2 p q)
    = normMix (V c main_v66) (V c main_v102) (V c main_v113 (ix2 (0 : Fin 1) (0 : Fin 2)))
        (V c main_v113 (ix2 (0 : Fin 1) (1 : Fin 2))) (((cfg8.win 3).blk t).view.emb (ix2 p q))
  refine (congrFun (nf_payload (iblk8 V c 0 t) (iblk8 V c 1 t) (View.ld (iblk8 V c 2 t) r8_1)
    (View.ld (iblk8 V c 2 t) r8_2)) (ix2 p q)).trans ?_
  have hw : iblk8 V c 2 t = V c main_v113 := by
    funext y
    show V c main_v113 (((cfg8.win 2).blk t).view.emb y) = V c main_v113 y
    refine congrArg _ (funext fun a => Fin.ext ?_)
    match a with
    | ⟨0, _⟩ => show win8_2.index t (0 : Fin 2) * 1 + 1 * (y 0).val = (y 0).val; omega
    | ⟨1, _⟩ => show win8_2.index t (1 : Fin 2) * 2 + 1 * (y 1).val = (y 1).val; omega
  have hW0 : extractAt ![0, 0] (View.ld (iblk8 V c 2 t) r8_1) inpos_S1x1_p0_0 = V c main_v113 (ix2 (0 : Fin 1) (0 : Fin 2)) :=
    (nf_weight0 (iblk8 V c 2 t)).trans (congrFun hw _)
  have hW1 : extractAt ![0, 0] (View.ld (iblk8 V c 2 t) r8_2) inpos_S1x1_p0_0 = V c main_v113 (ix2 (0 : Fin 1) (1 : Fin 2)) :=
    (nf_weight1 (iblk8 V c 2 t)).trans (congrFun hw _)
  refine (congrArg₂ (fun a b : EReal => normMix (iblk8 V c 0 t) (iblk8 V c 1 t) a b (ix2 p q)) hW0 hW1).trans ?_
  have hrow : ((cfg8.win 3).blk t).view.emb (ix2 p q) = ix2 (⟨t.val * 5000 + p.val, by omega⟩ : Fin 50000) q := by
    funext a; apply Fin.ext
    match a with
    | ⟨0, _⟩ => show win8_3.index t (0 : Fin 2) * 5000 + 1 * p.val = t.val * 5000 + p.val; omega
    | ⟨1, _⟩ => show win8_3.index t (1 : Fin 2) * 128 + 1 * q.val = q.val; omega
  rw [hrow]
  refine normMix_rows (V c main_v66) (V c main_v102) (iblk8 V c 0 t) (iblk8 V c 1 t) _ _ p _ q (fun k => ?_) (fun k => ?_)
  · show V c main_v66 (((cfg8.win 0).blk t).view.emb (ix2 p k)) = V c main_v66 (ix2 (⟨t.val * 5000 + p.val, by omega⟩ : Fin 50000) k)
    refine congrArg _ (funext fun a => Fin.ext ?_)
    match a with
    | ⟨0, _⟩ => show win8_0.index t (0 : Fin 2) * 5000 + 1 * p.val = t.val * 5000 + p.val; omega
    | ⟨1, _⟩ => show win8_0.index t (1 : Fin 2) * 128 + 1 * k.val = k.val; omega
  · show V c main_v102 (((cfg8.win 1).blk t).view.emb (ix2 p k)) = V c main_v102 (ix2 (⟨t.val * 5000 + p.val, by omega⟩ : Fin 50000) k)
    refine congrArg _ (funext fun a => Fin.ext ?_)
    match a with
    | ⟨0, _⟩ => show win8_1.index t (0 : Fin 2) * 5000 + 1 * p.val = t.val * 5000 + p.val; omega
    | ⟨1, _⟩ => show win8_1.index t (1 : Fin 2) * 128 + 1 * k.val = k.val; omega

/-- An index of the output is in point t's block iff each coordinate is in the block's range on its axis. -/
theorem nf_mem (t : Fin cfg8.N) (i : S50000x128.Idx) :
    i ∈ ((cfg8.win 3).blk t).view.set ↔ ∀ a : Fin 2, win8_3.index t a * S5000x128.size a ≤ (i a).val
      ∧ (i a).val < win8_3.index t a * S5000x128.size a + S5000x128.size a := by
  show i ∈ ((View.whole main_v114).slice (win8_3.rect t)).set ↔ _
  rw [View.set_slice_whole, Rect.mem_set_unit]
  exact Iff.rfl

/-- Every block of rows is some point's. -/
theorem nf_onto : ∀ r : Fin 10, ∃ t : Fin cfg8.N, win8_3.index t = ![r.val, 0] :=
  (by decide +kernel : ∀ r : Fin 10, ∃ t : Fin grid8.N, win8_3.index t = ![r.val, 0])

/-- Row r of the output lies in the block of point r / 5000: the ten blocks cover the output. -/
theorem nf_cover (i : S50000x128.Idx) :
    ∃ t : Fin cfg8.N, (cfg8.win 3).flush t = true ∧ i ∈ ((cfg8.win 3).blk t).view.set := by
  have hi0 : (i 0).val < 50000 := (i 0).isLt
  have hi1 : (i 1).val < 128 := (i 1).isLt
  obtain ⟨t, ht⟩ := nf_onto ⟨(i 0).val / 5000, by omega⟩
  have q0 : win8_3.index t (0 : Fin 2) = (i 0).val / 5000 := congrFun ht 0
  have q1 : win8_3.index t (1 : Fin 2) = 0 := congrFun ht 1
  refine ⟨t, flush8_3 t, ?_⟩
  rw [nf_mem]
  intro a
  match a with
  | ⟨0, _⟩ =>
    show win8_3.index t (0 : Fin 2) * 5000 ≤ (i 0).val ∧ (i 0).val < win8_3.index t (0 : Fin 2) * 5000 + 5000
    omega
  | ⟨1, _⟩ =>
    show win8_3.index t (1 : Fin 2) * 128 ≤ (i 1).val ∧ (i 1).val < win8_3.index t (1 : Fin 2) * 128 + 128
    omega

/-- After the launch the output array is the normalised mix of the arrays as the launch found them. -/
theorem nf_final (c : Dev nD) :
    (dat8 V c).arrAt 3 cfg8.N
      = normMix (V c main_v66) (V c main_v102) (V c main_v113 (ix2 (0 : Fin 1) (0 : Fin 2)))
          (V c main_v113 (ix2 (0 : Fin 1) (1 : Fin 2))) :=
  (dat8 V c).arrAt_eq_of_cover 3 _ (fun t _ => nf_flushed V c t) (nf_cover)

end Cert.KernelIdeal.Blocks

end
-- ==== Proof.KeepArgsA.lean ====
/-
  The argument arrays the first branch reads, at the boundaries where a stretch of host operations reads them.

  No host operation and no launch writes an argument array, so at every boundary of the program it holds its launch
  contents; each lemma walks the boundaries back to the launch, one segment at a time.
-/
import proofs.«123922_j71399536328730_2_alg».proof.Proof.Gen.KernelIdeal.Frame
import proofs.«123922_j71399536328730_2_alg».proof.Proof.KeepTactic
import Idealize.ShloMosaic.PureOps.Ideal

set_option maxRecDepth 16384

noncomputable section

namespace Cert.KernelIdeal.Kept

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- Nothing before boundary 2 writes `main_arg0`: it is as launched. -/
theorem keep_main_arg0_2 (c : Dev nD) : W2 m ρ c (Proc.devRef .tc main_arg0) = m ((c : Thread nD τ).loc main_arg0) :=
  calc W2 m ρ c (Proc.devRef .tc main_arg0)
    _ = W1 m ρ c (Proc.devRef .tc main_arg0) := by keep_host hostOps0_1 main_arg0
    _ = W0 m ρ c (Proc.devRef .tc main_arg0) := by keep_host hostOps0 main_arg0
    _ = m ((c : Thread nD τ).loc main_arg0) := rfl

/-- Nothing before boundary 2 writes `main_arg3`: it is as launched. -/
theorem keep_main_arg3_2 (c : Dev nD) : W2 m ρ c (Proc.devRef .tc main_arg3) = m ((c : Thread nD τ).loc main_arg3) :=
  calc W2 m ρ c (Proc.devRef .tc main_arg3)
    _ = W1 m ρ c (Proc.devRef .tc main_arg3) := by keep_host hostOps0_1 main_arg3
    _ = W0 m ρ c (Proc.devRef .tc main_arg3) := by keep_host hostOps0 main_arg3
    _ = m ((c : Thread nD τ).loc main_arg3) := rfl

/-- Nothing before boundary 4 writes `main_arg4`: it is as launched. -/
theorem keep_main_arg4_4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := by keep_host hostOps0_2 main_arg4
    _ = W1 m ρ c (Proc.devRef .tc main_arg4) := by keep_host hostOps0_1 main_arg4
    _ = W0 m ρ c (Proc.devRef .tc main_arg4) := by keep_host hostOps0 main_arg4
    _ = m ((c : Thread nD τ).loc main_arg4) := rfl

/-- Nothing before boundary 4 writes `main_arg11`: it is as launched. -/
theorem keep_main_arg11_4 (c : Dev nD) : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := by keep_host hostOps0_2 main_arg11
    _ = W1 m ρ c (Proc.devRef .tc main_arg11) := by keep_host hostOps0_1 main_arg11
    _ = W0 m ρ c (Proc.devRef .tc main_arg11) := by keep_host hostOps0 main_arg11
    _ = m ((c : Thread nD τ).loc main_arg11) := rfl

/-- Nothing before boundary 6 writes `main_arg7`: it is as launched. -/
theorem keep_main_arg7_6 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := by keep_host hostOps1 main_arg7
    _ = W3 m ρ c (Proc.devRef .tc main_arg7) := W4_of_ne m ρ c main_arg7 (by decide)
    _ = W2 m ρ c (Proc.devRef .tc main_arg7) := by keep_host hostOps0_2 main_arg7
    _ = W1 m ρ c (Proc.devRef .tc main_arg7) := by keep_host hostOps0_1 main_arg7
    _ = W0 m ρ c (Proc.devRef .tc main_arg7) := by keep_host hostOps0 main_arg7
    _ = m ((c : Thread nD τ).loc main_arg7) := rfl

/-- Nothing before boundary 8 writes `main_arg8`: it is as launched. -/
theorem keep_main_arg8_8 (c : Dev nD) : W8 m ρ c (Proc.devRef .tc main_arg8) = m ((c : Thread nD τ).loc main_arg8) :=
  calc W8 m ρ c (Proc.devRef .tc main_arg8)
    _ = W7 m ρ c (Proc.devRef .tc main_arg8) := W8_of_ne m ρ c main_arg8 (by decide)
    _ = W6 m ρ c (Proc.devRef .tc main_arg8) := by keep_host hostOps2 main_arg8
    _ = W5 m ρ c (Proc.devRef .tc main_arg8) := W6_of_ne m ρ c main_arg8 (by decide)
    _ = W4 m ρ c (Proc.devRef .tc main_arg8) := by keep_host hostOps1 main_arg8
    _ = W3 m ρ c (Proc.devRef .tc main_arg8) := W4_of_ne m ρ c main_arg8 (by decide)
    _ = W2 m ρ c (Proc.devRef .tc main_arg8) := by keep_host hostOps0_2 main_arg8
    _ = W1 m ρ c (Proc.devRef .tc main_arg8) := by keep_host hostOps0_1 main_arg8
    _ = W0 m ρ c (Proc.devRef .tc main_arg8) := by keep_host hostOps0 main_arg8
    _ = m ((c : Thread nD τ).loc main_arg8) := rfl

/-- Nothing before boundary 8 writes `main_arg12`: it is as launched. -/
theorem keep_main_arg12_8 (c : Dev nD) : W8 m ρ c (Proc.devRef .tc main_arg12) = m ((c : Thread nD τ).loc main_arg12) :=
  calc W8 m ρ c (Proc.devRef .tc main_arg12)
    _ = W7 m ρ c (Proc.devRef .tc main_arg12) := W8_of_ne m ρ c main_arg12 (by decide)
    _ = W6 m ρ c (Proc.devRef .tc main_arg12) := by keep_host hostOps2 main_arg12
    _ = W5 m ρ c (Proc.devRef .tc main_arg12) := W6_of_ne m ρ c main_arg12 (by decide)
    _ = W4 m ρ c (Proc.devRef .tc main_arg12) := by keep_host hostOps1 main_arg12
    _ = W3 m ρ c (Proc.devRef .tc main_arg12) := W4_of_ne m ρ c main_arg12 (by decide)
    _ = W2 m ρ c (Proc.devRef .tc main_arg12) := by keep_host hostOps0_2 main_arg12
    _ = W1 m ρ c (Proc.devRef .tc main_arg12) := by keep_host hostOps0_1 main_arg12
    _ = W0 m ρ c (Proc.devRef .tc main_arg12) := by keep_host hostOps0 main_arg12
    _ = m ((c : Thread nD τ).loc main_arg12) := rfl

/-- Nothing before boundary 10 writes `main_arg1`: it is as launched. -/
theorem keep_main_arg1_10 (c : Dev nD) : W10 m ρ c (Proc.devRef .tc main_arg1) = m ((c : Thread nD τ).loc main_arg1) :=
  calc W10 m ρ c (Proc.devRef .tc main_arg1)
    _ = W9 m ρ c (Proc.devRef .tc main_arg1) := W10_of_ne m ρ c main_arg1 (by decide)
    _ = W8 m ρ c (Proc.devRef .tc main_arg1) := by keep_host hostOps3 main_arg1
    _ = W7 m ρ c (Proc.devRef .tc main_arg1) := W8_of_ne m ρ c main_arg1 (by decide)
    _ = W6 m ρ c (Proc.devRef .tc main_arg1) := by keep_host hostOps2 main_arg1
    _ = W5 m ρ c (Proc.devRef .tc main_arg1) := W6_of_ne m ρ c main_arg1 (by decide)
    _ = W4 m ρ c (Proc.devRef .tc main_arg1) := by keep_host hostOps1 main_arg1
    _ = W3 m ρ c (Proc.devRef .tc main_arg1) := W4_of_ne m ρ c main_arg1 (by decide)
    _ = W2 m ρ c (Proc.devRef .tc main_arg1) := by keep_host hostOps0_2 main_arg1
    _ = W1 m ρ c (Proc.devRef .tc main_arg1) := by keep_host hostOps0_1 main_arg1
    _ = W0 m ρ c (Proc.devRef .tc main_arg1) := by keep_host hostOps0 main_arg1
    _ = m ((c : Thread nD τ).loc main_arg1) := rfl

/-- Nothing before boundary 10 writes `main_arg5`: it is as launched. -/
theorem keep_main_arg5_10 (c : Dev nD) : W10 m ρ c (Proc.devRef .tc main_arg5) = m ((c : Thread nD τ).loc main_arg5) :=
  calc W10 m ρ c (Proc.devRef .tc main_arg5)
    _ = W9 m ρ c (Proc.devRef .tc main_arg5) := W10_of_ne m ρ c main_arg5 (by decide)
    _ = W8 m ρ c (Proc.devRef .tc main_arg5) := by keep_host hostOps3 main_arg5
    _ = W7 m ρ c (Proc.devRef .tc main_arg5) := W8_of_ne m ρ c main_arg5 (by decide)
    _ = W6 m ρ c (Proc.devRef .tc main_arg5) := by keep_host hostOps2 main_arg5
    _ = W5 m ρ c (Proc.devRef .tc main_arg5) := W6_of_ne m ρ c main_arg5 (by decide)
    _ = W4 m ρ c (Proc.devRef .tc main_arg5) := by keep_host hostOps1 main_arg5
    _ = W3 m ρ c (Proc.devRef .tc main_arg5) := W4_of_ne m ρ c main_arg5 (by decide)
    _ = W2 m ρ c (Proc.devRef .tc main_arg5) := by keep_host hostOps0_2 main_arg5
    _ = W1 m ρ c (Proc.devRef .tc main_arg5) := by keep_host hostOps0_1 main_arg5
    _ = W0 m ρ c (Proc.devRef .tc main_arg5) := by keep_host hostOps0 main_arg5
    _ = m ((c : Thread nD τ).loc main_arg5) := rfl

end Cert.KernelIdeal.Kept

end
-- ==== Proof.Proj2.lean ====
/-
  Launch 2: a matrix product computed ten row blocks at a time.

  The left operand [50000, 128] is cut into ten blocks of 5000 rows; grid point t multiplies block t by the whole
  right operand [128, 128], accumulating from zero, and writes the 5000 x 128 result to rows 5000 t … 5000 t + 4999 of
  the output. Entry (p, q) of the product of block t is entry (5000 t + p, q) of the product of the whole arrays,
  because a row of a product depends only on that row of the left operand. The ten blocks tile the output, so
  after the launch the output array is the product of the two arrays as the launch found them.
-/
import proofs.«123922_j71399536328730_2_alg».proof.Proof.Gen.KernelIdeal.Frame
import proofs.«123922_j71399536328730_2_alg».proof.Proof.Spec

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Cert.GraphFusion
open Idealize.ShloMosaic.Pipeline (Dat)

variable (V : (c : Dev nD) → (b : Ref sig .tc) → Buf (Elt Ideal) ((c : Thread nD τ).loc b))

theorem proj2_zeros : (![0, 0] : Fin 2 → Nat) = fun _ => 0 := funext fun a => by fin_cases a <;> rfl

/-- The body's arithmetic is the product of its two loaded blocks. -/
theorem proj2_payload (x0 : Vec Ideal S5000x128 .bf16) (x1 : Vec Ideal S128x128 .bf16) :
    k2_pay1 (F := Ideal) x0 x1 = product (φ₁ := .bf16) (φ₂ := .bf16) x0 x1 := by
  unfold k2_pay1
  simp only [shapeCast_self]
  exact matmul_zero_eq_product dot_S5000x128_S128x128_S5000x128_1_0_0_1_n_n rfl rfl rfl rfl rfl rfl rfl rfl none x0 x1

/-- The index maps over the grid: the left operand and the output move down one block of rows per point, the right
    operand stays. -/
theorem proj2_index : ∀ t : Fin cfg2.N, t.val < 10
    ∧ win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the product of the two arrays as the launch finds them. -/
theorem proj2_flushed (c : Dev nD) (t : Fin cfg2.N) :
    (dat2 V c).flushed 2 t = ((cfg2.win 2).blk t).view.read (Elt Ideal) (product (φ₁ := .bf16) (φ₂ := .bf16) (V c main_v49) (V c main_v50)) := by
  show (cfg2.win 2).cut (grid2.coords t) ((dat2 V c).after 2 t) = _
  rw [after2_2]
  unfold out2_2
  rw [View.canon_unit_zero proj2_zeros]
  simp only [View.ld_unit_zero (S := S5000x128) proj2_zeros, View.ld_unit_zero (S := S128x128) proj2_zeros]
  obtain ⟨ht, e0, e1, e2, e3, e4, e5⟩ := proj2_index t
  funext j
  obtain ⟨p, q, rfl⟩ : ∃ (p : Fin 5000) (q : Fin 128), j = ix2 p q := ⟨j 0, j 1, eq_ix2 j⟩
  have hp : p.val < 5000 := p.isLt
  show k2_pay1 (iblk2 V c 0 t) (iblk2 V c 1 t) (ix2 p q)
    = product (φ₁ := .bf16) (φ₂ := .bf16) (V c main_v49) (V c main_v50) (((cfg2.win 2).blk t).view.emb (ix2 p q))
  refine (congrFun (proj2_payload (iblk2 V c 0 t) (iblk2 V c 1 t)) (ix2 p q)).trans ?_
  have hrow : ((cfg2.win 2).blk t).view.emb (ix2 p q) = ix2 (⟨t.val * 5000 + p.val, by omega⟩ : Fin 50000) q := by
    funext a; apply Fin.ext
    match a with
    | ⟨0, _⟩ => show win2_2.index t (0 : Fin 2) * 5000 + 1 * p.val = t.val * 5000 + p.val; omega
    | ⟨1, _⟩ => show win2_2.index t (1 : Fin 2) * 128 + 1 * q.val = q.val; omega
  rw [hrow]
  refine product_rows (φ₁ := .bf16) (φ₂ := .bf16) (V c main_v49) (V c main_v50) (iblk2 V c 0 t) (iblk2 V c 1 t) p _ q (fun k => ?_) (fun k => ?_)
  · show V c main_v49 (((cfg2.win 0).blk t).view.emb (ix2 p k)) = V c main_v49 (ix2 (⟨t.val * 5000 + p.val, by omega⟩ : Fin 50000) k)
    refine congrArg _ (funext fun a => Fin.ext ?_)
    match a with
    | ⟨0, _⟩ => show win2_0.index t (0 : Fin 2) * 5000 + 1 * p.val = t.val * 5000 + p.val; omega
    | ⟨1, _⟩ => show win2_0.index t (1 : Fin 2) * 128 + 1 * k.val = k.val; omega
  · show V c main_v50 (((cfg2.win 1).blk t).view.emb (ix2 k q)) = V c main_v50 (ix2 k q)
    refine congrArg _ (funext fun a => Fin.ext ?_)
    match a with
    | ⟨0, _⟩ => show win2_1.index t (0 : Fin 2) * 128 + 1 * k.val = k.val; omega
    | ⟨1, _⟩ => show win2_1.index t (1 : Fin 2) * 128 + 1 * q.val = q.val; omega

/-- An index of the output is in point t's block iff each coordinate is in the block's range on its axis. -/
theorem proj2_mem (t : Fin cfg2.N) (i : S50000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v51).slice (win2_2.rect t)).set ↔ _
  rw [View.set_slice_whole, Rect.mem_set_unit]
  exact Iff.rfl

/-- Every block of rows is some point's. -/
theorem proj2_onto : ∀ r : Fin 10, ∃ t : Fin cfg2.N, win2_2.index t = ![r.val, 0] :=
  (by decide +kernel : ∀ r : Fin 10, ∃ t : Fin grid2.N, win2_2.index t = ![r.val, 0])

/-- Row r of the output lies in the block of point r / 5000: the ten blocks cover the output. -/
theorem proj2_cover (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ := proj2_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [proj2_mem]
  intro a
  match a with
  | ⟨0, _⟩ =>
    show win2_2.index t (0 : Fin 2) * 5000 ≤ (i 0).val ∧ (i 0).val < win2_2.index t (0 : Fin 2) * 5000 + 5000
    omega
  | ⟨1, _⟩ =>
    show win2_2.index t (1 : Fin 2) * 128 ≤ (i 1).val ∧ (i 1).val < win2_2.index t (1 : Fin 2) * 128 + 128
    omega

/-- After the launch the output array is the product of the two arrays as the launch found them. -/
theorem proj2_final (c : Dev nD) : (dat2 V c).arrAt 2 cfg2.N = product (φ₁ := .bf16) (φ₂ := .bf16) (V c main_v49) (V c main_v50) :=
  (dat2 V c).arrAt_eq_of_cover 2 _ (fun t _ => proj2_flushed V c t) (proj2_cover)

end Cert.KernelIdeal.Blocks

end
-- ==== Proof.BiasPrelu3.lean ====
/-
  Launch 3: bias and parametric rectifier, ten row blocks at a time.

  The input [50000, 128] is cut into ten blocks of 5000 rows; grid point t adds the bias row to every row of block t,
  keeps each sum v where v ≥ 0 and replaces it by slope · v elsewhere, and writes the block to the same rows of the
  output. The map acts entry by entry (the bias and the slope depend on the column only), so block t of the result is
  the result of block t, and the ten blocks tile the output: after the launch the output array is the map of the
  whole input with the bias and slope rows as the launch found them.
-/
import proofs.«123922_j71399536328730_2_alg».proof.Proof.Gen.KernelIdeal.Frame
import proofs.«123922_j71399536328730_2_alg».proof.Proof.Spec

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Cert.GraphFusion
open Idealize.ShloMosaic.Pipeline (Dat)

variable (V : (c : Dev nD) → (b : Ref sig .tc) → Buf (Elt Ideal) ((c : Thread nD τ).loc b))

theorem bp3_zeros : (![0, 0] : Fin 2 → Nat) = fun _ => 0 := funext fun a => by fin_cases a <;> rfl

/-- The body's arithmetic is bias-and-rectifier of its loaded block with its loaded rows. -/
theorem bp3_payload (x0 : Vec Ideal S5000x128 .f32) (x1 x2 : Vec Ideal S1x128 .f32) :
    k3_pay1 (F := Ideal) x0 x1 x2 = biasPrelu x0 x1 x2 := by
  unfold k3_pay1
  simp only [shapeCast_self]
  exact biasPrelu_tree x0 x1 x2 broadcasts_S1x128_S5000x128

/-- The index maps over the grid: the input and the output move down one block of rows per point, the two rows stay. -/
theorem bp3_index : ∀ t : Fin cfg3.N, t.val < 10
    ∧ win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point t writes back is block t of bias-and-rectifier of the arrays as the launch finds them. -/
theorem bp3_flushed (c : Dev nD) (t : Fin cfg3.N) :
    (dat3 V c).flushed 3 t
      = ((cfg3.win 3).blk t).view.read (Elt Ideal) (biasPrelu (V c main_v63) (V c main_v64) (V c main_v65)) := by
  show (cfg3.win 3).cut (grid3.coords t) ((dat3 V c).after 3 t) = _
  rw [after3_3]
  unfold out3_3
  rw [View.canon_unit_zero bp3_zeros]
  simp only [View.ld_unit_zero (S := S5000x128) bp3_zeros, View.ld_unit_zero (S := S1x128) bp3_zeros]
  obtain ⟨ht, e0, e1, e2, e3, e4, e5, e6, e7⟩ := bp3_index t
  funext j
  obtain ⟨p, q, rfl⟩ : ∃ (p : Fin 5000) (q : Fin 128), j = ix2 p q := ⟨j 0, j 1, eq_ix2 j⟩
  have hp : p.val < 5000 := p.isLt
  show k3_pay1 (iblk3 V c 0 t) (iblk3 V c 1 t) (iblk3 V c 2 t) (ix2 p q)
    = biasPrelu (V c main_v63) (V c main_v64) (V c main_v65) (((cfg3.win 3).blk t).view.emb (ix2 p q))
  refine (congrFun (bp3_payload (iblk3 V c 0 t) (iblk3 V c 1 t) (iblk3 V c 2 t)) (ix2 p q)).trans ?_
  have hrow : ((cfg3.win 3).blk t).view.emb (ix2 p q) = ix2 (⟨t.val * 5000 + p.val, by omega⟩ : Fin 50000) q := by
    funext a; apply Fin.ext
    match a with
    | ⟨0, _⟩ => show win3_3.index t (0 : Fin 2) * 5000 + 1 * p.val = t.val * 5000 + p.val; omega
    | ⟨1, _⟩ => show win3_3.index t (1 : Fin 2) * 128 + 1 * q.val = q.val; omega
  rw [hrow]
  have hb : iblk3 V c 1 t = V c main_v64 := by
    funext y
    show V c main_v64 (((cfg3.win 1).blk t).view.emb y) = V c main_v64 y
    refine congrArg _ (funext fun a => Fin.ext ?_)
    match a with
    | ⟨0, _⟩ => show win3_1.index t (0 : Fin 2) * 1 + 1 * (y 0).val = (y 0).val; omega
    | ⟨1, _⟩ => show win3_1.index t (1 : Fin 2) * 128 + 1 * (y 1).val = (y 1).val; omega
  have ha : iblk3 V c 2 t = V c main_v65 := by
    funext y
    show V c main_v65 (((cfg3.win 2).blk t).view.emb y) = V c main_v65 y
    refine congrArg _ (funext fun a => Fin.ext ?_)
    match a with
    | ⟨0, _⟩ => show win3_2.index t (0 : Fin 2) * 1 + 1 * (y 0).val = (y 0).val; omega
    | ⟨1, _⟩ => show win3_2.index t (1 : Fin 2) * 128 + 1 * (y 1).val = (y 1).val; omega
  rw [hb, ha]
  refine biasPrelu_rows (V c main_v63) (iblk3 V c 0 t) (V c main_v64) (V c main_v65) p _ q ?_
  show V c main_v63 (((cfg3.win 0).blk t).view.emb (ix2 p q)) = V c main_v63 (ix2 (⟨t.val * 5000 + p.val, by omega⟩ : Fin 50000) q)
  refine congrArg _ (funext fun a => Fin.ext ?_)
  match a with
  | ⟨0, _⟩ => show win3_0.index t (0 : Fin 2) * 5000 + 1 * p.val = t.val * 5000 + p.val; omega
  | ⟨1, _⟩ => show win3_0.index t (1 : Fin 2) * 128 + 1 * q.val = q.val; omega

/-- An index of the output is in point t's block iff each coordinate is in the block's range on its axis. -/
theorem bp3_mem (t : Fin cfg3.N) (i : S50000x128.Idx) :
    i ∈ ((cfg3.win 3).blk t).view.set ↔ ∀ a : Fin 2, win3_3.index t a * S5000x128.size a ≤ (i a).val
      ∧ (i a).val < win3_3.index t a * S5000x128.size a + S5000x128.size a := by
  show i ∈ ((View.whole main_v66).slice (win3_3.rect t)).set ↔ _
  rw [View.set_slice_whole, Rect.mem_set_unit]
  exact Iff.rfl

/-- Every block of rows is some point's. -/
theorem bp3_onto : ∀ r : Fin 10, ∃ t : Fin cfg3.N, win3_3.index t = ![r.val, 0] :=
  (by decide +kernel : ∀ r : Fin 10, ∃ t : Fin grid3.N, win3_3.index t = ![r.val, 0])

/-- Row r of the output lies in the block of point r / 5000: the ten blocks cover the output. -/
theorem bp3_cover (i : S50000x128.Idx) :
    ∃ t : Fin cfg3.N, (cfg3.win 3).flush t = true ∧ i ∈ ((cfg3.win 3).blk t).view.set := by
  have hi0 : (i 0).val < 50000 := (i 0).isLt
  have hi1 : (i 1).val < 128 := (i 1).isLt
  obtain ⟨t, ht⟩ := bp3_onto ⟨(i 0).val / 5000, by omega⟩
  have q0 : win3_3.index t (0 : Fin 2) = (i 0).val / 5000 := congrFun ht 0
  have q1 : win3_3.index t (1 : Fin 2) = 0 := congrFun ht 1
  refine ⟨t, flush3_3 t, ?_⟩
  rw [bp3_mem]
  intro a
  match a with
  | ⟨0, _⟩ =>
    show win3_3.index t (0 : Fin 2) * 5000 ≤ (i 0).val ∧ (i 0).val < win3_3.index t (0 : Fin 2) * 5000 + 5000
    omega
  | ⟨1, _⟩ =>
    show win3_3.index t (1 : Fin 2) * 128 ≤ (i 1).val ∧ (i 1).val < win3_3.index t (1 : Fin 2) * 128 + 128
    omega

/-- After the launch the output array is bias-and-rectifier of the arrays as the launch found them. -/
theorem bp3_final (c : Dev nD) :
    (dat3 V c).arrAt 3 cfg3.N = biasPrelu (V c main_v63) (V c main_v64) (V c main_v65) :=
  (dat3 V c).arrAt_eq_of_cover 3 _ (fun t _ => bp3_flushed V c t) (bp3_cover)

end Cert.KernelIdeal.Blocks

end
-- ==== Proof.Proj0.lean ====
/-
  Launch 0: a matrix product computed ten row blocks at a time.

  The left operand [50000, 256] is cut into ten blocks of 5000 rows; grid point t multiplies block t by the whole
  right operand [256, 128], accumulating from zero, and writes the 5000 x 128 result to rows 5000 t … 5000 t + 4999 of
  the output. Entry (p, q) of the product of block t is entry (5000 t + p, q) of the product of the whole arrays,
  because a row of a product depends only on that row of the left operand. The ten blocks tile the output, so
  after the launch the output array is the product of the two arrays as the launch found them.
-/
import proofs.«123922_j71399536328730_2_alg».proof.Proof.Gen.KernelIdeal.Frame
import proofs.«123922_j71399536328730_2_alg».proof.Proof.Spec

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Cert.GraphFusion
open Idealize.ShloMosaic.Pipeline (Dat)

variable (V : (c : Dev nD) → (b : Ref sig .tc) → Buf (Elt Ideal) ((c : Thread nD τ).loc b))

theorem proj0_zeros : (![0, 0] : Fin 2 → Nat) = fun _ => 0 := funext fun a => by fin_cases a <;> rfl

/-- The body's arithmetic is the product of its two loaded blocks. -/
theorem proj0_payload (x0 : Vec Ideal S5000x256 .bf16) (x1 : Vec Ideal S256x128 .bf16) :
    k0_pay1 (F := Ideal) x0 x1 = product (φ₁ := .bf16) (φ₂ := .bf16) x0 x1 := by
  unfold k0_pay1
  simp only [shapeCast_self]
  exact matmul_zero_eq_product dot_S5000x256_S256x128_S5000x128_1_0_0_1_n_n rfl rfl rfl rfl rfl rfl rfl rfl none x0 x1

/-- The index maps over the grid: the left operand and the output move down one block of rows per point, the right
    operand stays. -/
theorem proj0_index : ∀ t : Fin cfg0.N, t.val < 10
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the two arrays as the launch finds them. -/
theorem proj0_flushed (c : Dev nD) (t : Fin cfg0.N) :
    (dat0 V c).flushed 2 t = ((cfg0.win 2).blk t).view.read (Elt Ideal) (product (φ₁ := .bf16) (φ₂ := .bf16) (V c main_v31) (V c main_v32)) := by
  show (cfg0.win 2).cut (grid0.coords t) ((dat0 V c).after 2 t) = _
  rw [after0_2]
  unfold out0_2
  rw [View.canon_unit_zero proj0_zeros]
  simp only [View.ld_unit_zero (S := S5000x256) proj0_zeros, View.ld_unit_zero (S := S256x128) proj0_zeros]
  obtain ⟨ht, e0, e1, e2, e3, e4, e5⟩ := proj0_index t
  funext j
  obtain ⟨p, q, rfl⟩ : ∃ (p : Fin 5000) (q : Fin 128), j = ix2 p q := ⟨j 0, j 1, eq_ix2 j⟩
  have hp : p.val < 5000 := p.isLt
  show k0_pay1 (iblk0 V c 0 t) (iblk0 V c 1 t) (ix2 p q)
    = product (φ₁ := .bf16) (φ₂ := .bf16) (V c main_v31) (V c main_v32) (((cfg0.win 2).blk t).view.emb (ix2 p q))
  refine (congrFun (proj0_payload (iblk0 V c 0 t) (iblk0 V c 1 t)) (ix2 p q)).trans ?_
  have hrow : ((cfg0.win 2).blk t).view.emb (ix2 p q) = ix2 (⟨t.val * 5000 + p.val, by omega⟩ : Fin 50000) q := by
    funext a; apply Fin.ext
    match a with
    | ⟨0, _⟩ => show win0_2.index t (0 : Fin 2) * 5000 + 1 * p.val = t.val * 5000 + p.val; omega
    | ⟨1, _⟩ => show win0_2.index t (1 : Fin 2) * 128 + 1 * q.val = q.val; omega
  rw [hrow]
  refine product_rows (φ₁ := .bf16) (φ₂ := .bf16) (V c main_v31) (V c main_v32) (iblk0 V c 0 t) (iblk0 V c 1 t) p _ q (fun k => ?_) (fun k => ?_)
  · show V c main_v31 (((cfg0.win 0).blk t).view.emb (ix2 p k)) = V c main_v31 (ix2 (⟨t.val * 5000 + p.val, by omega⟩ : Fin 50000) k)
    refine congrArg _ (funext fun a => Fin.ext ?_)
    match a with
    | ⟨0, _⟩ => show win0_0.index t (0 : Fin 2) * 5000 + 1 * p.val = t.val * 5000 + p.val; omega
    | ⟨1, _⟩ => show win0_0.index t (1 : Fin 2) * 256 + 1 * k.val = k.val; omega
  · show V c main_v32 (((cfg0.win 1).blk t).view.emb (ix2 k q)) = V c main_v32 (ix2 k q)
    refine congrArg _ (funext fun a => Fin.ext ?_)
    match a with
    | ⟨0, _⟩ => show win0_1.index t (0 : Fin 2) * 256 + 1 * k.val = k.val; omega
    | ⟨1, _⟩ => show win0_1.index t (1 : Fin 2) * 128 + 1 * q.val = q.val; omega

/-- An index of the output is in point t's block iff each coordinate is in the block's range on its axis. -/
theorem proj0_mem (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v33).slice (win0_2.rect t)).set ↔ _
  rw [View.set_slice_whole, Rect.mem_set_unit]
  exact Iff.rfl

/-- Every block of rows is some point's. -/
theorem proj0_onto : ∀ r : Fin 10, ∃ t : Fin cfg0.N, win0_2.index t = ![r.val, 0] :=
  (by decide +kernel : ∀ r : Fin 10, ∃ t : Fin grid0.N, win0_2.index t = ![r.val, 0])

/-- Row r of the output lies in the block of point r / 5000: the ten blocks cover the output. -/
theorem proj0_cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := proj0_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [proj0_mem]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

/-- After the launch the output array is the product of the two arrays as the launch found them. -/
theorem proj0_final (c : Dev nD) : (dat0 V c).arrAt 2 cfg0.N = product (φ₁ := .bf16) (φ₂ := .bf16) (V c main_v31) (V c main_v32) :=
  (dat0 V c).arrAt_eq_of_cover 2 _ (fun t _ => proj0_flushed V c t) (proj0_cover)

end Cert.KernelIdeal.Blocks

end
-- ==== Proof.BiasPrelu1.lean ====
/-
  Launch 1: bias and parametric rectifier, ten row blocks at a time.

  The input [50000, 128] is cut into ten blocks of 5000 rows; grid point t adds the bias row to every row of block t,
  keeps each sum v where v ≥ 0 and replaces it by slope · v elsewhere, and writes the block to the same rows of the
  output. The map acts entry by entry (the bias and the slope depend on the column only), so block t of the result is
  the result of block t, and the ten blocks tile the output: after the launch the output array is the map of the
  whole input with the bias and slope rows as the launch found them.
-/
import proofs.«123922_j71399536328730_2_alg».proof.Proof.Gen.KernelIdeal.Frame
import proofs.«123922_j71399536328730_2_alg».proof.Proof.Spec

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Cert.GraphFusion
open Idealize.ShloMosaic.Pipeline (Dat)

variable (V : (c : Dev nD) → (b : Ref sig .tc) → Buf (Elt Ideal) ((c : Thread nD τ).loc b))

theorem bp1_zeros : (![0, 0] : Fin 2 → Nat) = fun _ => 0 := funext fun a => by fin_cases a <;> rfl

/-- The body's arithmetic is bias-and-rectifier of its loaded block with its loaded rows. -/
theorem bp1_payload (x0 : Vec Ideal S5000x128 .f32) (x1 x2 : Vec Ideal S1x128 .f32) :
    k1_pay1 (F := Ideal) x0 x1 x2 = biasPrelu x0 x1 x2 := by
  unfold k1_pay1
  simp only [shapeCast_self]
  exact biasPrelu_tree x0 x1 x2 broadcasts_S1x128_S5000x128

/-- The index maps over the grid: the input and the output move down one block of rows per point, the two rows stay. -/
theorem bp1_index : ∀ t : Fin cfg1.N, t.val < 10
    ∧ win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of bias-and-rectifier of the arrays as the launch finds them. -/
theorem bp1_flushed (c : Dev nD) (t : Fin cfg1.N) :
    (dat1 V c).flushed 3 t
      = ((cfg1.win 3).blk t).view.read (Elt Ideal) (biasPrelu (V c main_v45) (V c main_v46) (V c main_v47)) := by
  show (cfg1.win 3).cut (grid1.coords t) ((dat1 V c).after 3 t) = _
  rw [after1_3]
  unfold out1_3
  rw [View.canon_unit_zero bp1_zeros]
  simp only [View.ld_unit_zero (S := S5000x128) bp1_zeros, View.ld_unit_zero (S := S1x128) bp1_zeros]
  obtain ⟨ht, e0, e1, e2, e3, e4, e5, e6, e7⟩ := bp1_index t
  funext j
  obtain ⟨p, q, rfl⟩ : ∃ (p : Fin 5000) (q : Fin 128), j = ix2 p q := ⟨j 0, j 1, eq_ix2 j⟩
  have hp : p.val < 5000 := p.isLt
  show k1_pay1 (iblk1 V c 0 t) (iblk1 V c 1 t) (iblk1 V c 2 t) (ix2 p q)
    = biasPrelu (V c main_v45) (V c main_v46) (V c main_v47) (((cfg1.win 3).blk t).view.emb (ix2 p q))
  refine (congrFun (bp1_payload (iblk1 V c 0 t) (iblk1 V c 1 t) (iblk1 V c 2 t)) (ix2 p q)).trans ?_
  have hrow : ((cfg1.win 3).blk t).view.emb (ix2 p q) = ix2 (⟨t.val * 5000 + p.val, by omega⟩ : Fin 50000) q := by
    funext a; apply Fin.ext
    match a with
    | ⟨0, _⟩ => show win1_3.index t (0 : Fin 2) * 5000 + 1 * p.val = t.val * 5000 + p.val; omega
    | ⟨1, _⟩ => show win1_3.index t (1 : Fin 2) * 128 + 1 * q.val = q.val; omega
  rw [hrow]
  have hb : iblk1 V c 1 t = V c main_v46 := by
    funext y
    show V c main_v46 (((cfg1.win 1).blk t).view.emb y) = V c main_v46 y
    refine congrArg _ (funext fun a => Fin.ext ?_)
    match a with
    | ⟨0, _⟩ => show win1_1.index t (0 : Fin 2) * 1 + 1 * (y 0).val = (y 0).val; omega
    | ⟨1, _⟩ => show win1_1.index t (1 : Fin 2) * 128 + 1 * (y 1).val = (y 1).val; omega
  have ha : iblk1 V c 2 t = V c main_v47 := by
    funext y
    show V c main_v47 (((cfg1.win 2).blk t).view.emb y) = V c main_v47 y
    refine congrArg _ (funext fun a => Fin.ext ?_)
    match a with
    | ⟨0, _⟩ => show win1_2.index t (0 : Fin 2) * 1 + 1 * (y 0).val = (y 0).val; omega
    | ⟨1, _⟩ => show win1_2.index t (1 : Fin 2) * 128 + 1 * (y 1).val = (y 1).val; omega
  rw [hb, ha]
  refine biasPrelu_rows (V c main_v45) (iblk1 V c 0 t) (V c main_v46) (V c main_v47) p _ q ?_
  show V c main_v45 (((cfg1.win 0).blk t).view.emb (ix2 p q)) = V c main_v45 (ix2 (⟨t.val * 5000 + p.val, by omega⟩ : Fin 50000) q)
  refine congrArg _ (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * q.val = q.val; omega

/-- An index of the output is in point t's block iff each coordinate is in the block's range on its axis. -/
theorem bp1_mem (t : Fin cfg1.N) (i : S50000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v48).slice (win1_3.rect t)).set ↔ _
  rw [View.set_slice_whole, Rect.mem_set_unit]
  exact Iff.rfl

/-- Every block of rows is some point's. -/
theorem bp1_onto : ∀ r : Fin 10, ∃ t : Fin cfg1.N, win1_3.index t = ![r.val, 0] :=
  (by decide +kernel : ∀ r : Fin 10, ∃ t : Fin grid1.N, win1_3.index t = ![r.val, 0])

/-- Row r of the output lies in the block of point r / 5000: the ten blocks cover the output. -/
theorem bp1_cover (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  obtain ⟨t, ht⟩ := bp1_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [bp1_mem]
  intro a
  match a with
  | ⟨0, _⟩ =>
    show win1_3.index t (0 : Fin 2) * 5000 ≤ (i 0).val ∧ (i 0).val < win1_3.index t (0 : Fin 2) * 5000 + 5000
    omega
  | ⟨1, _⟩ =>
    show win1_3.index t (1 : Fin 2) * 128 ≤ (i 1).val ∧ (i 1).val < win1_3.index t (1 : Fin 2) * 128 + 128
    omega

/-- After the launch the output array is bias-and-rectifier of the arrays as the launch found them. -/
theorem bp1_final (c : Dev nD) :
    (dat1 V c).arrAt 3 cfg1.N = biasPrelu (V c main_v45) (V c main_v46) (V c main_v47) :=
  (dat1 V c).arrAt_eq_of_cover 3 _ (fun t _ => bp1_flushed V c t) (bp1_cover)

end Cert.KernelIdeal.Blocks

end
-- ==== Proof.Prelude.lean ====
/-
  Before the first launch: the edge tables.

  The program first builds, from the [2, E] edge index, the source node and the target node of every edge with one
  self-loop per node appended (two length-(E + N) integer vectors), counts each node's in-degree by scattering ones,
  takes deg^(-1/2) where the degree is positive and 0 elsewhere (a call of a module-local function), and multiplies
  the two endpoint factors of every edge: the edge weights, kept as an [E + N, 1] column. It also narrows the first
  branch's features and weights for the first launch. These are the same operations, in the same order, that the
  reference program applies to the same argument, so each table is the reference's stage of that name as a function of
  the edge index. Each of the three stretches is read over any contents of the buffers it starts from, given that the
  buffers it reads hold the earlier stages.
-/
import proofs.«123922_j71399536328730_2_alg».proof.Proof.Gen.KernelIdeal.Frame
import proofs.«123922_j71399536328730_2_alg».proof.Proof.RefRead
import proofs.«123922_j71399536328730_2_alg».proof.Proof.Spec
import proofs.«123922_j71399536328730_2_alg».proof.Proof.KeepTactic
import proofs.«123922_j71399536328730_2_alg».proof.Proof.KeepArgsA

set_option maxRecDepth 16384

noncomputable section

namespace Cert.KernelIdeal.Fold

open Cert.KernelIdeal Cert.KernelIdeal.Gen Idealize.ShloMosaic Idealize.ShloMosaic.TcCoe Idealize.SL.Sem
open Idealize.ShloMosaic.StableHlo Idealize.ShloMosaic.ValueIdx Cert.GraphFusion
open Cert.ReferenceIdeal.ReadP

variable (m : (ℓ : Loc nD τ sig) → Buf (Elt Ideal) ℓ) (ρ : Dev nD → PrngReg)

/-! ## The three stretches, over any starting contents -/

theorem p0_main_v3 (V : Valuation τ sig (Elt Ideal)) (x2 : (⟨S2x800000, .i32⟩ : BufTy).Contents (Elt Ideal))
    (h_main_arg2 : V (Proc.devRef .tc main_arg2) = x2) :
    StableHlo.after (hostOps0 (F := Ideal)) V (Proc.devRef .tc main_v3) = val_main_v3 (F := Ideal) x2 := by
  after_results
  rw [h_main_arg2]
  rfl

theorem p0_main_v6 (V : Valuation τ sig (Elt Ideal)) (x2 : (⟨S2x800000, .i32⟩ : BufTy).Contents (Elt Ideal))
    (h_main_arg2 : V (Proc.devRef .tc main_arg2) = x2) :
    StableHlo.after (hostOps0 (F := Ideal)) V (Proc.devRef .tc main_v6) = val_main_v6 (F := Ideal) x2 := by
  after_results
  rw [h_main_arg2]
  rfl

theorem p0_main_v12 (V : Valuation τ sig (Elt Ideal)) (x2 : (⟨S2x800000, .i32⟩ : BufTy).Contents (Elt Ideal))
    (h_main_arg2 : V (Proc.devRef .tc main_arg2) = x2) :
    StableHlo.after (hostOps0 (F := Ideal)) V (Proc.devRef .tc main_v12) = val_main_v12 (F := Ideal) x2 := by
  after_results
  rw [h_main_arg2]
  rfl

theorem p0_main_v13 (V : Valuation τ sig (Elt Ideal)) (x2 : (⟨S2x800000, .i32⟩ : BufTy).Contents (Elt Ideal))
    (h_main_arg2 : V (Proc.devRef .tc main_arg2) = x2) :
    StableHlo.after (hostOps0 (F := Ideal)) V (Proc.devRef .tc main_v13) = val_main_v13 (F := Ideal) x2 := by
  after_results
  rw [h_main_arg2]
  rfl

theorem p0_main_cst_2 (V : Valuation τ sig (Elt Ideal)) (x2 : (⟨S2x800000, .i32⟩ : BufTy).Contents (Elt Ideal))
    :
    StableHlo.after (hostOps0 (F := Ideal)) V (Proc.devRef .tc main_cst_2) = val_main_cst_2 (F := Ideal) := by
  after_results
  rfl

theorem p1_main_v14 (V : Valuation τ sig (Elt Ideal)) (a : (⟨S50000, .i1⟩ : BufTy).Contents (Elt Ideal))
    (b : (⟨S50000, .f32⟩ : BufTy).Contents (Elt Ideal)) (z : (⟨S_, .f32⟩ : BufTy).Contents (Elt Ideal))
    (h_main_v12 : V (Proc.devRef .tc main_v12) = a) (h_main_v13 : V (Proc.devRef .tc main_v13) = b)
    (h_main_cst_2 : V (Proc.devRef .tc main_cst_2) = z) :
    StableHlo.after (hostOps0_1 (F := Ideal)) V (Proc.devRef .tc main_v14)
      = select a b (broadcastInDim S50000 ![] bcast_S_S50000 (id z)) := by
  after_results_simp
  rw [h_main_v12, h_main_v13, h_main_cst_2]
  rfl

theorem p2_main_v30 (V : Valuation τ sig (Elt Ideal)) (x2 : (⟨S2x800000, .i32⟩ : BufTy).Contents (Elt Ideal))
    (h_main_v14 : V (Proc.devRef .tc main_v14) = val_main_v14 (F := Ideal) x2)
    (h_main_v3 : V (Proc.devRef .tc main_v3) = val_main_v3 (F := Ideal) x2)
    (h_main_v6 : V (Proc.devRef .tc main_v6) = val_main_v6 (F := Ideal) x2) :
    StableHlo.after (hostOps0_2 (F := Ideal)) V (Proc.devRef .tc main_v30) = val_main_v38 (F := Ideal) x2 := by
  after_results_simp
  rw [h_main_v14, h_main_v3, h_main_v6]
  rfl

/-! ## At the program's boundaries -/

theorem sources1 (c : Dev nD) : W1 m ρ c (Proc.devRef .tc main_v3) = val_main_v3 (F := Ideal) (m ((c : Thread nD τ).loc main_arg2)) :=
  p0_main_v3 (W0 m ρ c) (m ((c : Thread nD τ).loc main_arg2)) rfl
theorem targets1 (c : Dev nD) : W1 m ρ c (Proc.devRef .tc main_v6) = val_main_v6 (F := Ideal) (m ((c : Thread nD τ).loc main_arg2)) :=
  p0_main_v6 (W0 m ρ c) (m ((c : Thread nD τ).loc main_arg2)) rfl
theorem positive1 (c : Dev nD) : W1 m ρ c (Proc.devRef .tc main_v12) = val_main_v12 (F := Ideal) (m ((c : Thread nD τ).loc main_arg2)) :=
  p0_main_v12 (W0 m ρ c) (m ((c : Thread nD τ).loc main_arg2)) rfl
theorem rsqrt1 (c : Dev nD) : W1 m ρ c (Proc.devRef .tc main_v13) = val_main_v13 (F := Ideal) (m ((c : Thread nD τ).loc main_arg2)) :=
  p0_main_v13 (W0 m ρ c) (m ((c : Thread nD τ).loc main_arg2)) rfl
theorem zero1 (c : Dev nD) : W1 m ρ c (Proc.devRef .tc main_cst_2) = val_main_cst_2 (F := Ideal) :=
  p0_main_cst_2 (W0 m ρ c) (m ((c : Thread nD τ).loc main_arg2))

/-- deg^(-1/2) where the degree is positive, 0 elsewhere. -/
theorem dinv2 (c : Dev nD) : W2 m ρ c (Proc.devRef .tc main_v14) = val_main_v14 (F := Ideal) (m ((c : Thread nD τ).loc main_arg2)) :=
  p1_main_v14 (W1 m ρ c) _ _ _ (positive1 m ρ c) (rsqrt1 m ρ c) (zero1 m ρ c)
theorem sources2 (c : Dev nD) : W2 m ρ c (Proc.devRef .tc main_v3) = val_main_v3 (F := Ideal) (m ((c : Thread nD τ).loc main_arg2)) :=
  (show StableHlo.after hostOps0_1 (W1 m ρ c) (Proc.devRef .tc main_v3) = W1 m ρ c (Proc.devRef .tc main_v3) by
    keep_host hostOps0_1 main_v3).trans (sources1 m ρ c)
theorem targets2 (c : Dev nD) : W2 m ρ c (Proc.devRef .tc main_v6) = val_main_v6 (F := Ideal) (m ((c : Thread nD τ).loc main_arg2)) :=
  (show StableHlo.after hostOps0_1 (W1 m ρ c) (Proc.devRef .tc main_v6) = W1 m ρ c (Proc.devRef .tc main_v6) by
    keep_host hostOps0_1 main_v6).trans (targets1 m ρ c)

/-- The source nodes, with the self-loops appended. -/
theorem sources (c : Dev nD) : W3 m ρ c (Proc.devRef .tc main_v3) = val_main_v3 (F := Ideal) (m ((c : Thread nD τ).loc main_arg2)) :=
  (show StableHlo.after hostOps0_2 (W2 m ρ c) (Proc.devRef .tc main_v3) = W2 m ρ c (Proc.devRef .tc main_v3) by
    keep_host hostOps0_2 main_v3).trans (sources2 m ρ c)

/-- The target nodes, with the self-loops appended. -/
theorem targets (c : Dev nD) : W3 m ρ c (Proc.devRef .tc main_v6) = val_main_v6 (F := Ideal) (m ((c : Thread nD τ).loc main_arg2)) :=
  (show StableHlo.after hostOps0_2 (W2 m ρ c) (Proc.devRef .tc main_v6) = W2 m ρ c (Proc.devRef .tc main_v6) by
    keep_host hostOps0_2 main_v6).trans (targets2 m ρ c)

/-- The edge weights deg^(-1/2)(source) · deg^(-1/2)(target), as a column. -/
theorem weights (c : Dev nD) : W3 m ρ c (Proc.devRef .tc main_v30) = val_main_v38 (F := Ideal) (m ((c : Thread nD τ).loc main_arg2)) :=
  p2_main_v30 (W2 m ρ c) (m ((c : Thread nD τ).loc main_arg2)) (dinv2 m ρ c) (sources2 m ρ c) (targets2 m ρ c)

/-- The last stretch before the first launch narrows the first branch's features … -/
theorem p2_main_v31 (V : Valuation τ sig (Elt Ideal)) (x0 : (⟨S50000x256, .f32⟩ : BufTy).Contents (Elt Ideal))
    (h : V (Proc.devRef .tc main_arg0) = x0) :
    StableHlo.after (hostOps0_2 (F := Ideal)) V (Proc.devRef .tc main_v31)
      = (truncf .bf16 x0 bitsLt_bf16_f32 : FVec Ideal S50000x256 .bf16) := by
  after_results_simp
  rw [h]

/-- … and the first weight matrix. -/
theorem p2_main_v32 (V : Valuation τ sig (Elt Ideal)) (x3 : (⟨S256x128, .f32⟩ : BufTy).Contents (Elt Ideal))
    (h : V (Proc.devRef .tc main_arg3) = x3) :
    StableHlo.after (hostOps0_2 (F := Ideal)) V (Proc.devRef .tc main_v32)
      = (truncf .bf16 x3 bitsLt_bf16_f32 : FVec Ideal S256x128 .bf16) := by
  after_results_simp
  rw [h]

/-- The first launch's left operand: the first branch's features, narrowed. -/
theorem narrowed_x1 (c : Dev nD) :
    W3 m ρ c (Proc.devRef .tc main_v31) = (truncf .bf16 (m ((c : Thread nD τ).loc main_arg0)) bitsLt_bf16_f32 : FVec Ideal S50000x256 .bf16) :=
  p2_main_v31 (W2 m ρ c) (m ((c : Thread nD τ).loc main_arg0)) (Kept.keep_main_arg0_2 m ρ c)

/-- The first launch's right operand: the first weight matrix, narrowed. -/
theorem narrowed_w1 (c : Dev nD) :
    W3 m ρ c (Proc.devRef .tc main_v32) = (truncf .bf16 (m ((c : Thread nD τ).loc main_arg3)) bitsLt_bf16_f32 : FVec Ideal S256x128 .bf16) :=
  p2_main_v32 (W2 m ρ c) (m ((c : Thread nD τ).loc main_arg3)) (Kept.keep_main_arg3_2 m ρ c)

end Cert.KernelIdeal.Fold

end
-- ==== Proof.Layer_a1.lean ====
/-
  One graph-convolution layer of the program, read against the reference's stages.

  The layer's input is narrowed and multiplied by its weight matrix in a launch; the host gathers the product's rows
  along the edges, scales them by the edge weights and sums them into their target nodes; a second launch adds the bias
  row and applies the parametric rectifier. The launch's product is the host's product of the un-narrowed arrays
  (narrowing is the identity on the extended reals; a row-blocked product is the product), the gather-scale-scatter
  stretch is the reference's own operations on the same tables, and bias-and-rectifier on rows is the reference's
  broadcast form. So each buffer the layer writes holds the reference's stage of the same arguments.
-/
import proofs.«123922_j71399536328730_2_alg».proof.Proof.Gen.KernelIdeal.Frame
import proofs.«123922_j71399536328730_2_alg».proof.Proof.RefRead
import proofs.«123922_j71399536328730_2_alg».proof.Proof.Spec
import proofs.«123922_j71399536328730_2_alg».proof.Proof.KeepTactic
import proofs.«123922_j71399536328730_2_alg».proof.Proof.KeepArgsA
import proofs.«123922_j71399536328730_2_alg».proof.Proof.KeepArgsB
import proofs.«123922_j71399536328730_2_alg».proof.Proof.KeepTables
import proofs.«123922_j71399536328730_2_alg».proof.Proof.Proj0
import proofs.«123922_j71399536328730_2_alg».proof.Proof.BiasPrelu1
import proofs.«123922_j71399536328730_2_alg».proof.Proof.Prelude

set_option maxRecDepth 16384

noncomputable section

namespace Cert.KernelIdeal.Fold

open Cert.KernelIdeal Cert.KernelIdeal.Gen Idealize.ShloMosaic Idealize.ShloMosaic.TcCoe Idealize.SL.Sem
open Idealize.ShloMosaic.StableHlo Idealize.ShloMosaic.ValueIdx Cert.GraphFusion
open Cert.ReferenceIdeal.ReadP

variable (m : (ℓ : Loc nD τ sig) → Buf (Elt Ideal) ℓ) (ρ : Dev nD → PrngReg)

theorem a1_x (c : Dev nD) : W3 m ρ c (Proc.devRef .tc main_v31) = (truncf .bf16 (m ((c : Thread nD τ).loc main_arg0)) bitsLt_bf16_f32 : FVec Ideal S50000x256 .bf16) := narrowed_x1 m ρ c
theorem a1_w (c : Dev nD) : W3 m ρ c (Proc.devRef .tc main_v32) = (truncf .bf16 (m ((c : Thread nD τ).loc main_arg3)) bitsLt_bf16_f32 : FVec Ideal S256x128 .bf16) := narrowed_w1 m ρ c

/-- After the launch the product buffer holds the reference's product of the un-narrowed arrays. -/
theorem a1_proj (c : Dev nD) : W4 m ρ c (Proc.devRef .tc main_v33) = val_main_v30 (F := Ideal) (m ((c : Thread nD τ).loc main_arg0)) (m ((c : Thread nD τ).loc main_arg3)) := by
  refine ((W4_arr m ρ c 2).trans (Blocks.proj0_final (V3 m ρ) c)).trans ?_
  rw [show V3 m ρ c main_v31 = (truncf .bf16 (m ((c : Thread nD τ).loc main_arg0)) bitsLt_bf16_f32 : FVec Ideal S50000x256 .bf16) from a1_x m ρ c,
    show V3 m ρ c main_v32 = (truncf .bf16 (m ((c : Thread nD τ).loc main_arg3)) bitsLt_bf16_f32 : FVec Ideal S256x128 .bf16) from a1_w m ρ c, product_truncf]
  unfold val_main_v30
  simp only [Host.dotGeneral]
  exact (dotGeneral_eq_product Cert.ReferenceIdeal.dot_S50000x256_S256x128_S50000x128_1_0_0_1_n_n rfl rfl rfl rfl rfl rfl rfl rfl _ _ _ _).symm
theorem a1_sources (c : Dev nD) : W4 m ρ c (Proc.devRef .tc main_v3) = val_main_v3 (F := Ideal) (m ((c : Thread nD τ).loc main_arg2)) :=
  (Kept.keep_main_v3_4_3 m ρ c).trans (sources m ρ c)
theorem a1_targets (c : Dev nD) : W4 m ρ c (Proc.devRef .tc main_v6) = val_main_v6 (F := Ideal) (m ((c : Thread nD τ).loc main_arg2)) :=
  (Kept.keep_main_v6_4_3 m ρ c).trans (targets m ρ c)
theorem a1_weights (c : Dev nD) : W4 m ρ c (Proc.devRef .tc main_v30) = val_main_v38 (F := Ideal) (m ((c : Thread nD τ).loc main_arg2)) :=
  (Kept.keep_main_v30_4_3 m ρ c).trans (weights m ρ c)

/-- After the stretch the aggregation buffer holds the reference's gather-scale-scatter of the product. -/
theorem a1_agg (c : Dev nD) : W5 m ρ c (Proc.devRef .tc main_v45) = val_main_v43 (F := Ideal) (m ((c : Thread nD τ).loc main_arg0)) (m ((c : Thread nD τ).loc main_arg2)) (m ((c : Thread nD τ).loc main_arg3)) := by
  show StableHlo.after hostOps1 (W4 m ρ c) (Proc.devRef .tc main_v45) = _
  after_results_simp
  rw [a1_proj m ρ c, a1_sources m ρ c, a1_targets m ρ c, a1_weights m ρ c]
  rfl

/-- The bias, reshaped to one row. -/
theorem a1_b (c : Dev nD) :
    W5 m ρ c (Proc.devRef .tc main_v46) = (shapeCast S1x128 (m ((c : Thread nD τ).loc main_arg4)) shapeCasts_S128_S1x128 : FVec Ideal S1x128 .f32) := by
  show StableHlo.after hostOps1 (W4 m ρ c) (Proc.devRef .tc main_v46) = _
  after_results
  rw [show W4 m ρ c (Proc.devRef .tc main_arg4) = (m ((c : Thread nD τ).loc main_arg4)) from Kept.keep_main_arg4_4 m ρ c]
  rfl

/-- The rectifier's slope, reshaped to one row. -/
theorem a1_a (c : Dev nD) :
    W5 m ρ c (Proc.devRef .tc main_v47) = (shapeCast S1x128 (m ((c : Thread nD τ).loc main_arg11)) shapeCasts_S128_S1x128 : FVec Ideal S1x128 .f32) := by
  show StableHlo.after hostOps1 (W4 m ρ c) (Proc.devRef .tc main_v47) = _
  after_results
  rw [show W4 m ρ c (Proc.devRef .tc main_arg11) = (m ((c : Thread nD τ).loc main_arg11)) from Kept.keep_main_arg11_4 m ρ c]
  rfl

/-- After the second launch the layer's output holds the reference's bias-and-rectifier stage. -/
theorem a1_out (c : Dev nD) : W6 m ρ c (Proc.devRef .tc main_v48) = val_main_v52 (F := Ideal) (m ((c : Thread nD τ).loc main_arg0)) (m ((c : Thread nD τ).loc main_arg2)) (m ((c : Thread nD τ).loc main_arg3)) (m ((c : Thread nD τ).loc main_arg4)) (m ((c : Thread nD τ).loc main_arg11)) := by
  refine ((W6_arr m ρ c 3).trans (Blocks.bp1_final (V5 m ρ) c)).trans ?_
  rw [show V5 m ρ c main_v45 = val_main_v43 (F := Ideal) (m ((c : Thread nD τ).loc main_arg0)) (m ((c : Thread nD τ).loc main_arg2)) (m ((c : Thread nD τ).loc main_arg3)) from a1_agg m ρ c,
    show V5 m ρ c main_v46 = (shapeCast S1x128 (m ((c : Thread nD τ).loc main_arg4)) shapeCasts_S128_S1x128 : FVec Ideal S1x128 .f32) from a1_b m ρ c,
    show V5 m ρ c main_v47 = (shapeCast S1x128 (m ((c : Thread nD τ).loc main_arg11)) shapeCasts_S128_S1x128 : FVec Ideal S1x128 .f32) from a1_a m ρ c]
  exact (biasPrelu_host (val_main_v43 (F := Ideal) (m ((c : Thread nD τ).loc main_arg0)) (m ((c : Thread nD τ).loc main_arg2)) (m ((c : Thread nD τ).loc main_arg3))) (m ((c : Thread nD τ).loc main_arg4)) (m ((c : Thread nD τ).loc main_arg11)) _ _ _
    shapeCasts_S128_S1x128).symm

end Cert.KernelIdeal.Fold

end
-- ==== Proof.Layer_a2.lean ====
/-
  One graph-convolution layer of the program, read against the reference's stages.

  The layer's input is narrowed and multiplied by its weight matrix in a launch; the host gathers the product's rows
  along the edges, scales them by the edge weights and sums them into their target nodes; a second launch adds the bias
  row and applies the parametric rectifier. The launch's product is the host's product of the un-narrowed arrays
  (narrowing is the identity on the extended reals; a row-blocked product is the product), the gather-scale-scatter
  stretch is the reference's own operations on the same tables, and bias-and-rectifier on rows is the reference's
  broadcast form. So each buffer the layer writes holds the reference's stage of the same arguments.
-/
import proofs.«123922_j71399536328730_2_alg».proof.Proof.Gen.KernelIdeal.Frame
import proofs.«123922_j71399536328730_2_alg».proof.Proof.RefRead
import proofs.«123922_j71399536328730_2_alg».proof.Proof.Spec
import proofs.«123922_j71399536328730_2_alg».proof.Proof.KeepTactic
import proofs.«123922_j71399536328730_2_alg».proof.Proof.KeepArgsA
import proofs.«123922_j71399536328730_2_alg».proof.Proof.KeepArgsB
import proofs.«123922_j71399536328730_2_alg».proof.Proof.KeepTables
import proofs.«123922_j71399536328730_2_alg».proof.Proof.Proj2
import proofs.«123922_j71399536328730_2_alg».proof.Proof.BiasPrelu3
import proofs.«123922_j71399536328730_2_alg».proof.Proof.Layer_a1

set_option maxRecDepth 16384

noncomputable section

namespace Cert.KernelIdeal.Fold

open Cert.KernelIdeal Cert.KernelIdeal.Gen Idealize.ShloMosaic Idealize.ShloMosaic.TcCoe Idealize.SL.Sem
open Idealize.ShloMosaic.StableHlo Idealize.ShloMosaic.ValueIdx Cert.GraphFusion
open Cert.ReferenceIdeal.ReadP

variable (m : (ℓ : Loc nD τ sig) → Buf (Elt Ideal) ℓ) (ρ : Dev nD → PrngReg)

/-- The launch's left operand: the layer's input, narrowed. -/
theorem a2_x (c : Dev nD) : W7 m ρ c (Proc.devRef .tc main_v49) = (truncf .bf16 (val_main_v52 (F := Ideal) (m ((c : Thread nD τ).loc main_arg0)) (m ((c : Thread nD τ).loc main_arg2)) (m ((c : Thread nD τ).loc main_arg3)) (m ((c : Thread nD τ).loc main_arg4)) (m ((c : Thread nD τ).loc main_arg11))) bitsLt_bf16_f32 : FVec Ideal S50000x128 .bf16) := by
  show StableHlo.after hostOps2 (W6 m ρ c) (Proc.devRef .tc main_v49) = _
  after_results
  rw [show W6 m ρ c (Proc.devRef .tc main_v48) = (val_main_v52 (F := Ideal) (m ((c : Thread nD τ).loc main_arg0)) (m ((c : Thread nD τ).loc main_arg2)) (m ((c : Thread nD τ).loc main_arg3)) (m ((c : Thread nD τ).loc main_arg4)) (m ((c : Thread nD τ).loc main_arg11))) from a1_out m ρ c]

/-- The launch's right operand: the layer's weight matrix, narrowed. -/
theorem a2_w (c : Dev nD) : W7 m ρ c (Proc.devRef .tc main_v50) = (truncf .bf16 (m ((c : Thread nD τ).loc main_arg7)) bitsLt_bf16_f32 : FVec Ideal S128x128 .bf16) := by
  show StableHlo.after hostOps2 (W6 m ρ c) (Proc.devRef .tc main_v50) = _
  after_results
  rw [show W6 m ρ c (Proc.devRef .tc main_arg7) = (m ((c : Thread nD τ).loc main_arg7)) from Kept.keep_main_arg7_6 m ρ c]

/-- After the launch the product buffer holds the reference's product of the un-narrowed arrays. -/
theorem a2_proj (c : Dev nD) : W8 m ρ c (Proc.devRef .tc main_v51) = val_main_v53 (F := Ideal) (m ((c : Thread nD τ).loc main_arg0)) (m ((c : Thread nD τ).loc main_arg2)) (m ((c : Thread nD τ).loc main_arg3)) (m ((c : Thread nD τ).loc main_arg4)) (m ((c : Thread nD τ).loc main_arg7)) (m ((c : Thread nD τ).loc main_arg11)) := by
  refine ((W8_arr m ρ c 2).trans (Blocks.proj2_final (V7 m ρ) c)).trans ?_
  rw [show V7 m ρ c main_v49 = (truncf .bf16 (val_main_v52 (F := Ideal) (m ((c : Thread nD τ).loc main_arg0)) (m ((c : Thread nD τ).loc main_arg2)) (m ((c : Thread nD τ).loc main_arg3)) (m ((c : Thread nD τ).loc main_arg4)) (m ((c : Thread nD τ).loc main_arg11))) bitsLt_bf16_f32 : FVec Ideal S50000x128 .bf16) from a2_x m ρ c,
    show V7 m ρ c main_v50 = (truncf .bf16 (m ((c : Thread nD τ).loc main_arg7)) bitsLt_bf16_f32 : FVec Ideal S128x128 .bf16) from a2_w m ρ c, product_truncf]
  unfold val_main_v53
  simp only [Host.dotGeneral]
  exact (dotGeneral_eq_product Cert.ReferenceIdeal.dot_S50000x128_S128x128_S50000x128_1_0_0_1_n_n rfl rfl rfl rfl rfl rfl rfl rfl _ _ _ _).symm
theorem a2_sources (c : Dev nD) : W8 m ρ c (Proc.devRef .tc main_v3) = val_main_v3 (F := Ideal) (m ((c : Thread nD τ).loc main_arg2)) :=
  (Kept.keep_main_v3_8_4 m ρ c).trans (a1_sources m ρ c)
theorem a2_targets (c : Dev nD) : W8 m ρ c (Proc.devRef .tc main_v6) = val_main_v6 (F := Ideal) (m ((c : Thread nD τ).loc main_arg2)) :=
  (Kept.keep_main_v6_8_4 m ρ c).trans (a1_targets m ρ c)
theorem a2_weights (c : Dev nD) : W8 m ρ c (Proc.devRef .tc main_v30) = val_main_v38 (F := Ideal) (m ((c : Thread nD τ).loc main_arg2)) :=
  (Kept.keep_main_v30_8_4 m ρ c).trans (a1_weights m ρ c)

/-- After the stretch the aggregation buffer holds the reference's gather-scale-scatter of the product. -/
theorem a2_agg (c : Dev nD) : W9 m ρ c (Proc.devRef .tc main_v63) = val_main_v66 (F := Ideal) (m ((c : Thread nD τ).loc main_arg0)) (m ((c : Thread nD τ).loc main_arg2)) (m ((c : Thread nD τ).loc main_arg3)) (m ((c : Thread nD τ).loc main_arg4)) (m ((c : Thread nD τ).loc main_arg7)) (m ((c : Thread nD τ).loc main_arg11)) := by
  show StableHlo.after hostOps3 (W8 m ρ c) (Proc.devRef .tc main_v63) = _
  after_results_simp
  rw [a2_proj m ρ c, a2_sources m ρ c, a2_targets m ρ c, a2_weights m ρ c]
  rfl

/-- The bias, reshaped to one row. -/
theorem a2_b (c : Dev nD) :
    W9 m ρ c (Proc.devRef .tc main_v64) = (shapeCast S1x128 (m ((c : Thread nD τ).loc main_arg8)) shapeCasts_S128_S1x128 : FVec Ideal S1x128 .f32) := by
  show StableHlo.after hostOps3 (W8 m ρ c) (Proc.devRef .tc main_v64) = _
  after_results
  rw [show W8 m ρ c (Proc.devRef .tc main_arg8) = (m ((c : Thread nD τ).loc main_arg8)) from Kept.keep_main_arg8_8 m ρ c]
  rfl

/-- The rectifier's slope, reshaped to one row. -/
theorem a2_a (c : Dev nD) :
    W9 m ρ c (Proc.devRef .tc main_v65) = (shapeCast S1x128 (m ((c : Thread nD τ).loc main_arg12)) shapeCasts_S128_S1x128 : FVec Ideal S1x128 .f32) := by
  show StableHlo.after hostOps3 (W8 m ρ c) (Proc.devRef .tc main_v65) = _
  after_results
  rw [show W8 m ρ c (Proc.devRef .tc main_arg12) = (m ((c : Thread nD τ).loc main_arg12)) from Kept.keep_main_arg12_8 m ρ c]
  rfl

/-- After the second launch the layer's output holds the reference's bias-and-rectifier stage. -/
theorem a2_out (c : Dev nD) : W10 m ρ c (Proc.devRef .tc main_v66) = val_main_v75 (F := Ideal) (m ((c : Thread nD τ).loc main_arg0)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg11)) (m ((c : Thread nD τ).loc main_arg12)) := by
  refine ((W10_arr m ρ c 3).trans (Blocks.bp3_final (V9 m ρ) c)).trans ?_
  rw [show V9 m ρ c main_v63 = val_main_v66 (F := Ideal) (m ((c : Thread nD τ).loc main_arg0)) (m ((c : Thread nD τ).loc main_arg2)) (m ((c : Thread nD τ).loc main_arg3)) (m ((c : Thread nD τ).loc main_arg4)) (m ((c : Thread nD τ).loc main_arg7)) (m ((c : Thread nD τ).loc main_arg11)) from a2_agg m ρ c,
    show V9 m ρ c main_v64 = (shapeCast S1x128 (m ((c : Thread nD τ).loc main_arg8)) shapeCasts_S128_S1x128 : FVec Ideal S1x128 .f32) from a2_b m ρ c,
    show V9 m ρ c main_v65 = (shapeCast S1x128 (m ((c : Thread nD τ).loc main_arg12)) shapeCasts_S128_S1x128 : FVec Ideal S1x128 .f32) from a2_a m ρ c]
  exact (biasPrelu_host (val_main_v66 (F := Ideal) (m ((c : Thread nD τ).loc main_arg0)) (m ((c : Thread nD τ).loc main_arg2)) (m ((c : Thread nD τ).loc main_arg3)) (m ((c : Thread nD τ).loc main_arg4)) (m ((c : Thread nD τ).loc main_arg7)) (m ((c : Thread nD τ).loc main_arg11))) (m ((c : Thread nD τ).loc main_arg8)) (m ((c : Thread nD τ).loc main_arg12)) _ _ _
    shapeCasts_S128_S1x128).symm

end Cert.KernelIdeal.Fold

end
-- ==== Proof.Proj6.lean ====
/-
  Launch 6: a matrix product computed ten row blocks at a time.

  The left operand [50000, 128] is cut into ten blocks of 5000 rows; grid point t multiplies block t by the whole
  right operand [128, 128], accumulating from zero, and writes the 5000 x 128 result to rows 5000 t … 5000 t + 4999 of
  the output. Entry (p, q) of the product of block t is entry (5000 t + p, q) of the product of the whole arrays,
  because a row of a product depends only on that row of the left operand. The ten blocks tile the output, so
  after the launch the output array is the product of the two arrays as the launch found them.
-/
import proofs.«123922_j71399536328730_2_alg».proof.Proof.Gen.KernelIdeal.Frame
import proofs.«123922_j71399536328730_2_alg».proof.Proof.Spec

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Cert.GraphFusion
open Idealize.ShloMosaic.Pipeline (Dat)

variable (V : (c : Dev nD) → (b : Ref sig .tc) → Buf (Elt Ideal) ((c : Thread nD τ).loc b))

theorem proj6_zeros : (![0, 0] : Fin 2 → Nat) = fun _ => 0 := funext fun a => by fin_cases a <;> rfl

/-- The body's arithmetic is the product of its two loaded blocks. -/
theorem proj6_payload (x0 : Vec Ideal S5000x128 .bf16) (x1 : Vec Ideal S128x128 .bf16) :
    k6_pay1 (F := Ideal) x0 x1 = product (φ₁ := .bf16) (φ₂ := .bf16) x0 x1 := by
  unfold k6_pay1
  simp only [shapeCast_self]
  exact matmul_zero_eq_product dot_S5000x128_S128x128_S5000x128_1_0_0_1_n_n rfl rfl rfl rfl rfl rfl rfl rfl none x0 x1

/-- The index maps over the grid: the left operand and the output move down one block of rows per point, the right
    operand stays. -/
theorem proj6_index : ∀ t : Fin cfg6.N, t.val < 10
    ∧ win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- What point t writes back is block t of the product of the two arrays as the launch finds them. -/
theorem proj6_flushed (c : Dev nD) (t : Fin cfg6.N) :
    (dat6 V c).flushed 2 t = ((cfg6.win 2).blk t).view.read (Elt Ideal) (product (φ₁ := .bf16) (φ₂ := .bf16) (V c main_v85) (V c main_v86)) := by
  show (cfg6.win 2).cut (grid6.coords t) ((dat6 V c).after 2 t) = _
  rw [after6_2]
  unfold out6_2
  rw [View.canon_unit_zero proj6_zeros]
  simp only [View.ld_unit_zero (S := S5000x128) proj6_zeros, View.ld_unit_zero (S := S128x128) proj6_zeros]
  obtain ⟨ht, e0, e1, e2, e3, e4, e5⟩ := proj6_index t
  funext j
  obtain ⟨p, q, rfl⟩ : ∃ (p : Fin 5000) (q : Fin 128), j = ix2 p q := ⟨j 0, j 1, eq_ix2 j⟩
  have hp : p.val < 5000 := p.isLt
  show k6_pay1 (iblk6 V c 0 t) (iblk6 V c 1 t) (ix2 p q)
    = product (φ₁ := .bf16) (φ₂ := .bf16) (V c main_v85) (V c main_v86) (((cfg6.win 2).blk t).view.emb (ix2 p q))
  refine (congrFun (proj6_payload (iblk6 V c 0 t) (iblk6 V c 1 t)) (ix2 p q)).trans ?_
  have hrow : ((cfg6.win 2).blk t).view.emb (ix2 p q) = ix2 (⟨t.val * 5000 + p.val, by omega⟩ : Fin 50000) q := by
    funext a; apply Fin.ext
    match a with
    | ⟨0, _⟩ => show win6_2.index t (0 : Fin 2) * 5000 + 1 * p.val = t.val * 5000 + p.val; omega
    | ⟨1, _⟩ => show win6_2.index t (1 : Fin 2) * 128 + 1 * q.val = q.val; omega
  rw [hrow]
  refine product_rows (φ₁ := .bf16) (φ₂ := .bf16) (V c main_v85) (V c main_v86) (iblk6 V c 0 t) (iblk6 V c 1 t) p _ q (fun k => ?_) (fun k => ?_)
  · show V c main_v85 (((cfg6.win 0).blk t).view.emb (ix2 p k)) = V c main_v85 (ix2 (⟨t.val * 5000 + p.val, by omega⟩ : Fin 50000) k)
    refine congrArg _ (funext fun a => Fin.ext ?_)
    match a with
    | ⟨0, _⟩ => show win6_0.index t (0 : Fin 2) * 5000 + 1 * p.val = t.val * 5000 + p.val; omega
    | ⟨1, _⟩ => show win6_0.index t (1 : Fin 2) * 128 + 1 * k.val = k.val; omega
  · show V c main_v86 (((cfg6.win 1).blk t).view.emb (ix2 k q)) = V c main_v86 (ix2 k q)
    refine congrArg _ (funext fun a => Fin.ext ?_)
    match a with
    | ⟨0, _⟩ => show win6_1.index t (0 : Fin 2) * 128 + 1 * k.val = k.val; omega
    | ⟨1, _⟩ => show win6_1.index t (1 : Fin 2) * 128 + 1 * q.val = q.val; omega

/-- An index of the output is in point t's block iff each coordinate is in the block's range on its axis. -/
theorem proj6_mem (t : Fin cfg6.N) (i : S50000x128.Idx) :
    i ∈ ((cfg6.win 2).blk t).view.set ↔ ∀ a : Fin 2, win6_2.index t a * S5000x128.size a ≤ (i a).val
      ∧ (i a).val < win6_2.index t a * S5000x128.size a + S5000x128.size a := by
  show i ∈ ((View.whole main_v87).slice (win6_2.rect t)).set ↔ _
  rw [View.set_slice_whole, Rect.mem_set_unit]
  exact Iff.rfl

/-- Every block of rows is some point's. -/
theorem proj6_onto : ∀ r : Fin 10, ∃ t : Fin cfg6.N, win6_2.index t = ![r.val, 0] :=
  (by decide +kernel : ∀ r : Fin 10, ∃ t : Fin grid6.N, win6_2.index t = ![r.val, 0])

/-- Row r of the output lies in the block of point r / 5000: the ten blocks cover the output. -/
theorem proj6_cover (i : S50000x128.Idx) :
    ∃ t : Fin cfg6.N, (cfg6.win 2).flush t = true ∧ i ∈ ((cfg6.win 2).blk t).view.set := by
  have hi0 : (i 0).val < 50000 := (i 0).isLt
  have hi1 : (i 1).val < 128 := (i 1).isLt
  obtain ⟨t, ht⟩ := proj6_onto ⟨(i 0).val / 5000, by omega⟩
  have q0 : win6_2.index t (0 : Fin 2) = (i 0).val / 5000 := congrFun ht 0
  have q1 : win6_2.index t (1 : Fin 2) = 0 := congrFun ht 1
  refine ⟨t, flush6_2 t, ?_⟩
  rw [proj6_mem]
  intro a
  match a with
  | ⟨0, _⟩ =>
    show win6_2.index t (0 : Fin 2) * 5000 ≤ (i 0).val ∧ (i 0).val < win6_2.index t (0 : Fin 2) * 5000 + 5000
    omega
  | ⟨1, _⟩ =>
    show win6_2.index t (1 : Fin 2) * 128 ≤ (i 1).val ∧ (i 1).val < win6_2.index t (1 : Fin 2) * 128 + 128
    omega

/-- After the launch the output array is the product of the two arrays as the launch found them. -/
theorem proj6_final (c : Dev nD) : (dat6 V c).arrAt 2 cfg6.N = product (φ₁ := .bf16) (φ₂ := .bf16) (V c main_v85) (V c main_v86) :=
  (dat6 V c).arrAt_eq_of_cover 2 _ (fun t _ => proj6_flushed V c t) (proj6_cover)

end Cert.KernelIdeal.Blocks

end
-- ==== Proof.BiasPrelu7.lean ====
/-
  Launch 7: bias and parametric rectifier, ten row blocks at a time.

  The input [50000, 128] is cut into ten blocks of 5000 rows; grid point t adds the bias row to every row of block t,
  keeps each sum v where v ≥ 0 and replaces it by slope · v elsewhere, and writes the block to the same rows of the
  output. The map acts entry by entry (the bias and the slope depend on the column only), so block t of the result is
  the result of block t, and the ten blocks tile the output: after the launch the output array is the map of the
  whole input with the bias and slope rows as the launch found them.
-/
import proofs.«123922_j71399536328730_2_alg».proof.Proof.Gen.KernelIdeal.Frame
import proofs.«123922_j71399536328730_2_alg».proof.Proof.Spec

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Cert.GraphFusion
open Idealize.ShloMosaic.Pipeline (Dat)

variable (V : (c : Dev nD) → (b : Ref sig .tc) → Buf (Elt Ideal) ((c : Thread nD τ).loc b))

theorem bp7_zeros : (![0, 0] : Fin 2 → Nat) = fun _ => 0 := funext fun a => by fin_cases a <;> rfl

/-- The body's arithmetic is bias-and-rectifier of its loaded block with its loaded rows. -/
theorem bp7_payload (x0 : Vec Ideal S5000x128 .f32) (x1 x2 : Vec Ideal S1x128 .f32) :
    k7_pay1 (F := Ideal) x0 x1 x2 = biasPrelu x0 x1 x2 := by
  unfold k7_pay1
  simp only [shapeCast_self]
  exact biasPrelu_tree x0 x1 x2 broadcasts_S1x128_S5000x128

/-- The index maps over the grid: the input and the output move down one block of rows per point, the two rows stay. -/
theorem bp7_index : ∀ t : Fin cfg7.N, t.val < 10
    ∧ win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- What point t writes back is block t of bias-and-rectifier of the arrays as the launch finds them. -/
theorem bp7_flushed (c : Dev nD) (t : Fin cfg7.N) :
    (dat7 V c).flushed 3 t
      = ((cfg7.win 3).blk t).view.read (Elt Ideal) (biasPrelu (V c main_v99) (V c main_v100) (V c main_v101)) := by
  show (cfg7.win 3).cut (grid7.coords t) ((dat7 V c).after 3 t) = _
  rw [after7_3]
  unfold out7_3
  rw [View.canon_unit_zero bp7_zeros]
  simp only [View.ld_unit_zero (S := S5000x128) bp7_zeros, View.ld_unit_zero (S := S1x128) bp7_zeros]
  obtain ⟨ht, e0, e1, e2, e3, e4, e5, e6, e7⟩ := bp7_index t
  funext j
  obtain ⟨p, q, rfl⟩ : ∃ (p : Fin 5000) (q : Fin 128), j = ix2 p q := ⟨j 0, j 1, eq_ix2 j⟩
  have hp : p.val < 5000 := p.isLt
  show k7_pay1 (iblk7 V c 0 t) (iblk7 V c 1 t) (iblk7 V c 2 t) (ix2 p q)
    = biasPrelu (V c main_v99) (V c main_v100) (V c main_v101) (((cfg7.win 3).blk t).view.emb (ix2 p q))
  refine (congrFun (bp7_payload (iblk7 V c 0 t) (iblk7 V c 1 t) (iblk7 V c 2 t)) (ix2 p q)).trans ?_
  have hrow : ((cfg7.win 3).blk t).view.emb (ix2 p q) = ix2 (⟨t.val * 5000 + p.val, by omega⟩ : Fin 50000) q := by
    funext a; apply Fin.ext
    match a with
    | ⟨0, _⟩ => show win7_3.index t (0 : Fin 2) * 5000 + 1 * p.val = t.val * 5000 + p.val; omega
    | ⟨1, _⟩ => show win7_3.index t (1 : Fin 2) * 128 + 1 * q.val = q.val; omega
  rw [hrow]
  have hb : iblk7 V c 1 t = V c main_v100 := by
    funext y
    show V c main_v100 (((cfg7.win 1).blk t).view.emb y) = V c main_v100 y
    refine congrArg _ (funext fun a => Fin.ext ?_)
    match a with
    | ⟨0, _⟩ => show win7_1.index t (0 : Fin 2) * 1 + 1 * (y 0).val = (y 0).val; omega
    | ⟨1, _⟩ => show win7_1.index t (1 : Fin 2) * 128 + 1 * (y 1).val = (y 1).val; omega
  have ha : iblk7 V c 2 t = V c main_v101 := by
    funext y
    show V c main_v101 (((cfg7.win 2).blk t).view.emb y) = V c main_v101 y
    refine congrArg _ (funext fun a => Fin.ext ?_)
    match a with
    | ⟨0, _⟩ => show win7_2.index t (0 : Fin 2) * 1 + 1 * (y 0).val = (y 0).val; omega
    | ⟨1, _⟩ => show win7_2.index t (1 : Fin 2) * 128 + 1 * (y 1).val = (y 1).val; omega
  rw [hb, ha]
  refine biasPrelu_rows (V c main_v99) (iblk7 V c 0 t) (V c main_v100) (V c main_v101) p _ q ?_
  show V c main_v99 (((cfg7.win 0).blk t).view.emb (ix2 p q)) = V c main_v99 (ix2 (⟨t.val * 5000 + p.val, by omega⟩ : Fin 50000) q)
  refine congrArg _ (funext fun a => Fin.ext ?_)
  match a with
  | ⟨0, _⟩ => show win7_0.index t (0 : Fin 2) * 5000 + 1 * p.val = t.val * 5000 + p.val; omega
  | ⟨1, _⟩ => show win7_0.index t (1 : Fin 2) * 128 + 1 * q.val = q.val; omega

/-- An index of the output is in point t's block iff each coordinate is in the block's range on its axis. -/
theorem bp7_mem (t : Fin cfg7.N) (i : S50000x128.Idx) :
    i ∈ ((cfg7.win 3).blk t).view.set ↔ ∀ a : Fin 2, win7_3.index t a * S5000x128.size a ≤ (i a).val
      ∧ (i a).val < win7_3.index t a * S5000x128.size a + S5000x128.size a := by
  show i ∈ ((View.whole main_v102).slice (win7_3.rect t)).set ↔ _
  rw [View.set_slice_whole, Rect.mem_set_unit]
  exact Iff.rfl

/-- Every block of rows is some point's. -/
theorem bp7_onto : ∀ r : Fin 10, ∃ t : Fin cfg7.N, win7_3.index t = ![r.val, 0] :=
  (by decide +kernel : ∀ r : Fin 10, ∃ t : Fin grid7.N, win7_3.index t = ![r.val, 0])

/-- Row r of the output lies in the block of point r / 5000: the ten blocks cover the output. -/
theorem bp7_cover (i : S50000x128.Idx) :
    ∃ t : Fin cfg7.N, (cfg7.win 3).flush t = true ∧ i ∈ ((cfg7.win 3).blk t).view.set := by
  have hi0 : (i 0).val < 50000 := (i 0).isLt
  have hi1 : (i 1).val < 128 := (i 1).isLt
  obtain ⟨t, ht⟩ := bp7_onto ⟨(i 0).val / 5000, by omega⟩
  have q0 : win7_3.index t (0 : Fin 2) = (i 0).val / 5000 := congrFun ht 0
  have q1 : win7_3.index t (1 : Fin 2) = 0 := congrFun ht 1
  refine ⟨t, flush7_3 t, ?_⟩
  rw [bp7_mem]
  intro a
  match a with
  | ⟨0, _⟩ =>
    show win7_3.index t (0 : Fin 2) * 5000 ≤ (i 0).val ∧ (i 0).val < win7_3.index t (0 : Fin 2) * 5000 + 5000
    omega
  | ⟨1, _⟩ =>
    show win7_3.index t (1 : Fin 2) * 128 ≤ (i 1).val ∧ (i 1).val < win7_3.index t (1 : Fin 2) * 128 + 128
    omega

/-- After the launch the output array is bias-and-rectifier of the arrays as the launch found them. -/
theorem bp7_final (c : Dev nD) :
    (dat7 V c).arrAt 3 cfg7.N = biasPrelu (V c main_v99) (V c main_v100) (V c main_v101) :=
  (dat7 V c).arrAt_eq_of_cover 3 _ (fun t _ => bp7_flushed V c t) (bp7_cover)

end Cert.KernelIdeal.Blocks

end
-- ==== Proof.Proj4.lean ====
/-
  Launch 4: a matrix product computed ten row blocks at a time.

  The left operand [50000, 128] is cut into ten blocks of 5000 rows; grid point t multiplies block t by the whole
  right operand [128, 128], accumulating from zero, and writes the 5000 x 128 result to rows 5000 t … 5000 t + 4999 of
  the output. Entry (p, q) of the product of block t is entry (5000 t + p, q) of the product of the whole arrays,
  because a row of a product depends only on that row of the left operand. The ten blocks tile the output, so
  after the launch the output array is the product of the two arrays as the launch found them.
-/
import proofs.«123922_j71399536328730_2_alg».proof.Proof.Gen.KernelIdeal.Frame
import proofs.«123922_j71399536328730_2_alg».proof.Proof.Spec

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Cert.GraphFusion
open Idealize.ShloMosaic.Pipeline (Dat)

variable (V : (c : Dev nD) → (b : Ref sig .tc) → Buf (Elt Ideal) ((c : Thread nD τ).loc b))

theorem proj4_zeros : (![0, 0] : Fin 2 → Nat) = fun _ => 0 := funext fun a => by fin_cases a <;> rfl

/-- The body's arithmetic is the product of its two loaded blocks. -/
theorem proj4_payload (x0 : Vec Ideal S5000x128 .bf16) (x1 : Vec Ideal S128x128 .bf16) :
    k4_pay1 (F := Ideal) x0 x1 = product (φ₁ := .bf16) (φ₂ := .bf16) x0 x1 := by
  unfold k4_pay1
  simp only [shapeCast_self]
  exact matmul_zero_eq_product dot_S5000x128_S128x128_S5000x128_1_0_0_1_n_n rfl rfl rfl rfl rfl rfl rfl rfl none x0 x1

/-- The index maps over the grid: the left operand and the output move down one block of rows per point, the right
    operand stays. -/
theorem proj4_index : ∀ t : Fin cfg4.N, t.val < 10
    ∧ win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point t writes back is block t of the product of the two arrays as the launch finds them. -/
theorem proj4_flushed (c : Dev nD) (t : Fin cfg4.N) :
    (dat4 V c).flushed 2 t = ((cfg4.win 2).blk t).view.read (Elt Ideal) (product (φ₁ := .bf16) (φ₂ := .bf16) (V c main_v67) (V c main_v68)) := by
  show (cfg4.win 2).cut (grid4.coords t) ((dat4 V c).after 2 t) = _
  rw [after4_2]
  unfold out4_2
  rw [View.canon_unit_zero proj4_zeros]
  simp only [View.ld_unit_zero (S := S5000x128) proj4_zeros, View.ld_unit_zero (S := S128x128) proj4_zeros]
  obtain ⟨ht, e0, e1, e2, e3, e4, e5⟩ := proj4_index t
  funext j
  obtain ⟨p, q, rfl⟩ : ∃ (p : Fin 5000) (q : Fin 128), j = ix2 p q := ⟨j 0, j 1, eq_ix2 j⟩
  have hp : p.val < 5000 := p.isLt
  show k4_pay1 (iblk4 V c 0 t) (iblk4 V c 1 t) (ix2 p q)
    = product (φ₁ := .bf16) (φ₂ := .bf16) (V c main_v67) (V c main_v68) (((cfg4.win 2).blk t).view.emb (ix2 p q))
  refine (congrFun (proj4_payload (iblk4 V c 0 t) (iblk4 V c 1 t)) (ix2 p q)).trans ?_
  have hrow : ((cfg4.win 2).blk t).view.emb (ix2 p q) = ix2 (⟨t.val * 5000 + p.val, by omega⟩ : Fin 50000) q := by
    funext a; apply Fin.ext
    match a with
    | ⟨0, _⟩ => show win4_2.index t (0 : Fin 2) * 5000 + 1 * p.val = t.val * 5000 + p.val; omega
    | ⟨1, _⟩ => show win4_2.index t (1 : Fin 2) * 128 + 1 * q.val = q.val; omega
  rw [hrow]
  refine product_rows (φ₁ := .bf16) (φ₂ := .bf16) (V c main_v67) (V c main_v68) (iblk4 V c 0 t) (iblk4 V c 1 t) p _ q (fun k => ?_) (fun k => ?_)
  · show V c main_v67 (((cfg4.win 0).blk t).view.emb (ix2 p k)) = V c main_v67 (ix2 (⟨t.val * 5000 + p.val, by omega⟩ : Fin 50000) k)
    refine congrArg _ (funext fun a => Fin.ext ?_)
    match a with
    | ⟨0, _⟩ => show win4_0.index t (0 : Fin 2) * 5000 + 1 * p.val = t.val * 5000 + p.val; omega
    | ⟨1, _⟩ => show win4_0.index t (1 : Fin 2) * 128 + 1 * k.val = k.val; omega
  · show V c main_v68 (((cfg4.win 1).blk t).view.emb (ix2 k q)) = V c main_v68 (ix2 k q)
    refine congrArg _ (funext fun a => Fin.ext ?_)
    match a with
    | ⟨0, _⟩ => show win4_1.index t (0 : Fin 2) * 128 + 1 * k.val = k.val; omega
    | ⟨1, _⟩ => show win4_1.index t (1 : Fin 2) * 128 + 1 * q.val = q.val; omega

/-- An index of the output is in point t's block iff each coordinate is in the block's range on its axis. -/
theorem proj4_mem (t : Fin cfg4.N) (i : S50000x128.Idx) :
    i ∈ ((cfg4.win 2).blk t).view.set ↔ ∀ a : Fin 2, win4_2.index t a * S5000x128.size a ≤ (i a).val
      ∧ (i a).val < win4_2.index t a * S5000x128.size a + S5000x128.size a := by
  show i ∈ ((View.whole main_v69).slice (win4_2.rect t)).set ↔ _
  rw [View.set_slice_whole, Rect.mem_set_unit]
  exact Iff.rfl

/-- Every block of rows is some point's. -/
theorem proj4_onto : ∀ r : Fin 10, ∃ t : Fin cfg4.N, win4_2.index t = ![r.val, 0] :=
  (by decide +kernel : ∀ r : Fin 10, ∃ t : Fin grid4.N, win4_2.index t = ![r.val, 0])

/-- Row r of the output lies in the block of point r / 5000: the ten blocks cover the output. -/
theorem proj4_cover (i : S50000x128.Idx) :
    ∃ t : Fin cfg4.N, (cfg4.win 2).flush t = true ∧ i ∈ ((cfg4.win 2).blk t).view.set := by
  have hi0 : (i 0).val < 50000 := (i 0).isLt
  have hi1 : (i 1).val < 128 := (i 1).isLt
  obtain ⟨t, ht⟩ := proj4_onto ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [proj4_mem]
  intro a
  match a with
  | ⟨0, _⟩ =>
    show win4_2.index t (0 : Fin 2) * 5000 ≤ (i 0).val ∧ (i 0).val < win4_2.index t (0 : Fin 2) * 5000 + 5000
    omega
  | ⟨1, _⟩ =>
    show win4_2.index t (1 : Fin 2) * 128 ≤ (i 1).val ∧ (i 1).val < win4_2.index t (1 : Fin 2) * 128 + 128
    omega

/-- After the launch the output array is the product of the two arrays as the launch found them. -/
theorem proj4_final (c : Dev nD) : (dat4 V c).arrAt 2 cfg4.N = product (φ₁ := .bf16) (φ₂ := .bf16) (V c main_v67) (V c main_v68) :=
  (dat4 V c).arrAt_eq_of_cover 2 _ (fun t _ => proj4_flushed V c t) (proj4_cover)

end Cert.KernelIdeal.Blocks

end
-- ==== Proof.BiasPrelu5.lean ====
/-
  Launch 5: bias and parametric rectifier, ten row blocks at a time.

  The input [50000, 128] is cut into ten blocks of 5000 rows; grid point t adds the bias row to every row of block t,
  keeps each sum v where v ≥ 0 and replaces it by slope · v elsewhere, and writes the block to the same rows of the
  output. The map acts entry by entry (the bias and the slope depend on the column only), so block t of the result is
  the result of block t, and the ten blocks tile the output: after the launch the output array is the map of the
  whole input with the bias and slope rows as the launch found them.
-/
import proofs.«123922_j71399536328730_2_alg».proof.Proof.Gen.KernelIdeal.Frame
import proofs.«123922_j71399536328730_2_alg».proof.Proof.Spec

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Cert.GraphFusion
open Idealize.ShloMosaic.Pipeline (Dat)

variable (V : (c : Dev nD) → (b : Ref sig .tc) → Buf (Elt Ideal) ((c : Thread nD τ).loc b))

theorem bp5_zeros : (![0, 0] : Fin 2 → Nat) = fun _ => 0 := funext fun a => by fin_cases a <;> rfl

/-- The body's arithmetic is bias-and-rectifier of its loaded block with its loaded rows. -/
theorem bp5_payload (x0 : Vec Ideal S5000x128 .f32) (x1 x2 : Vec Ideal S1x128 .f32) :
    k5_pay1 (F := Ideal) x0 x1 x2 = biasPrelu x0 x1 x2 := by
  unfold k5_pay1
  simp only [shapeCast_self]
  exact biasPrelu_tree x0 x1 x2 broadcasts_S1x128_S5000x128

/-- The index maps over the grid: the input and the output move down one block of rows per point, the two rows stay. -/
theorem bp5_index : ∀ t : Fin cfg5.N, t.val < 10
    ∧ win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- What point t writes back is block t of bias-and-rectifier of the arrays as the launch finds them. -/
theorem bp5_flushed (c : Dev nD) (t : Fin cfg5.N) :
    (dat5 V c).flushed 3 t
      = ((cfg5.win 3).blk t).view.read (Elt Ideal) (biasPrelu (V c main_v81) (V c main_v82) (V c main_v83)) := by
  show (cfg5.win 3).cut (grid5.coords t) ((dat5 V c).after 3 t) = _
  rw [after5_3]
  unfold out5_3
  rw [View.canon_unit_zero bp5_zeros]
  simp only [View.ld_unit_zero (S := S5000x128) bp5_zeros, View.ld_unit_zero (S := S1x128) bp5_zeros]
  obtain ⟨ht, e0, e1, e2, e3, e4, e5, e6, e7⟩ := bp5_index t
  funext j
  obtain ⟨p, q, rfl⟩ : ∃ (p : Fin 5000) (q : Fin 128), j = ix2 p q := ⟨j 0, j 1, eq_ix2 j⟩
  have hp : p.val < 5000 := p.isLt
  show k5_pay1 (iblk5 V c 0 t) (iblk5 V c 1 t) (iblk5 V c 2 t) (ix2 p q)
    = biasPrelu (V c main_v81) (V c main_v82) (V c main_v83) (((cfg5.win 3).blk t).view.emb (ix2 p q))
  refine (congrFun (bp5_payload (iblk5 V c 0 t) (iblk5 V c 1 t) (iblk5 V c 2 t)) (ix2 p q)).trans ?_
  have hrow : ((cfg5.win 3).blk t).view.emb (ix2 p q) = ix2 (⟨t.val * 5000 + p.val, by omega⟩ : Fin 50000) q := by
    funext a; apply Fin.ext
    match a with
    | ⟨0, _⟩ => show win5_3.index t (0 : Fin 2) * 5000 + 1 * p.val = t.val * 5000 + p.val; omega
    | ⟨1, _⟩ => show win5_3.index t (1 : Fin 2) * 128 + 1 * q.val = q.val; omega
  rw [hrow]
  have hb : iblk5 V c 1 t = V c main_v82 := by
    funext y
    show V c main_v82 (((cfg5.win 1).blk t).view.emb y) = V c main_v82 y
    refine congrArg _ (funext fun a => Fin.ext ?_)
    match a with
    | ⟨0, _⟩ => show win5_1.index t (0 : Fin 2) * 1 + 1 * (y 0).val = (y 0).val; omega
    | ⟨1, _⟩ => show win5_1.index t (1 : Fin 2) * 128 + 1 * (y 1).val = (y 1).val; omega
  have ha : iblk5 V c 2 t = V c main_v83 := by
    funext y
    show V c main_v83 (((cfg5.win 2).blk t).view.emb y) = V c main_v83 y
    refine congrArg _ (funext fun a => Fin.ext ?_)
    match a with
    | ⟨0, _⟩ => show win5_2.index t (0 : Fin 2) * 1 + 1 * (y 0).val = (y 0).val; omega
    | ⟨1, _⟩ => show win5_2.index t (1 : Fin 2) * 128 + 1 * (y 1).val = (y 1).val; omega
  rw [hb, ha]
  refine biasPrelu_rows (V c main_v81) (iblk5 V c 0 t) (V c main_v82) (V c main_v83) p _ q ?_
  show V c main_v81 (((cfg5.win 0).blk t).view.emb (ix2 p q)) = V c main_v81 (ix2 (⟨t.val * 5000 + p.val, by omega⟩ : Fin 50000) q)
  refine congrArg _ (funext fun a => Fin.ext ?_)
  match a with
  | ⟨0, _⟩ => show win5_0.index t (0 : Fin 2) * 5000 + 1 * p.val = t.val * 5000 + p.val; omega
  | ⟨1, _⟩ => show win5_0.index t (1 : Fin 2) * 128 + 1 * q.val = q.val; omega

/-- An index of the output is in point t's block iff each coordinate is in the block's range on its axis. -/
theorem bp5_mem (t : Fin cfg5.N) (i : S50000x128.Idx) :
    i ∈ ((cfg5.win 3).blk t).view.set ↔ ∀ a : Fin 2, win5_3.index t a * S5000x128.size a ≤ (i a).val
      ∧ (i a).val < win5_3.index t a * S5000x128.size a + S5000x128.size a := by
  show i ∈ ((View.whole main_v84).slice (win5_3.rect t)).set ↔ _
  rw [View.set_slice_whole, Rect.mem_set_unit]
  exact Iff.rfl

/-- Every block of rows is some point's. -/
theorem bp5_onto : ∀ r : Fin 10, ∃ t : Fin cfg5.N, win5_3.index t = ![r.val, 0] :=
  (by decide +kernel : ∀ r : Fin 10, ∃ t : Fin grid5.N, win5_3.index t = ![r.val, 0])

/-- Row r of the output lies in the block of point r / 5000: the ten blocks cover the output. -/
theorem bp5_cover (i : S50000x128.Idx) :
    ∃ t : Fin cfg5.N, (cfg5.win 3).flush t = true ∧ i ∈ ((cfg5.win 3).blk t).view.set := by
  have hi0 : (i 0).val < 50000 := (i 0).isLt
  have hi1 : (i 1).val < 128 := (i 1).isLt
  obtain ⟨t, ht⟩ := bp5_onto ⟨(i 0).val / 5000, by omega⟩
  have q0 : win5_3.index t (0 : Fin 2) = (i 0).val / 5000 := congrFun ht 0
  have q1 : win5_3.index t (1 : Fin 2) = 0 := congrFun ht 1
  refine ⟨t, flush5_3 t, ?_⟩
  rw [bp5_mem]
  intro a
  match a with
  | ⟨0, _⟩ =>
    show win5_3.index t (0 : Fin 2) * 5000 ≤ (i 0).val ∧ (i 0).val < win5_3.index t (0 : Fin 2) * 5000 + 5000
    omega
  | ⟨1, _⟩ =>
    show win5_3.index t (1 : Fin 2) * 128 ≤ (i 1).val ∧ (i 1).val < win5_3.index t (1 : Fin 2) * 128 + 128
    omega

/-- After the launch the output array is bias-and-rectifier of the arrays as the launch found them. -/
theorem bp5_final (c : Dev nD) :
    (dat5 V c).arrAt 3 cfg5.N = biasPrelu (V c main_v81) (V c main_v82) (V c main_v83) :=
  (dat5 V c).arrAt_eq_of_cover 3 _ (fun t _ => bp5_flushed V c t) (bp5_cover)

end Cert.KernelIdeal.Blocks

end
-- ==== Proof.Layer_b1.lean ====
/-
  One graph-convolution layer of the program, read against the reference's stages.

  The layer's input is narrowed and multiplied by its weight matrix in a launch; the host gathers the product's rows
  along the edges, scales them by the edge weights and sums them into their target nodes; a second launch adds the bias
  row and applies the parametric rectifier. The launch's product is the host's product of the un-narrowed arrays
  (narrowing is the identity on the extended reals; a row-blocked product is the product), the gather-scale-scatter
  stretch is the reference's own operations on the same tables, and bias-and-rectifier on rows is the reference's
  broadcast form. So each buffer the layer writes holds the reference's stage of the same arguments.
-/
import proofs.«123922_j71399536328730_2_alg».proof.Proof.Gen.KernelIdeal.Frame
import proofs.«123922_j71399536328730_2_alg».proof.Proof.RefRead
import proofs.«123922_j71399536328730_2_alg».proof.Proof.Spec
import proofs.«123922_j71399536328730_2_alg».proof.Proof.KeepTactic
import proofs.«123922_j71399536328730_2_alg».proof.Proof.KeepArgsA
import proofs.«123922_j71399536328730_2_alg».proof.Proof.KeepArgsB
import proofs.«123922_j71399536328730_2_alg».proof.Proof.KeepTables
import proofs.«123922_j71399536328730_2_alg».proof.Proof.Proj4
import proofs.«123922_j71399536328730_2_alg».proof.Proof.BiasPrelu5
import proofs.«123922_j71399536328730_2_alg».proof.Proof.Layer_a2

set_option maxRecDepth 16384

noncomputable section

namespace Cert.KernelIdeal.Fold

open Cert.KernelIdeal Cert.KernelIdeal.Gen Idealize.ShloMosaic Idealize.ShloMosaic.TcCoe Idealize.SL.Sem
open Idealize.ShloMosaic.StableHlo Idealize.ShloMosaic.ValueIdx Cert.GraphFusion
open Cert.ReferenceIdeal.ReadP

variable (m : (ℓ : Loc nD τ sig) → Buf (Elt Ideal) ℓ) (ρ : Dev nD → PrngReg)

/-- The launch's left operand: the layer's input, narrowed. -/
theorem b1_x (c : Dev nD) : W11 m ρ c (Proc.devRef .tc main_v67) = (truncf .bf16 (m ((c : Thread nD τ).loc main_arg1)) bitsLt_bf16_f32 : FVec Ideal S50000x128 .bf16) := by
  show StableHlo.after hostOps4 (W10 m ρ c) (Proc.devRef .tc main_v67) = _
  after_results
  rw [show W10 m ρ c (Proc.devRef .tc main_arg1) = (m ((c : Thread nD τ).loc main_arg1)) from Kept.keep_main_arg1_10 m ρ c]

/-- The launch's right operand: the layer's weight matrix, narrowed. -/
theorem b1_w (c : Dev nD) : W11 m ρ c (Proc.devRef .tc main_v68) = (truncf .bf16 (m ((c : Thread nD τ).loc main_arg5)) bitsLt_bf16_f32 : FVec Ideal S128x128 .bf16) := by
  show StableHlo.after hostOps4 (W10 m ρ c) (Proc.devRef .tc main_v68) = _
  after_results
  rw [show W10 m ρ c (Proc.devRef .tc main_arg5) = (m ((c : Thread nD τ).loc main_arg5)) from Kept.keep_main_arg5_10 m ρ c]

/-- After the launch the product buffer holds the reference's product of the un-narrowed arrays. -/
theorem b1_proj (c : Dev nD) : W12 m ρ c (Proc.devRef .tc main_v69) = val_main_v84 (F := Ideal) (m ((c : Thread nD τ).loc main_arg1)) (m ((c : Thread nD τ).loc main_arg5)) := by
  refine ((W12_arr m ρ c 2).trans (Blocks.proj4_final (V11 m ρ) c)).trans ?_
  rw [show V11 m ρ c main_v67 = (truncf .bf16 (m ((c : Thread nD τ).loc main_arg1)) bitsLt_bf16_f32 : FVec Ideal S50000x128 .bf16) from b1_x m ρ c,
    show V11 m ρ c main_v68 = (truncf .bf16 (m ((c : Thread nD τ).loc main_arg5)) bitsLt_bf16_f32 : FVec Ideal S128x128 .bf16) from b1_w m ρ c, product_truncf]
  unfold val_main_v84
  simp only [Host.dotGeneral]
  exact (dotGeneral_eq_product Cert.ReferenceIdeal.dot_S50000x128_S128x128_S50000x128_1_0_0_1_n_n rfl rfl rfl rfl rfl rfl rfl rfl _ _ _ _).symm
theorem b1_sources (c : Dev nD) : W12 m ρ c (Proc.devRef .tc main_v3) = val_main_v3 (F := Ideal) (m ((c : Thread nD τ).loc main_arg2)) :=
  (Kept.keep_main_v3_12_8 m ρ c).trans (a2_sources m ρ c)
theorem b1_targets (c : Dev nD) : W12 m ρ c (Proc.devRef .tc main_v6) = val_main_v6 (F := Ideal) (m ((c : Thread nD τ).loc main_arg2)) :=
  (Kept.keep_main_v6_12_8 m ρ c).trans (a2_targets m ρ c)
theorem b1_weights (c : Dev nD) : W12 m ρ c (Proc.devRef .tc main_v30) = val_main_v38 (F := Ideal) (m ((c : Thread nD τ).loc main_arg2)) :=
  (Kept.keep_main_v30_12_8 m ρ c).trans (a2_weights m ρ c)

/-- After the stretch the aggregation buffer holds the reference's gather-scale-scatter of the product. -/
theorem b1_agg (c : Dev nD) : W13 m ρ c (Proc.devRef .tc main_v81) = val_main_v97 (F := Ideal) (m ((c : Thread nD τ).loc main_arg1)) (m ((c : Thread nD τ).loc main_arg2)) (m ((c : Thread nD τ).loc main_arg5)) := by
  show StableHlo.after hostOps5 (W12 m ρ c) (Proc.devRef .tc main_v81) = _
  after_results_simp
  rw [b1_proj m ρ c, b1_sources m ρ c, b1_targets m ρ c, b1_weights m ρ c]
  rfl

/-- The bias, reshaped to one row. -/
theorem b1_b (c : Dev nD) :
    W13 m ρ c (Proc.devRef .tc main_v82) = (shapeCast S1x128 (m ((c : Thread nD τ).loc main_arg6)) shapeCasts_S128_S1x128 : FVec Ideal S1x128 .f32) := by
  show StableHlo.after hostOps5 (W12 m ρ c) (Proc.devRef .tc main_v82) = _
  after_results
  rw [show W12 m ρ c (Proc.devRef .tc main_arg6) = (m ((c : Thread nD τ).loc main_arg6)) from Kept.keep_main_arg6_12 m ρ c]
  rfl

/-- The rectifier's slope, reshaped to one row. -/
theorem b1_a (c : Dev nD) :
    W13 m ρ c (Proc.devRef .tc main_v83) = (shapeCast S1x128 (m ((c : Thread nD τ).loc main_arg13)) shapeCasts_S128_S1x128 : FVec Ideal S1x128 .f32) := by
  show StableHlo.after hostOps5 (W12 m ρ c) (Proc.devRef .tc main_v83) = _
  after_results
  rw [show W12 m ρ c (Proc.devRef .tc main_arg13) = (m ((c : Thread nD τ).loc main_arg13)) from Kept.keep_main_arg13_12 m ρ c]
  rfl

/-- After the second launch the layer's output holds the reference's bias-and-rectifier stage. -/
theorem b1_out (c : Dev nD) : W14 m ρ c (Proc.devRef .tc main_v84) = val_main_v106 (F := Ideal) (m ((c : Thread nD τ).loc main_arg1)) (m ((c : Thread nD τ).loc main_arg2)) (m ((c : Thread nD τ).loc main_arg5)) (m ((c : Thread nD τ).loc main_arg6)) (m ((c : Thread nD τ).loc main_arg13)) := by
  refine ((W14_arr m ρ c 3).trans (Blocks.bp5_final (V13 m ρ) c)).trans ?_
  rw [show V13 m ρ c main_v81 = val_main_v97 (F := Ideal) (m ((c : Thread nD τ).loc main_arg1)) (m ((c : Thread nD τ).loc main_arg2)) (m ((c : Thread nD τ).loc main_arg5)) from b1_agg m ρ c,
    show V13 m ρ c main_v82 = (shapeCast S1x128 (m ((c : Thread nD τ).loc main_arg6)) shapeCasts_S128_S1x128 : FVec Ideal S1x128 .f32) from b1_b m ρ c,
    show V13 m ρ c main_v83 = (shapeCast S1x128 (m ((c : Thread nD τ).loc main_arg13)) shapeCasts_S128_S1x128 : FVec Ideal S1x128 .f32) from b1_a m ρ c]
  exact (biasPrelu_host (val_main_v97 (F := Ideal) (m ((c : Thread nD τ).loc main_arg1)) (m ((c : Thread nD τ).loc main_arg2)) (m ((c : Thread nD τ).loc main_arg5))) (m ((c : Thread nD τ).loc main_arg6)) (m ((c : Thread nD τ).loc main_arg13)) _ _ _
    shapeCasts_S128_S1x128).symm

end Cert.KernelIdeal.Fold

end
-- ==== Proof.Layer_b2.lean ====
/-
  One graph-convolution layer of the program, read against the reference's stages.

  The layer's input is narrowed and multiplied by its weight matrix in a launch; the host gathers the product's rows
  along the edges, scales them by the edge weights and sums them into their target nodes; a second launch adds the bias
  row and applies the parametric rectifier. The launch's product is the host's product of the un-narrowed arrays
  (narrowing is the identity on the extended reals; a row-blocked product is the product), the gather-scale-scatter
  stretch is the reference's own operations on the same tables, and bias-and-rectifier on rows is the reference's
  broadcast form. So each buffer the layer writes holds the reference's stage of the same arguments.
-/
import proofs.«123922_j71399536328730_2_alg».proof.Proof.Gen.KernelIdeal.Frame
import proofs.«123922_j71399536328730_2_alg».proof.Proof.RefRead
import proofs.«123922_j71399536328730_2_alg».proof.Proof.Spec
import proofs.«123922_j71399536328730_2_alg».proof.Proof.KeepTactic
import proofs.«123922_j71399536328730_2_alg».proof.Proof.KeepArgsA
import proofs.«123922_j71399536328730_2_alg».proof.Proof.KeepArgsB
import proofs.«123922_j71399536328730_2_alg».proof.Proof.KeepTables
import proofs.«123922_j71399536328730_2_alg».proof.Proof.Proj6
import proofs.«123922_j71399536328730_2_alg».proof.Proof.BiasPrelu7
import proofs.«123922_j71399536328730_2_alg».proof.Proof.Layer_b1

set_option maxRecDepth 16384

noncomputable section

namespace Cert.KernelIdeal.Fold

open Cert.KernelIdeal Cert.KernelIdeal.Gen Idealize.ShloMosaic Idealize.ShloMosaic.TcCoe Idealize.SL.Sem
open Idealize.ShloMosaic.StableHlo Idealize.ShloMosaic.ValueIdx Cert.GraphFusion
open Cert.ReferenceIdeal.ReadP

variable (m : (ℓ : Loc nD τ sig) → Buf (Elt Ideal) ℓ) (ρ : Dev nD → PrngReg)

/-- The launch's left operand: the layer's input, narrowed. -/
theorem b2_x (c : Dev nD) : W15 m ρ c (Proc.devRef .tc main_v85) = (truncf .bf16 (val_main_v106 (F := Ideal) (m ((c : Thread nD τ).loc main_arg1)) (m ((c : Thread nD τ).loc main_arg2)) (m ((c : Thread nD τ).loc main_arg5)) (m ((c : Thread nD τ).loc main_arg6)) (m ((c : Thread nD τ).loc main_arg13))) bitsLt_bf16_f32 : FVec Ideal S50000x128 .bf16) := by
  show StableHlo.after hostOps6 (W14 m ρ c) (Proc.devRef .tc main_v85) = _
  after_results
  rw [show W14 m ρ c (Proc.devRef .tc main_v84) = (val_main_v106 (F := Ideal) (m ((c : Thread nD τ).loc main_arg1)) (m ((c : Thread nD τ).loc main_arg2)) (m ((c : Thread nD τ).loc main_arg5)) (m ((c : Thread nD τ).loc main_arg6)) (m ((c : Thread nD τ).loc main_arg13))) from b1_out m ρ c]

/-- The launch's right operand: the layer's weight matrix, narrowed. -/
theorem b2_w (c : Dev nD) : W15 m ρ c (Proc.devRef .tc main_v86) = (truncf .bf16 (m ((c : Thread nD τ).loc main_arg9)) bitsLt_bf16_f32 : FVec Ideal S128x128 .bf16) := by
  show StableHlo.after hostOps6 (W14 m ρ c) (Proc.devRef .tc main_v86) = _
  after_results
  rw [show W14 m ρ c (Proc.devRef .tc main_arg9) = (m ((c : Thread nD τ).loc main_arg9)) from Kept.keep_main_arg9_14 m ρ c]

/-- After the launch the product buffer holds the reference's product of the un-narrowed arrays. -/
theorem b2_proj (c : Dev nD) : W16 m ρ c (Proc.devRef .tc main_v87) = val_main_v107 (F := Ideal) (m ((c : Thread nD τ).loc main_arg1)) (m ((c : Thread nD τ).loc main_arg2)) (m ((c : Thread nD τ).loc main_arg5)) (m ((c : Thread nD τ).loc main_arg6)) (m ((c : Thread nD τ).loc main_arg9)) (m ((c : Thread nD τ).loc main_arg13)) := by
  refine ((W16_arr m ρ c 2).trans (Blocks.proj6_final (V15 m ρ) c)).trans ?_
  rw [show V15 m ρ c main_v85 = (truncf .bf16 (val_main_v106 (F := Ideal) (m ((c : Thread nD τ).loc main_arg1)) (m ((c : Thread nD τ).loc main_arg2)) (m ((c : Thread nD τ).loc main_arg5)) (m ((c : Thread nD τ).loc main_arg6)) (m ((c : Thread nD τ).loc main_arg13))) bitsLt_bf16_f32 : FVec Ideal S50000x128 .bf16) from b2_x m ρ c,
    show V15 m ρ c main_v86 = (truncf .bf16 (m ((c : Thread nD τ).loc main_arg9)) bitsLt_bf16_f32 : FVec Ideal S128x128 .bf16) from b2_w m ρ c, product_truncf]
  unfold val_main_v107
  simp only [Host.dotGeneral]
  exact (dotGeneral_eq_product Cert.ReferenceIdeal.dot_S50000x128_S128x128_S50000x128_1_0_0_1_n_n rfl rfl rfl rfl rfl rfl rfl rfl _ _ _ _).symm
theorem b2_sources (c : Dev nD) : W16 m ρ c (Proc.devRef .tc main_v3) = val_main_v3 (F := Ideal) (m ((c : Thread nD τ).loc main_arg2)) :=
  (Kept.keep_main_v3_16_12 m ρ c).trans (b1_sources m ρ c)
theorem b2_targets (c : Dev nD) : W16 m ρ c (Proc.devRef .tc main_v6) = val_main_v6 (F := Ideal) (m ((c : Thread nD τ).loc main_arg2)) :=
  (Kept.keep_main_v6_16_12 m ρ c).trans (b1_targets m ρ c)
theorem b2_weights (c : Dev nD) : W16 m ρ c (Proc.devRef .tc main_v30) = val_main_v38 (F := Ideal) (m ((c : Thread nD τ).loc main_arg2)) :=
  (Kept.keep_main_v30_16_12 m ρ c).trans (b1_weights m ρ c)

/-- After the stretch the aggregation buffer holds the reference's gather-scale-scatter of the product. -/
theorem b2_agg (c : Dev nD) : W17 m ρ c (Proc.devRef .tc main_v99) = val_main_v120 (F := Ideal) (m ((c : Thread nD τ).loc main_arg1)) (m ((c : Thread nD τ).loc main_arg2)) (m ((c : Thread nD τ).loc main_arg5)) (m ((c : Thread nD τ).loc main_arg6)) (m ((c : Thread nD τ).loc main_arg9)) (m ((c : Thread nD τ).loc main_arg13)) := by
  show StableHlo.after hostOps7 (W16 m ρ c) (Proc.devRef .tc main_v99) = _
  after_results_simp
  rw [b2_proj m ρ c, b2_sources m ρ c, b2_targets m ρ c, b2_weights m ρ c]
  rfl

/-- The bias, reshaped to one row. -/
theorem b2_b (c : Dev nD) :
    W17 m ρ c (Proc.devRef .tc main_v100) = (shapeCast S1x128 (m ((c : Thread nD τ).loc main_arg10)) shapeCasts_S128_S1x128 : FVec Ideal S1x128 .f32) := by
  show StableHlo.after hostOps7 (W16 m ρ c) (Proc.devRef .tc main_v100) = _
  after_results
  rw [show W16 m ρ c (Proc.devRef .tc main_arg10) = (m ((c : Thread nD τ).loc main_arg10)) from Kept.keep_main_arg10_16 m ρ c]
  rfl

/-- The rectifier's slope, reshaped to one row. -/
theorem b2_a (c : Dev nD) :
    W17 m ρ c (Proc.devRef .tc main_v101) = (shapeCast S1x128 (m ((c : Thread nD τ).loc main_arg14)) shapeCasts_S128_S1x128 : FVec Ideal S1x128 .f32) := by
  show StableHlo.after hostOps7 (W16 m ρ c) (Proc.devRef .tc main_v101) = _
  after_results
  rw [show W16 m ρ c (Proc.devRef .tc main_arg14) = (m ((c : Thread nD τ).loc main_arg14)) from Kept.keep_main_arg14_16 m ρ c]
  rfl

/-- After the second launch the layer's output holds the reference's bias-and-rectifier stage. -/
theorem b2_out (c : Dev nD) : W18 m ρ c (Proc.devRef .tc main_v102) = val_main_v129 (F := Ideal) (m ((c : Thread nD τ).loc main_arg1)) (m ((c : Thread nD τ).loc main_arg2)) (m ((c : Thread nD τ).loc main_arg5)) (m ((c : Thread nD τ).loc main_arg6)) (m ((c : Thread nD τ).loc main_arg9)) (m ((c : Thread nD τ).loc main_arg10)) (m ((c : Thread nD τ).loc main_arg13)) (m ((c : Thread nD τ).loc main_arg14)) := by
  refine ((W18_arr m ρ c 3).trans (Blocks.bp7_final (V17 m ρ) c)).trans ?_
  rw [show V17 m ρ c main_v99 = val_main_v120 (F := Ideal) (m ((c : Thread nD τ).loc main_arg1)) (m ((c : Thread nD τ).loc main_arg2)) (m ((c : Thread nD τ).loc main_arg5)) (m ((c : Thread nD τ).loc main_arg6)) (m ((c : Thread nD τ).loc main_arg9)) (m ((c : Thread nD τ).loc main_arg13)) from b2_agg m ρ c,
    show V17 m ρ c main_v100 = (shapeCast S1x128 (m ((c : Thread nD τ).loc main_arg10)) shapeCasts_S128_S1x128 : FVec Ideal S1x128 .f32) from b2_b m ρ c,
    show V17 m ρ c main_v101 = (shapeCast S1x128 (m ((c : Thread nD τ).loc main_arg14)) shapeCasts_S128_S1x128 : FVec Ideal S1x128 .f32) from b2_a m ρ c]
  exact (biasPrelu_host (val_main_v120 (F := Ideal) (m ((c : Thread nD τ).loc main_arg1)) (m ((c : Thread nD τ).loc main_arg2)) (m ((c : Thread nD τ).loc main_arg5)) (m ((c : Thread nD τ).loc main_arg6)) (m ((c : Thread nD τ).loc main_arg9)) (m ((c : Thread nD τ).loc main_arg13))) (m ((c : Thread nD τ).loc main_arg10)) (m ((c : Thread nD τ).loc main_arg14)) _ _ _
    shapeCasts_S128_S1x128).symm

end Cert.KernelIdeal.Fold

end
-- ==== Proof.Final.lean ====
/-
  The last launch, and the program's result.

  The two mixing weights are the softmax of the length-2 argument, computed by the host with the reference's own
  operations and reshaped to one row. The last launch reads the two branches' outputs — each written once, by the
  branch's second layer, and untouched since — and the weight row, and leaves the normalised mix of the whole arrays
  in the result buffer. The reference divides each branch by its row scales and mixes with the same two weights,
  written with broadcasts; that is the same map. So the result buffer holds the reference's result of the arguments.
-/
import proofs.«123922_j71399536328730_2_alg».proof.Proof.Gen.KernelIdeal.Frame
import proofs.«123922_j71399536328730_2_alg».proof.Proof.RefRead
import proofs.«123922_j71399536328730_2_alg».proof.Proof.SpecNormHost
import proofs.«123922_j71399536328730_2_alg».proof.Proof.KeepTactic
import proofs.«123922_j71399536328730_2_alg».proof.Proof.KeepArgsB
import proofs.«123922_j71399536328730_2_alg».proof.Proof.KeepTables
import proofs.«123922_j71399536328730_2_alg».proof.Proof.NormFuse8
import proofs.«123922_j71399536328730_2_alg».proof.Proof.Layer_a2
import proofs.«123922_j71399536328730_2_alg».proof.Proof.Layer_b2

set_option maxRecDepth 16384

noncomputable section

namespace Cert.KernelIdeal.Fold

open Cert.KernelIdeal Cert.KernelIdeal.Gen Idealize.ShloMosaic Idealize.ShloMosaic.TcCoe Idealize.SL.Sem
open Idealize.ShloMosaic.StableHlo Idealize.ShloMosaic.ValueIdx Cert.GraphFusion
open Cert.ReferenceIdeal.ReadP

variable (m : (ℓ : Loc nD τ sig) → Buf (Elt Ideal) ℓ) (ρ : Dev nD → PrngReg)

/-- The two mixing weights, as one row. -/
theorem mix_weights (c : Dev nD) :
    W19 m ρ c (Proc.devRef .tc main_v113) = (shapeCast S1x2 (val_main_v147 (F := Ideal) (m ((c : Thread nD τ).loc main_arg15))) shapeCasts_S2_S1x2 : FVec Ideal S1x2 .f32) := by
  show StableHlo.after hostOps8 (W18 m ρ c) (Proc.devRef .tc main_v113) = _
  after_results_simp
  rw [show W18 m ρ c (Proc.devRef .tc main_arg15) = (m ((c : Thread nD τ).loc main_arg15)) from Kept.keep_main_arg15_18 m ρ c]
  rfl

/-- The first branch's output, as the last launch finds it. -/
theorem branch1 (c : Dev nD) : W19 m ρ c (Proc.devRef .tc main_v66) = val_main_v75 (F := Ideal) (m ((c : Thread nD τ).loc main_arg0)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg11)) (m ((c : Thread nD τ).loc main_arg12)) :=
  (Kept.keep_main_v66_19_10 m ρ c).trans (a2_out m ρ c)

/-- The second branch's output, as the last launch finds it. -/
theorem branch2 (c : Dev nD) : W19 m ρ c (Proc.devRef .tc main_v102) = val_main_v129 (F := Ideal) (m ((c : Thread nD τ).loc main_arg1)) (m ((c : Thread nD τ).loc main_arg2)) (m ((c : Thread nD τ).loc main_arg5)) (m ((c : Thread nD τ).loc main_arg6)) (m ((c : Thread nD τ).loc main_arg9)) (m ((c : Thread nD τ).loc main_arg10)) (m ((c : Thread nD τ).loc main_arg13)) (m ((c : Thread nD τ).loc main_arg14)) :=
  (Kept.keep_main_v102_19_18 m ρ c).trans (b2_out m ρ c)

/-- After the last launch the result buffer holds the reference's result of the argument arrays. -/
theorem result (c : Dev nD) :
    W20 m ρ c (Proc.devRef .tc main_v114) = val_main_v156 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine ((W20_arr m ρ c 3).trans (Blocks.nf_final (V19 m ρ) c)).trans ?_
  rw [show V19 m ρ c main_v66 = val_main_v75 (F := Ideal) (m ((c : Thread nD τ).loc main_arg0)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg11)) (m ((c : Thread nD τ).loc main_arg12)) from branch1 m ρ c,
    show V19 m ρ c main_v102 = val_main_v129 (F := Ideal) (m ((c : Thread nD τ).loc main_arg1)) (m ((c : Thread nD τ).loc main_arg2)) (m ((c : Thread nD τ).loc main_arg5)) (m ((c : Thread nD τ).loc main_arg6)) (m ((c : Thread nD τ).loc main_arg9)) (m ((c : Thread nD τ).loc main_arg10)) (m ((c : Thread nD τ).loc main_arg13)) (m ((c : Thread nD τ).loc main_arg14)) from branch2 m ρ c,
    show V19 m ρ c main_v113 = (shapeCast S1x2 (val_main_v147 (F := Ideal) (m ((c : Thread nD τ).loc main_arg15))) shapeCasts_S2_S1x2 : FVec Ideal S1x2 .f32) from mix_weights m ρ c,
    asRow_apply (val_main_v147 (F := Ideal) (m ((c : Thread nD τ).loc main_arg15))) shapeCasts_S2_S1x2 (0 : Fin 2), asRow_apply (val_main_v147 (F := Ideal) (m ((c : Thread nD τ).loc main_arg15))) shapeCasts_S2_S1x2 (1 : Fin 2)]
  exact (normMix_host (val_main_v75 (F := Ideal) (m ((c : Thread nD τ).loc main_arg0)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg11)) (m ((c : Thread nD τ).loc main_arg12))) (val_main_v129 (F := Ideal) (m ((c : Thread nD τ).loc main_arg1)) (m ((c : Thread nD τ).loc main_arg2)) (m ((c : Thread nD τ).loc main_arg5)) (m ((c : Thread nD τ).loc main_arg6)) (m ((c : Thread nD τ).loc main_arg9)) (m ((c : Thread nD τ).loc main_arg10)) (m ((c : Thread nD τ).loc main_arg13)) (m ((c : Thread nD τ).loc main_arg14))) (val_main_v147 (F := Ideal) (m ((c : Thread nD τ).loc main_arg15)))
    _ (by decide) _ _ _ _ _ _ _ _).symm

end Cert.KernelIdeal.Fold

end
-- ==== Proof.lean ====
/-
  A two-branch graph-convolution network computed by nine kernel launches equals its plain reference, on the
  extended reals.

  Each branch applies two graph convolutions — multiply the node features by a weight matrix, gather the rows along
  the edges, scale by deg^(-1/2)(source) · deg^(-1/2)(target), sum into the target nodes, add a bias, apply a
  parametric rectifier — and the two outputs are divided row by row by max(‖row‖, 1e-12) and added with softmax
  weights. The kernel program computes the four matrix products, the four bias-and-rectifier steps and the final
  normalise-and-mix in launches that work on ten blocks of 5000 rows each, on operands narrowed to bf16 for the
  products; the host does the gathers and scatters in both programs, with the same operations. Narrowing is the
  identity on the extended reals, a row-blocked product is the product, bias-and-rectifier acts entry by entry and the
  row norm depends on the row only, so every buffer of the kernel program holds the reference's stage of the same
  arguments (Fold.result), with no appeal to finiteness. The frames are the generated ones; the reference's is its run
  with the result dropped; the idealization rewrote no operation, so nothing is owed for it.
-/
import proofs.«123922_j71399536328730_2_alg».proof.Defs
import proofs.«123922_j71399536328730_2_alg».proof.Proof.Gen.Kernel
import proofs.«123922_j71399536328730_2_alg».proof.Proof.Gen.Kernel.Skeleton
import proofs.«123922_j71399536328730_2_alg».proof.Proof.Gen.Kernel.Launch
import proofs.«123922_j71399536328730_2_alg».proof.Proof.Gen.Kernel.Points
import proofs.«123922_j71399536328730_2_alg».proof.Proof.Gen.Kernel.Frame
import proofs.«123922_j71399536328730_2_alg».proof.Proof.Gen.KernelIdeal
import proofs.«123922_j71399536328730_2_alg».proof.Proof.Gen.KernelIdeal.Skeleton
import proofs.«123922_j71399536328730_2_alg».proof.Proof.Gen.KernelIdeal.Launch
import proofs.«123922_j71399536328730_2_alg».proof.Proof.Gen.KernelIdeal.Points
import proofs.«123922_j71399536328730_2_alg».proof.Proof.Gen.KernelIdeal.Frame
import proofs.«123922_j71399536328730_2_alg».proof.Proof.Gen.ReferenceIdeal
import proofs.«123922_j71399536328730_2_alg».proof.Proof.Gen.Pre_finite_inputs
import proofs.«123922_j71399536328730_2_alg».proof.Proof.RefRead
import proofs.«123922_j71399536328730_2_alg».proof.Proof.RefRunHand
import proofs.«123922_j71399536328730_2_alg».proof.Proof.RunResult
import proofs.«123922_j71399536328730_2_alg».proof.Proof.Final
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, with the result dropped. -/
theorem frame_ri : Cert.frame_ReferenceIdeal := fun m ρ _ =>
  (θ_run Cert.ReferenceIdeal.defs _ _).mono (fun _ h c => (h c).2) (Cert.ReferenceIdeal.ByHand.run m ρ)

/-- Both programs end with the reference's result of the kernel program's arguments: the kernel program by the fold
    through its twenty segments, the reference by its run, read stage by stage, from arguments that agree. -/
theorem algebraic : Cert.algebraic_KernelIdeal_ReferenceIdeal := by
  intro m ρ m' ρ' _ hagree
  refine ⟨fun c => Cert.ReferenceIdeal.ReadP.val_main_v156 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · exact (θ_run Cert.KernelIdeal.defs _ _).mono
      (fun r h c => ⟨(h c).1.trans (Cert.KernelIdeal.Fold.result m ρ c), (h c).2⟩)
      (Cert.KernelIdeal.Result.run_result (F := Ideal) m ρ)
  · refine (θ_run Cert.ReferenceIdeal.defs _ _).mono (fun _ h c => ⟨(h c).1.trans ?_, (h c).2⟩)
      (Cert.ReferenceIdeal.ByHand.run m' ρ')
    obtain ⟨e0, e1, e2, e3, e4, e5, e6, e7, e8, e9, e10, e11, e12, e13, e14, e15⟩ := hagree c
    rw [e0, e1, e2, e3, e4, e5, e6, e7, e8, e9, e10, e11, e12, e13, e14, e15]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
